-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v120)) (v1 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_v140) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v245) = v0 c
          ∧ r.2.mem ((c.tc : Thread Cert.ReferenceIdeal.nD Cert.ReferenceIdeal.τ).loc Cert.ReferenceIdeal.main_v290) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S1250000x32 : Shape := ⟨2, ![1250000, 32]⟩
abbrev S64x64 : Shape := ⟨2, ![64, 64]⟩
abbrev S64 : Shape := ⟨1, ![64]⟩
abbrev S32x64 : Shape := ⟨2, ![32, 64]⟩
abbrev S3x128x64 : Shape := ⟨3, ![3, 128, 64]⟩
abbrev S3x64 : Shape := ⟨2, ![3, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000x32 : S_.BroadcastsInDim S1250000x32 (![] : Fin 0 → Fin S1250000x32.rank)
  reducesTo_S1250000x32_S_d0_1 : S1250000x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S3x64 .f32) (main_arg13 : FVec F S3x64 .f32) (main_arg14 : FVec F S3x64 .f32) (main_v48 : IVec S_ 1) (main_v49 : FVec F S3x128x64 .f32) (main_v50 : FVec F S3x128x64 .f32) : IVec S_ 1 :=
  let main_v51 : IVec S3x128x64 1 := cmpf .olt main_v49 main_v50
  let main_c_19 : IVec S_ 1 := constantI S_ 1 1#1
  let main_v52 : IVec S_ 1 := (fun x v => Host.reduce IntOp.andi x v reducesTo_S3x128x64_S_d0_1_2 h_S_) main_v51 main_c_19
  let main_v53 : IVec S_ 1 := andi main_v48 main_v52
  let main_v54 : FVec F S3x64 .f32 := Host.absf main_arg12
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3x64 .f32 := Host.absf main_arg13
  let main_cst_22 : FVec F S_ .f32 := constant S_ .f32 0x7F800000#32
  let main_v60 : FVec F S3x64 .f32 := broadcastInDim S3x64 ![] bcast_S_S3x64 main_cst_22
  let main_v61 : IVec S3x64 1 := cmpf .olt main_v59 main_v60
  let main_c_23 : IVec S_ 1 := constantI S_ 1 1#1
  let main_v62 : IVec S_ 1 := (fun x v => Host.reduce IntOp.andi x v reducesTo_S3x64_S_d0_1 h_S_) main_v61 main_c_23
  let main_v63 : IVec S_ 1 := andi main_v58 main_v62
  let main_v64 : FVec F S3x64 .f32 := Host.absf main_arg14
  let main_cst_24 : FVec F S_ .f32 := constant S_ .f32 0x7F800000#32
  let main_v65 : FVec F S3x64 .f32 := broadcastInDim S3x64 ![] bcast_S_S3x64 main_cst_24
  let main_v66 : IVec S3x64 1 := cmpf .olt main_v64 main_v65
  let main_c_25 : IVec S_ 1 := constantI S_ 1 1#1
  let main_v67 : IVec S_ 1 := (fun x v => Host.reduce IntOp.andi x v reducesTo_S3x64_S_d0_1 h_S_) main_v66 main_c_25
  fn_part4 (F := F) main_v63 main_v67

def fn_part2 {F : FTy → Type} [FloatOps F] (main_arg8 : FVec F S3x64 .f32) (main_arg9 : FVec F S3x64 .f32) (main_arg10 : FVec F S3x64 .f32) (main_arg11 : FVec F S3x128x64 .f32) (main_arg12 : FVec F S3x64 .f32) (main_arg13 : FVec F S3x64 .f32) (main_arg14 : FVec F S3x64 .f32) (main_v33 : IVec S_ 1) : IVec S_ 1 :=
  let main_v34 : FVec F S3x64 .f32 := Host.absf main_arg8
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64 .f32 := Host.absf main_arg9
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64 .f32 := Host.absf main_arg10
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x128x64 .f32 := Host.absf main_arg11
  let main_cst_18 : FVec F S_ .f32 := constant S_ .f32 0x7F800000#32
  let main_v50 : FVec F S3x128x64 .f32 := broadcastInDim S3x128x64 ![] bcast_S_S3x128x64 main_cst_18
  fn_part3 (F := F) main_arg12 main_arg13 main_arg14 main_v48 main_v49 main_v50

def fn_part1 {F : FTy → Type} [FloatOps F] (main_arg5 : FVec F S32x64 .f32) (main_arg6 : FVec F S64 .f32) (main_arg7 : FVec F S3x128x64 .f32) (main_arg8 : FVec F S3x64 .f32) (main_arg9 : FVec F S3x64 .f32) (main_arg10 : FVec F S3x64 .f32) (main_arg11 : FVec F S3x128x64 .f32) (main_arg12 : FVec F S3x64 .f32) (main_arg13 : FVec F S3x64 .f32) (main_arg14 : FVec F S3x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x128x64 .f32 := Host.absf main_arg7
  let main_cst_10 : FVec F S_ .f32 := constant S_ .f32 0x7F800000#32
  let main_v30 : FVec F S3x128x64 .f32 := broadcastInDim S3x128x64 ![] bcast_S_S3x128x64 main_cst_10
  let main_v31 : IVec S3x128x64 1 := cmpf .olt main_v29 main_v30
  let main_c_11 : IVec S_ 1 := constantI S_ 1 1#1
  let main_v32 : IVec S_ 1 := (fun x v => Host.reduce IntOp.andi x v reducesTo_S3x128x64_S_d0_1_2 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x64 .f32) (main_arg1 : IVec S2x1250000 32) (main_arg2 : FVec F S1250000x32 .f32) (main_arg3 : FVec F S64x64 .f32) (main_arg4 : FVec F S64 .f32) (main_arg5 : FVec F S32x64 .f32) (main_arg6 : FVec F S64 .f32) (main_arg7 : FVec F S3x128x64 .f32) (main_arg8 : FVec F S3x64 .f32) (main_arg9 : FVec F S3x64 .f32) (main_arg10 : FVec F S3x64 .f32) (main_arg11 : FVec F S3x128x64 .f32) (main_arg12 : FVec F S3x64 .f32) (main_arg13 : FVec F S3x64 .f32) (main_arg14 : FVec F S3x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000x32 .f32 := Host.absf main_arg2
  let main_cst_0 : FVec F S_ .f32 := constant S_ .f32 0x7F800000#32
  let main_v5 : FVec F S1250000x32 .f32 := broadcastInDim S1250000x32 ![] bcast_S_S1250000x32 main_cst_0
  let main_v6 : IVec S1250000x32 1 := cmpf .olt main_v4 main_v5
  let main_c_1 : IVec S_ 1 := constantI S_ 1 1#1
  let main_v7 : IVec S_ 1 := (fun x v => Host.reduce IntOp.andi x v reducesTo_S1250000x32_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x64 : Shape := ⟨2, ![100000, 64]⟩
abbrev S2x1250000 : Shape := ⟨2, ![2, 1250000]⟩
abbrev S1250000x32 : Shape := ⟨2, ![1250000, 32]⟩
abbrev S64x64 : Shape := ⟨2, ![64, 64]⟩
abbrev S64 : Shape := ⟨1, ![64]⟩
abbrev S32x64 : Shape := ⟨2, ![32, 64]⟩
abbrev S3x128x64 : Shape := ⟨3, ![3, 128, 64]⟩
abbrev S3x64 : Shape := ⟨2, ![3, 64]⟩
abbrev S1x1250000 : Shape := ⟨2, ![1, 1250000]⟩
abbrev S1250000 : Shape := ⟨1, ![1250000]⟩
abbrev S1x64 : Shape := ⟨2, ![1, 64]⟩
abbrev S1250000x64 : Shape := ⟨2, ![1250000, 64]⟩
abbrev S_ : Shape := ⟨0, ![]⟩
abbrev S1250000x1 : Shape := ⟨2, ![1250000, 1]⟩
abbrev S100000x128 : Shape := ⟨2, ![100000, 128]⟩
abbrev S1x128x64 : Shape := ⟨3, ![1, 128, 64]⟩
abbrev S128x64 : Shape := ⟨2, ![128, 64]⟩
abbrev S10000x128 : Shape := ⟨2, ![10000, 128]⟩
abbrev S10000x64 : Shape := ⟨2, ![10000, 64]⟩
abbrev S10000 : Shape := ⟨1, ![10000]⟩
abbrev S10000x1 : Shape := ⟨2, ![10000, 1]⟩
abbrev S1250000x128 : Shape := ⟨2, ![1250000, 128]⟩

abbrev nBuf : Space → Nat
  | .hbm => 171
  | .vmem => 48
  | .smem => 0
  | _ => 0

abbrev hbmTy0_0 (i : Nat) : BufTy := match i % 128 with
  | 0 => ⟨S100000x64, .f32⟩
  | 1 => ⟨S2x1250000, .i32⟩
  | 2 => ⟨S1250000x32, .f32⟩
  | 3 => ⟨S64x64, .f32⟩
  | 4 => ⟨S64, .f32⟩
  | 5 => ⟨S32x64, .f32⟩
  | 6 => ⟨S64, .f32⟩
  | 7 => ⟨S3x128x64, .f32⟩
  | 8 => ⟨S3x64, .f32⟩
  | 9 => ⟨S3x64, .f32⟩
  | 10 => ⟨S3x64, .f32⟩
  | 11 => ⟨S3x128x64, .f32⟩
  | 12 => ⟨S3x64, .f32⟩
  | 13 => ⟨S3x64, .f32⟩
  | 14 => ⟨S3x64, .f32⟩
  | 15 => ⟨S1x1250000, .i32⟩
  | 16 => ⟨S1250000, .i32⟩
  | 17 => ⟨S1x1250000, .i32⟩
  | 18 => ⟨S1250000, .i32⟩
  | 19 => ⟨S100000x64, .f32⟩
  | 20 => ⟨S1x64, .f32⟩
  | 21 => ⟨S100000x64, .f32⟩
  | 22 => ⟨S100000x64, .f32⟩
  | 23 => ⟨S1250000x64, .f32⟩
  | 24 => ⟨S1x64, .f32⟩
  | 25 => ⟨S1250000x64, .f32⟩
  | 26 => ⟨S1250000x64, .f32⟩
  | 27 => ⟨S_, .i32⟩
  | 28 => ⟨S1250000, .i32⟩
  | 29 => ⟨S1250000, .i1⟩
  | 30 => ⟨S_, .i32⟩
  | 31 => ⟨S1250000, .i32⟩
  | 32 => ⟨S1250000, .i32⟩
  | 33 => ⟨S1250000, .i32⟩
  | 34 => ⟨S1250000x1, .i32⟩
  | 35 => ⟨S1250000x64, .f32⟩
  | 36 => ⟨S_, .f32⟩
  | 37 => ⟨S100000x64, .f32⟩
  | 38 => ⟨S1250000x1, .i32⟩
  | 39 => ⟨S100000x64, .f32⟩
  | 40 => ⟨S100000x128, .f32⟩
  | 41 => ⟨S1x128x64, .f32⟩
  | 42 => ⟨S128x64, .f32⟩
  | 43 => ⟨S1x64, .f32⟩
  | 44 => ⟨S64, .f32⟩
  | 45 => ⟨S1x64, .f32⟩
  | 46 => ⟨S64, .f32⟩
  | 47 => ⟨S1x64, .f32⟩
  | 48 => ⟨S64, .f32⟩
  | 49 => ⟨S1x64, .f32⟩
  | 50 => ⟨S1x64, .f32⟩
  | 51 => ⟨S1x64, .f32⟩
  | 52 => ⟨S100000x64, .f32⟩
  | 53 => ⟨S_, .i32⟩
  | 54 => ⟨S1250000, .i32⟩
  | 55 => ⟨S1250000, .i1⟩
  | 56 => ⟨S_, .i32⟩
  | 57 => ⟨S1250000, .i32⟩
  | 58 => ⟨S1250000, .i32⟩
  | 59 => ⟨S1250000, .i32⟩
  | 60 => ⟨S1250000x1, .i32⟩
  | 61 => ⟨S1250000x64, .f32⟩
  | 62 => ⟨S1250000x128, .f32⟩
  | 63 => ⟨S1x128x64, .f32⟩
  | 64 => ⟨S128x64, .f32⟩
  | 65 => ⟨S1x64, .f32⟩
  | 66 => ⟨S64, .f32⟩
  | 67 => ⟨S1x64, .f32⟩
  | 68 => ⟨S64, .f32⟩
  | 69 => ⟨S1x64, .f32⟩
  | 70 => ⟨S64, .f32⟩
  | 71 => ⟨S1x64, .f32⟩
  | 72 => ⟨S1x64, .f32⟩
  | 73 => ⟨S1x64, .f32⟩
  | 74 => ⟨S1250000x64, .f32⟩
  | 75 => ⟨S_, .i32⟩
  | 76 => ⟨S1250000, .i32⟩
  | 77 => ⟨S1250000, .i1⟩
  | 78 => ⟨S_, .i32⟩
  | 79 => ⟨S1250000, .i32⟩
  | 80 => ⟨S1250000, .i32⟩
  | 81 => ⟨S1250000, .i32⟩
  | 82 => ⟨S1250000x1, .i32⟩
  | 83 => ⟨S1250000x64, .f32⟩
  | 84 => ⟨S_, .f32⟩
  | 85 => ⟨S100000x64, .f32⟩
  | 86 => ⟨S1250000x1, .i32⟩
  | 87 => ⟨S100000x64, .f32⟩
  | 88 => ⟨S100000x128, .f32⟩
  | 89 => ⟨S1x128x64, .f32⟩
  | 90 => ⟨S128x64, .f32⟩
  | 91 => ⟨S1x64, .f32⟩
  | 92 => ⟨S64, .f32⟩
  | 93 => ⟨S1x64, .f32⟩
  | 94 => ⟨S64, .f32⟩
  | 95 => ⟨S1x64, .f32⟩
  | 96 => ⟨S64, .f32⟩
  | 97 => ⟨S1x64, .f32⟩
  | 98 => ⟨S1x64, .f32⟩
  | 99 => ⟨S1x64, .f32⟩
  | 100 => ⟨S100000x64, .f32⟩
  | 101 => ⟨S_, .i32⟩
  | 102 => ⟨S1250000, .i32⟩
  | 103 => ⟨S1250000, .i1⟩
  | 104 => ⟨S_, .i32⟩
  | 105 => ⟨S1250000, .i32⟩
  | 106 => ⟨S1250000, .i32⟩
  | 107 => ⟨S1250000, .i32⟩
  | 108 => ⟨S1250000x1, .i32⟩
  | 109 => ⟨S1250000x64, .f32⟩
  | 110 => ⟨S1250000x128, .f32⟩
  | 111 => ⟨S1x128x64, .f32⟩
  | 112 => ⟨S128x64, .f32⟩
  | 113 => ⟨S1x64, .f32⟩
  | 114 => ⟨S64, .f32⟩
  | 115 => ⟨S1x64, .f32⟩
  | 116 => ⟨S64, .f32⟩
  | 117 => ⟨S1x64, .f32⟩
  | 118 => ⟨S64, .f32⟩
  | 119 => ⟨S1x64, .f32⟩
  | 120 => ⟨S1x64, .f32⟩
  | 121 => ⟨S1x64, .f32⟩
  | 122 => ⟨S1250000x64, .f32⟩
  | 123 => ⟨S_, .i32⟩
  | 124 => ⟨S1250000, .i32⟩
  | 125 => ⟨S1250000, .i1⟩
  | 126 => ⟨S_, .i32⟩
  | 127 => ⟨S1250000, .i32⟩
  | _ => ⟨S100000x64, .f32⟩

abbrev hbmTy0_1 (i : Nat) : BufTy := match i % 128 with
  | 0 => ⟨S1250000, .i32⟩
  | 1 => ⟨S1250000, .i32⟩
  | 2 => ⟨S1250000x1, .i32⟩
  | 3 => ⟨S1250000x64, .f32⟩
  | 4 => ⟨S_, .f32⟩
  | 5 => ⟨S100000x64, .f32⟩
  | 6 => ⟨S1250000x1, .i32⟩
  | 7 => ⟨S100000x64, .f32⟩
  | 8 => ⟨S100000x128, .f32⟩
  | 9 => ⟨S1x128x64, .f32⟩
  | 10 => ⟨S128x64, .f32⟩
  | 11 => ⟨S1x64, .f32⟩
  | 12 => ⟨S64, .f32⟩
  | 13 => ⟨S1x64, .f32⟩
  | 14 => ⟨S64, .f32⟩
  | 15 => ⟨S1x64, .f32⟩
  | 16 => ⟨S64, .f32⟩
  | 17 => ⟨S1x64, .f32⟩
  | 18 => ⟨S1x64, .f32⟩
  | 19 => ⟨S1x64, .f32⟩
  | 20 => ⟨S100000x64, .f32⟩
  | 21 => ⟨S_, .i32⟩
  | 22 => ⟨S1250000, .i32⟩
  | 23 => ⟨S1250000, .i1⟩
  | 24 => ⟨S_, .i32⟩
  | 25 => ⟨S1250000, .i32⟩
  | 26 => ⟨S1250000, .i32⟩
  | 27 => ⟨S1250000, .i32⟩
  | 28 => ⟨S1250000x1, .i32⟩
  | 29 => ⟨S1250000x64, .f32⟩
  | 30 => ⟨S1250000x128, .f32⟩
  | 31 => ⟨S1x128x64, .f32⟩
  | 32 => ⟨S128x64, .f32⟩
  | 33 => ⟨S1x64, .f32⟩
  | 34 => ⟨S64, .f32⟩
  | 35 => ⟨S1x64, .f32⟩
  | 36 => ⟨S64, .f32⟩
  | 37 => ⟨S1x64, .f32⟩
  | 38 => ⟨S64, .f32⟩
  | 39 => ⟨S1x64, .f32⟩
  | 40 => ⟨S1x64, .f32⟩
  | 41 => ⟨S1x64, .f32⟩
  | 42 => ⟨S1250000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x128, .f32⟩
  | .local _ .vmem, ⟨9, _⟩ => ⟨S10000x128, .f32⟩
  | .local _ .vmem, ⟨10, _⟩ => ⟨S128x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x128, .f32⟩
  | .local _ .vmem, ⟨17, _⟩ => ⟨S10000x128, .f32⟩
  | .local _ .vmem, ⟨18, _⟩ => ⟨S128x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S10000x128, .f32⟩
  | .local _ .vmem, ⟨25, _⟩ => ⟨S10000x128, .f32⟩
  | .local _ .vmem, ⟨26, _⟩ => ⟨S128x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S10000x128, .f32⟩
  | .local _ .vmem, ⟨33, _⟩ => ⟨S10000x128, .f32⟩
  | .local _ .vmem, ⟨34, _⟩ => ⟨S128x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S10000x128, .f32⟩
  | .local _ .vmem, ⟨41, _⟩ => ⟨S10000x128, .f32⟩
  | .local _ .vmem, ⟨42, _⟩ => ⟨S128x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_1 : Ref sig .tc := ⟨.hbm, 53, rfl⟩
abbrev main_v35 : Ref sig .tc := ⟨.hbm, 54, rfl⟩
abbrev main_v36 : Ref sig .tc := ⟨.hbm, 55, rfl⟩
abbrev main_c_2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_3 : Ref sig .tc := ⟨.hbm, 75, rfl⟩
abbrev main_v55 : Ref sig .tc := ⟨.hbm, 76, rfl⟩
abbrev main_v56 : Ref sig .tc := ⟨.hbm, 77, rfl⟩
abbrev main_c_4 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_5 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_6 : Ref sig .tc := ⟨.hbm, 101, rfl⟩
abbrev main_v78 : Ref sig .tc := ⟨.hbm, 102, rfl⟩
abbrev main_v79 : Ref sig .tc := ⟨.hbm, 103, rfl⟩
abbrev main_c_7 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_c_8 : Ref sig .tc := ⟨.hbm, 123, rfl⟩
abbrev main_v98 : Ref sig .tc := ⟨.hbm, 124, rfl⟩
abbrev main_v99 : Ref sig .tc := ⟨.hbm, 125, rfl⟩
abbrev main_c_9 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_10 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_c_11 : Ref sig .tc := ⟨.hbm, 149, rfl⟩
abbrev main_v121 : Ref sig .tc := ⟨.hbm, 150, rfl⟩
abbrev main_v122 : Ref sig .tc := ⟨.hbm, 151, rfl⟩
abbrev main_c_12 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![125], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1250000x64_0_1 : S1x64.BroadcastsInDim S1250000x64 (![0, 1] : Fin 2 → Fin S1250000x64.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  concatenates_S100000x64_S100000x64_S100000x128_d1 : Shape.Concatenates [S100000x64, S100000x64] S100000x128 1
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  concatenates_S1250000x64_S1250000x64_S1250000x128_d1 : Shape.Concatenates [S1250000x64, S1250000x64] S1250000x128 1
  slices_S3x128x64_S1x128x64_1_0_0 : S3x128x64.Slices ![1, 0, 0] S1x128x64
  slices_S3x64_S1x64_1_0 : S3x64.Slices ![1, 0] S1x64
  slices_S3x128x64_S1x128x64_2_0_0 : S3x128x64.Slices ![2, 0, 0] S1x128x64
  slices_S3x64_S1x64_2_0 : S3x64.Slices ![2, 0] S1x64
  dot_S100000x64_S64x64_S100000x64_1_0_0_1_n_n_wf : DotDims.WF S100000x64 S64x64 S100000x64 [1] [0] [0] [1] [] []
  dot_S1250000x32_S32x64_S1250000x64_1_0_0_1_n_n_wf : DotDims.WF S1250000x32 S32x64 S1250000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1250000x128.size a
  hwx1_0 : ∀ i : grid1.Coords, EltTy.bits .f32 = 32 ∨ (Rect.block (s := S1250000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S1250000x64.size a
  hwx1_5 : ∀ i : grid1.Coords, EltTy.bits .f32 = 32 ∨ (Rect.block (s := S1250000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S1250000x128.size a
  hwx3_0 : ∀ i : grid3.Coords, EltTy.bits .f32 = 32 ∨ (Rect.block (s := S1250000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S1250000x64.size a
  hwx3_5 : ∀ i : grid3.Coords, EltTy.bits .f32 = 32 ∨ (Rect.block (s := S1250000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S1250000x128.size a
  hwx5_0 : ∀ i : grid5.Coords, EltTy.bits .f32 = 32 ∨ (Rect.block (s := S1250000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S1250000x64.size a
  hwx5_5 : ∀ i : grid5.Coords, EltTy.bits .f32 = 32 ∨ (Rect.block (s := S1250000x64) S10000x64.size (cc5_transform_5 i) (hinb5_5 i)).WholeWords (EltTy.packing .f32)

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1250000x32_S32x64_S1250000x64_1_0_0_1_n_n : DotDims S1250000x32 S32x64 S1250000x64 where
  lhsContracting := [1]
  rhsContracting := [0]
  lhsNonContracting := [0]
  rhsNonContracting := [1]
  lhsBatch := []
  rhsBatch := []
  wf := dot_S1250000x32_S32x64_S1250000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v22) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v65) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v74) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v76) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v77) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v85) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v94) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v95) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v96) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v97) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v108) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v110) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v117) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v118) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v119) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v120) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v128) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v130) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v137) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v138) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v139) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v140) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S1250000x32 : Shape := ⟨2, ![1250000, 32]⟩
abbrev S64x64 : Shape := ⟨2, ![64, 64]⟩
abbrev S64 : Shape := ⟨1, ![64]⟩
abbrev S32x64 : Shape := ⟨2, ![32, 64]⟩
abbrev S3x128x64 : Shape := ⟨3, ![3, 128, 64]⟩
abbrev S3x64 : Shape := ⟨2, ![3, 64]⟩
abbrev S1x1250000 : Shape := ⟨2, ![1, 1250000]⟩
abbrev S1250000 : Shape := ⟨1, ![1250000]⟩
abbrev S1x64 : Shape := ⟨2, ![1, 64]⟩
abbrev S1250000x64 : Shape := ⟨2, ![1250000, 64]⟩
abbrev S_ : Shape := ⟨0, ![]⟩
abbrev S1250000x1 : Shape := ⟨2, ![1250000, 1]⟩
abbrev S100000x128 : Shape := ⟨2, ![100000, 128]⟩
abbrev S1x128x64 : Shape := ⟨3, ![1, 128, 64]⟩
abbrev S128x64 : Shape := ⟨2, ![128, 64]⟩
abbrev S100000 : Shape := ⟨1, ![100000]⟩
abbrev S100000x1 : Shape := ⟨2, ![100000, 1]⟩
abbrev S1250000x128 : Shape := ⟨2, ![1250000, 128]⟩

abbrev nBuf : Space → Nat
  | .hbm => 363
  | .vmem => 0
  | .smem => 0
  | _ => 0

abbrev hbmTy0_0 (i : Nat) : BufTy := match i % 128 with
  | 0 => ⟨S100000x64, .f32⟩
  | 1 => ⟨S2x1250000, .i32⟩
  | 2 => ⟨S1250000x32, .f32⟩
  | 3 => ⟨S64x64, .f32⟩
  | 4 => ⟨S64, .f32⟩
  | 5 => ⟨S32x64, .f32⟩
  | 6 => ⟨S64, .f32⟩
  | 7 => ⟨S3x128x64, .f32⟩
  | 8 => ⟨S3x64, .f32⟩
  | 9 => ⟨S3x64, .f32⟩
  | 10 => ⟨S3x64, .f32⟩
  | 11 => ⟨S3x128x64, .f32⟩
  | 12 => ⟨S3x64, .f32⟩
  | 13 => ⟨S3x64, .f32⟩
  | 14 => ⟨S3x64, .f32⟩
  | 15 => ⟨S1x1250000, .i32⟩
  | 16 => ⟨S1250000, .i32⟩
  | 17 => ⟨S1x1250000, .i32⟩
  | 18 => ⟨S1250000, .i32⟩
  | 19 => ⟨S100000x64, .f32⟩
  | 20 => ⟨S1x64, .f32⟩
  | 21 => ⟨S100000x64, .f32⟩
  | 22 => ⟨S100000x64, .f32⟩
  | 23 => ⟨S1250000x64, .f32⟩
  | 24 => ⟨S1x64, .f32⟩
  | 25 => ⟨S1250000x64, .f32⟩
  | 26 => ⟨S1250000x64, .f32⟩
  | 27 => ⟨S_, .i32⟩
  | 28 => ⟨S1250000, .i32⟩
  | 29 => ⟨S1250000, .i1⟩
  | 30 => ⟨S_, .i32⟩
  | 31 => ⟨S1250000, .i32⟩
  | 32 => ⟨S1250000, .i32⟩
  | 33 => ⟨S1250000, .i32⟩
  | 34 => ⟨S1250000x1, .i32⟩
  | 35 => ⟨S1250000x64, .f32⟩
  | 36 => ⟨S_, .f32⟩
  | 37 => ⟨S100000x64, .f32⟩
  | 38 => ⟨S1250000x1, .i32⟩
  | 39 => ⟨S100000x64, .f32⟩
  | 40 => ⟨S100000x128, .f32⟩
  | 41 => ⟨S1x128x64, .f32⟩
  | 42 => ⟨S128x64, .f32⟩
  | 43 => ⟨S100000x64, .f32⟩
  | 44 => ⟨S1x64, .f32⟩
  | 45 => ⟨S64, .f32⟩
  | 46 => ⟨S1x64, .f32⟩
  | 47 => ⟨S100000x64, .f32⟩
  | 48 => ⟨S100000x64, .f32⟩
  | 49 => ⟨S_, .f32⟩
  | 50 => ⟨S100000x64, .f32⟩
  | 51 => ⟨S100000x64, .f32⟩
  | 52 => ⟨S1x64, .f32⟩
  | 53 => ⟨S64, .f32⟩
  | 54 => ⟨S1x64, .f32⟩
  | 55 => ⟨S64, .f32⟩
  | 56 => ⟨S_, .f32⟩
  | 57 => ⟨S100000, .f32⟩
  | 58 => ⟨S100000x1, .f32⟩
  | 59 => ⟨S_, .f32⟩
  | 60 => ⟨S100000x1, .f32⟩
  | 61 => ⟨S100000x1, .f32⟩
  | 62 => ⟨S100000x64, .f32⟩
  | 63 => ⟨S100000x64, .f32⟩
  | 64 => ⟨S100000x64, .f32⟩
  | 65 => ⟨S_, .f32⟩
  | 66 => ⟨S100000, .f32⟩
  | 67 => ⟨S100000x1, .f32⟩
  | 68 => ⟨S_, .f32⟩
  | 69 => ⟨S100000x1, .f32⟩
  | 70 => ⟨S100000x1, .f32⟩
  | 71 => ⟨S100000x64, .f32⟩
  | 72 => ⟨S100000x64, .f32⟩
  | 73 => ⟨S_, .f32⟩
  | 74 => ⟨S100000x1, .f32⟩
  | 75 => ⟨S100000x1, .f32⟩
  | 76 => ⟨S100000x1, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S1x64, .f32⟩
  | 83 => ⟨S100000x64, .f32⟩
  | 84 => ⟨S100000x64, .f32⟩
  | 85 => ⟨S_, .i32⟩
  | 86 => ⟨S1250000, .i32⟩
  | 87 => ⟨S1250000, .i1⟩
  | 88 => ⟨S_, .i32⟩
  | 89 => ⟨S1250000, .i32⟩
  | 90 => ⟨S1250000, .i32⟩
  | 91 => ⟨S1250000, .i32⟩
  | 92 => ⟨S1250000x1, .i32⟩
  | 93 => ⟨S1250000x64, .f32⟩
  | 94 => ⟨S1250000x128, .f32⟩
  | 95 => ⟨S1x128x64, .f32⟩
  | 96 => ⟨S128x64, .f32⟩
  | 97 => ⟨S1250000x64, .f32⟩
  | 98 => ⟨S1x64, .f32⟩
  | 99 => ⟨S64, .f32⟩
  | 100 => ⟨S1x64, .f32⟩
  | 101 => ⟨S1250000x64, .f32⟩
  | 102 => ⟨S1250000x64, .f32⟩
  | 103 => ⟨S_, .f32⟩
  | 104 => ⟨S1250000x64, .f32⟩
  | 105 => ⟨S1250000x64, .f32⟩
  | 106 => ⟨S1x64, .f32⟩
  | 107 => ⟨S64, .f32⟩
  | 108 => ⟨S1x64, .f32⟩
  | 109 => ⟨S64, .f32⟩
  | 110 => ⟨S_, .f32⟩
  | 111 => ⟨S1250000, .f32⟩
  | 112 => ⟨S1250000x1, .f32⟩
  | 113 => ⟨S_, .f32⟩
  | 114 => ⟨S1250000x1, .f32⟩
  | 115 => ⟨S1250000x1, .f32⟩
  | 116 => ⟨S1250000x64, .f32⟩
  | 117 => ⟨S1250000x64, .f32⟩
  | 118 => ⟨S1250000x64, .f32⟩
  | 119 => ⟨S_, .f32⟩
  | 120 => ⟨S1250000, .f32⟩
  | 121 => ⟨S1250000x1, .f32⟩
  | 122 => ⟨S_, .f32⟩
  | 123 => ⟨S1250000x1, .f32⟩
  | 124 => ⟨S1250000x1, .f32⟩
  | 125 => ⟨S1250000x64, .f32⟩
  | 126 => ⟨S1250000x64, .f32⟩
  | 127 => ⟨S_, .f32⟩
  | _ => ⟨S100000x64, .f32⟩

abbrev hbmTy0_1 (i : Nat) : BufTy := match i % 128 with
  | 0 => ⟨S1250000x1, .f32⟩
  | 1 => ⟨S1250000x1, .f32⟩
  | 2 => ⟨S1250000x1, .f32⟩
  | 3 => ⟨S1250000x64, .f32⟩
  | 4 => ⟨S1250000x64, .f32⟩
  | 5 => ⟨S1x64, .f32⟩
  | 6 => ⟨S1250000x64, .f32⟩
  | 7 => ⟨S1250000x64, .f32⟩
  | 8 => ⟨S1x64, .f32⟩
  | 9 => ⟨S1250000x64, .f32⟩
  | 10 => ⟨S1250000x64, .f32⟩
  | 11 => ⟨S_, .i32⟩
  | 12 => ⟨S1250000, .i32⟩
  | 13 => ⟨S1250000, .i1⟩
  | 14 => ⟨S_, .i32⟩
  | 15 => ⟨S1250000, .i32⟩
  | 16 => ⟨S1250000, .i32⟩
  | 17 => ⟨S1250000, .i32⟩
  | 18 => ⟨S1250000x1, .i32⟩
  | 19 => ⟨S1250000x64, .f32⟩
  | 20 => ⟨S_, .f32⟩
  | 21 => ⟨S100000x64, .f32⟩
  | 22 => ⟨S1250000x1, .i32⟩
  | 23 => ⟨S100000x64, .f32⟩
  | 24 => ⟨S100000x128, .f32⟩
  | 25 => ⟨S1x128x64, .f32⟩
  | 26 => ⟨S128x64, .f32⟩
  | 27 => ⟨S100000x64, .f32⟩
  | 28 => ⟨S1x64, .f32⟩
  | 29 => ⟨S64, .f32⟩
  | 30 => ⟨S1x64, .f32⟩
  | 31 => ⟨S100000x64, .f32⟩
  | 32 => ⟨S100000x64, .f32⟩
  | 33 => ⟨S_, .f32⟩
  | 34 => ⟨S100000x64, .f32⟩
  | 35 => ⟨S100000x64, .f32⟩
  | 36 => ⟨S1x64, .f32⟩
  | 37 => ⟨S64, .f32⟩
  | 38 => ⟨S1x64, .f32⟩
  | 39 => ⟨S64, .f32⟩
  | 40 => ⟨S_, .f32⟩
  | 41 => ⟨S100000, .f32⟩
  | 42 => ⟨S100000x1, .f32⟩
  | 43 => ⟨S_, .f32⟩
  | 44 => ⟨S100000x1, .f32⟩
  | 45 => ⟨S100000x1, .f32⟩
  | 46 => ⟨S100000x64, .f32⟩
  | 47 => ⟨S100000x64, .f32⟩
  | 48 => ⟨S100000x64, .f32⟩
  | 49 => ⟨S_, .f32⟩
  | 50 => ⟨S100000, .f32⟩
  | 51 => ⟨S100000x1, .f32⟩
  | 52 => ⟨S_, .f32⟩
  | 53 => ⟨S100000x1, .f32⟩
  | 54 => ⟨S100000x1, .f32⟩
  | 55 => ⟨S100000x64, .f32⟩
  | 56 => ⟨S100000x64, .f32⟩
  | 57 => ⟨S_, .f32⟩
  | 58 => ⟨S100000x1, .f32⟩
  | 59 => ⟨S100000x1, .f32⟩
  | 60 => ⟨S100000x1, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .i32⟩
  | 70 => ⟨S1250000, .i32⟩
  | 71 => ⟨S1250000, .i1⟩
  | 72 => ⟨S_, .i32⟩
  | 73 => ⟨S1250000, .i32⟩
  | 74 => ⟨S1250000, .i32⟩
  | 75 => ⟨S1250000, .i32⟩
  | 76 => ⟨S1250000x1, .i32⟩
  | 77 => ⟨S1250000x64, .f32⟩
  | 78 => ⟨S1250000x128, .f32⟩
  | 79 => ⟨S1x128x64, .f32⟩
  | 80 => ⟨S128x64, .f32⟩
  | 81 => ⟨S1250000x64, .f32⟩
  | 82 => ⟨S1x64, .f32⟩
  | 83 => ⟨S64, .f32⟩
  | 84 => ⟨S1x64, .f32⟩
  | 85 => ⟨S1250000x64, .f32⟩
  | 86 => ⟨S1250000x64, .f32⟩
  | 87 => ⟨S_, .f32⟩
  | 88 => ⟨S1250000x64, .f32⟩
  | 89 => ⟨S1250000x64, .f32⟩
  | 90 => ⟨S1x64, .f32⟩
  | 91 => ⟨S64, .f32⟩
  | 92 => ⟨S1x64, .f32⟩
  | 93 => ⟨S64, .f32⟩
  | 94 => ⟨S_, .f32⟩
  | 95 => ⟨S1250000, .f32⟩
  | 96 => ⟨S1250000x1, .f32⟩
  | 97 => ⟨S_, .f32⟩
  | 98 => ⟨S1250000x1, .f32⟩
  | 99 => ⟨S1250000x1, .f32⟩
  | 100 => ⟨S1250000x64, .f32⟩
  | 101 => ⟨S1250000x64, .f32⟩
  | 102 => ⟨S1250000x64, .f32⟩
  | 103 => ⟨S_, .f32⟩
  | 104 => ⟨S1250000, .f32⟩
  | 105 => ⟨S1250000x1, .f32⟩
  | 106 => ⟨S_, .f32⟩
  | 107 => ⟨S1250000x1, .f32⟩
  | 108 => ⟨S1250000x1, .f32⟩
  | 109 => ⟨S1250000x64, .f32⟩
  | 110 => ⟨S1250000x64, .f32⟩
  | 111 => ⟨S_, .f32⟩
  | 112 => ⟨S1250000x1, .f32⟩
  | 113 => ⟨S1250000x1, .f32⟩
  | 114 => ⟨S1250000x1, .f32⟩
  | 115 => ⟨S1250000x64, .f32⟩
  | 116 => ⟨S1250000x64, .f32⟩
  | 117 => ⟨S1x64, .f32⟩
  | 118 => ⟨S1250000x64, .f32⟩
  | 119 => ⟨S1250000x64, .f32⟩
  | 120 => ⟨S1x64, .f32⟩
  | 121 => ⟨S1250000x64, .f32⟩
  | 122 => ⟨S1250000x64, .f32⟩
  | 123 => ⟨S_, .i32⟩
  | 124 => ⟨S1250000, .i32⟩
  | 125 => ⟨S1250000, .i1⟩
  | 126 => ⟨S_, .i32⟩
  | 127 => ⟨S1250000, .i32⟩
  | _ => ⟨S100000x64, .f32⟩

abbrev hbmTy0_2 (i : Nat) : BufTy := match i % 128 with
  | 0 => ⟨S1250000, .i32⟩
  | 1 => ⟨S1250000, .i32⟩
  | 2 => ⟨S1250000x1, .i32⟩
  | 3 => ⟨S1250000x64, .f32⟩
  | 4 => ⟨S_, .f32⟩
  | 5 => ⟨S100000x64, .f32⟩
  | 6 => ⟨S1250000x1, .i32⟩
  | 7 => ⟨S100000x64, .f32⟩
  | 8 => ⟨S100000x128, .f32⟩
  | 9 => ⟨S1x128x64, .f32⟩
  | 10 => ⟨S128x64, .f32⟩
  | 11 => ⟨S100000x64, .f32⟩
  | 12 => ⟨S1x64, .f32⟩
  | 13 => ⟨S64, .f32⟩
  | 14 => ⟨S1x64, .f32⟩
  | 15 => ⟨S100000x64, .f32⟩
  | 16 => ⟨S100000x64, .f32⟩
  | 17 => ⟨S_, .f32⟩
  | 18 => ⟨S100000x64, .f32⟩
  | 19 => ⟨S100000x64, .f32⟩
  | 20 => ⟨S1x64, .f32⟩
  | 21 => ⟨S64, .f32⟩
  | 22 => ⟨S1x64, .f32⟩
  | 23 => ⟨S64, .f32⟩
  | 24 => ⟨S_, .f32⟩
  | 25 => ⟨S100000, .f32⟩
  | 26 => ⟨S100000x1, .f32⟩
  | 27 => ⟨S_, .f32⟩
  | 28 => ⟨S100000x1, .f32⟩
  | 29 => ⟨S100000x1, .f32⟩
  | 30 => ⟨S100000x64, .f32⟩
  | 31 => ⟨S100000x64, .f32⟩
  | 32 => ⟨S100000x64, .f32⟩
  | 33 => ⟨S_, .f32⟩
  | 34 => ⟨S100000, .f32⟩
  | 35 => ⟨S100000x1, .f32⟩
  | 36 => ⟨S_, .f32⟩
  | 37 => ⟨S100000x1, .f32⟩
  | 38 => ⟨S100000x1, .f32⟩
  | 39 => ⟨S100000x64, .f32⟩
  | 40 => ⟨S100000x64, .f32⟩
  | 41 => ⟨S_, .f32⟩
  | 42 => ⟨S100000x1, .f32⟩
  | 43 => ⟨S100000x1, .f32⟩
  | 44 => ⟨S100000x1, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S_, .i32⟩
  | 54 => ⟨S1250000, .i32⟩
  | 55 => ⟨S1250000, .i1⟩
  | 56 => ⟨S_, .i32⟩
  | 57 => ⟨S1250000, .i32⟩
  | 58 => ⟨S1250000, .i32⟩
  | 59 => ⟨S1250000, .i32⟩
  | 60 => ⟨S1250000x1, .i32⟩
  | 61 => ⟨S1250000x64, .f32⟩
  | 62 => ⟨S1250000x128, .f32⟩
  | 63 => ⟨S1x128x64, .f32⟩
  | 64 => ⟨S128x64, .f32⟩
  | 65 => ⟨S1250000x64, .f32⟩
  | 66 => ⟨S1x64, .f32⟩
  | 67 => ⟨S64, .f32⟩
  | 68 => ⟨S1x64, .f32⟩
  | 69 => ⟨S1250000x64, .f32⟩
  | 70 => ⟨S1250000x64, .f32⟩
  | 71 => ⟨S_, .f32⟩
  | 72 => ⟨S1250000x64, .f32⟩
  | 73 => ⟨S1250000x64, .f32⟩
  | 74 => ⟨S1x64, .f32⟩
  | 75 => ⟨S64, .f32⟩
  | 76 => ⟨S1x64, .f32⟩
  | 77 => ⟨S64, .f32⟩
  | 78 => ⟨S_, .f32⟩
  | 79 => ⟨S1250000, .f32⟩
  | 80 => ⟨S1250000x1, .f32⟩
  | 81 => ⟨S_, .f32⟩
  | 82 => ⟨S1250000x1, .f32⟩
  | 83 => ⟨S1250000x1, .f32⟩
  | 84 => ⟨S1250000x64, .f32⟩
  | 85 => ⟨S1250000x64, .f32⟩
  | 86 => ⟨S1250000x64, .f32⟩
  | 87 => ⟨S_, .f32⟩
  | 88 => ⟨S1250000, .f32⟩
  | 89 => ⟨S1250000x1, .f32⟩
  | 90 => ⟨S_, .f32⟩
  | 91 => ⟨S1250000x1, .f32⟩
  | 92 => ⟨S1250000x1, .f32⟩
  | 93 => ⟨S1250000x64, .f32⟩
  | 94 => ⟨S1250000x64, .f32⟩
  | 95 => ⟨S_, .f32⟩
  | 96 => ⟨S1250000x1, .f32⟩
  | 97 => ⟨S1250000x1, .f32⟩
  | 98 => ⟨S1250000x1, .f32⟩
  | 99 => ⟨S1250000x64, .f32⟩
  | 100 => ⟨S1250000x64, .f32⟩
  | 101 => ⟨S1x64, .f32⟩
  | 102 => ⟨S1250000x64, .f32⟩
  | 103 => ⟨S1250000x64, .f32⟩
  | 104 => ⟨S1x64, .f32⟩
  | 105 => ⟨S1250000x64, .f32⟩
  | 106 => ⟨S1250000x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_1 : Ref sig .tc := ⟨.hbm, 56, rfl⟩
abbrev main_v36 : Ref sig .tc := ⟨.hbm, 57, rfl⟩
abbrev main_v37 : Ref sig .tc := ⟨.hbm, 58, rfl⟩
abbrev main_cst_2 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_3 : Ref sig .tc := ⟨.hbm, 65, rfl⟩
abbrev main_v43 : Ref sig .tc := ⟨.hbm, 66, rfl⟩
abbrev main_v44 : Ref sig .tc := ⟨.hbm, 67, rfl⟩
abbrev main_cst_4 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_5 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_6 : Ref sig .tc := ⟨.hbm, 85, rfl⟩
abbrev main_v60 : Ref sig .tc := ⟨.hbm, 86, rfl⟩
abbrev main_v61 : Ref sig .tc := ⟨.hbm, 87, rfl⟩
abbrev main_c_7 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_call1_cst : Ref sig .tc := ⟨.hbm, 103, rfl⟩
abbrev main_call1_v0 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_8 : Ref sig .tc := ⟨.hbm, 110, rfl⟩
abbrev main_v81 : Ref sig .tc := ⟨.hbm, 111, rfl⟩
abbrev main_v82 : Ref sig .tc := ⟨.hbm, 112, rfl⟩
abbrev main_cst_9 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_10 : Ref sig .tc := ⟨.hbm, 119, rfl⟩
abbrev main_v88 : Ref sig .tc := ⟨.hbm, 120, rfl⟩
abbrev main_v89 : Ref sig .tc := ⟨.hbm, 121, rfl⟩
abbrev main_cst_11 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_12 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_c_13 : Ref sig .tc := ⟨.hbm, 139, rfl⟩
abbrev main_v105 : Ref sig .tc := ⟨.hbm, 140, rfl⟩
abbrev main_v106 : Ref sig .tc := ⟨.hbm, 141, rfl⟩
abbrev main_c_14 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_15 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_call2_cst : Ref sig .tc := ⟨.hbm, 161, rfl⟩
abbrev main_call2_v0 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_16 : Ref sig .tc := ⟨.hbm, 168, rfl⟩
abbrev main_v129 : Ref sig .tc := ⟨.hbm, 169, rfl⟩
abbrev main_v130 : Ref sig .tc := ⟨.hbm, 170, rfl⟩
abbrev main_cst_17 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_cst_18 : Ref sig .tc := ⟨.hbm, 177, rfl⟩
abbrev main_v136 : Ref sig .tc := ⟨.hbm, 178, rfl⟩
abbrev main_v137 : Ref sig .tc := ⟨.hbm, 179, rfl⟩
abbrev main_cst_19 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_20 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_c_21 : Ref sig .tc := ⟨.hbm, 197, rfl⟩
abbrev main_v153 : Ref sig .tc := ⟨.hbm, 198, rfl⟩
abbrev main_v154 : Ref sig .tc := ⟨.hbm, 199, rfl⟩
abbrev main_c_22 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_call3_cst : Ref sig .tc := ⟨.hbm, 215, rfl⟩
abbrev main_call3_v0 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_cst_23 : Ref sig .tc := ⟨.hbm, 222, rfl⟩
abbrev main_v174 : Ref sig .tc := ⟨.hbm, 223, rfl⟩
abbrev main_v175 : Ref sig .tc := ⟨.hbm, 224, rfl⟩
abbrev main_cst_24 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_cst_25 : Ref sig .tc := ⟨.hbm, 231, rfl⟩
abbrev main_v181 : Ref sig .tc := ⟨.hbm, 232, rfl⟩
abbrev main_v182 : Ref sig .tc := ⟨.hbm, 233, rfl⟩
abbrev main_cst_26 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_cst_27 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_c_28 : Ref sig .tc := ⟨.hbm, 251, rfl⟩
abbrev main_v198 : Ref sig .tc := ⟨.hbm, 252, rfl⟩
abbrev main_v199 : Ref sig .tc := ⟨.hbm, 253, rfl⟩
abbrev main_c_29 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_cst_30 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_call4_cst : Ref sig .tc := ⟨.hbm, 273, rfl⟩
abbrev main_call4_v0 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_cst_31 : Ref sig .tc := ⟨.hbm, 280, rfl⟩
abbrev main_v222 : Ref sig .tc := ⟨.hbm, 281, rfl⟩
abbrev main_v223 : Ref sig .tc := ⟨.hbm, 282, rfl⟩
abbrev main_cst_32 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_cst_33 : Ref sig .tc := ⟨.hbm, 289, rfl⟩
abbrev main_v229 : Ref sig .tc := ⟨.hbm, 290, rfl⟩
abbrev main_v230 : Ref sig .tc := ⟨.hbm, 291, rfl⟩
abbrev main_cst_34 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_cst_35 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_c_36 : Ref sig .tc := ⟨.hbm, 309, rfl⟩
abbrev main_v246 : Ref sig .tc := ⟨.hbm, 310, rfl⟩
abbrev main_v247 : Ref sig .tc := ⟨.hbm, 311, rfl⟩
abbrev main_c_37 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_call5_cst : Ref sig .tc := ⟨.hbm, 327, rfl⟩
abbrev main_call5_v0 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩
abbrev main_cst_38 : Ref sig .tc := ⟨.hbm, 334, rfl⟩
abbrev main_v267 : Ref sig .tc := ⟨.hbm, 335, rfl⟩
abbrev main_v268 : Ref sig .tc := ⟨.hbm, 336, rfl⟩
abbrev main_cst_39 : Ref sig .tc := ⟨.hbm, 337, rfl⟩
abbrev main_v269 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_cst_40 : Ref sig .tc := ⟨.hbm, 343, rfl⟩
abbrev main_v274 : Ref sig .tc := ⟨.hbm, 344, rfl⟩
abbrev main_v275 : Ref sig .tc := ⟨.hbm, 345, rfl⟩
abbrev main_cst_41 : Ref sig .tc := ⟨.hbm, 346, rfl⟩
abbrev main_v276 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_cst_42 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_v285 : Ref sig .tc := ⟨.hbm, 357, rfl⟩
abbrev main_v286 : Ref sig .tc := ⟨.hbm, 358, rfl⟩
abbrev main_v287 : Ref sig .tc := ⟨.hbm, 359, rfl⟩
abbrev main_v288 : Ref sig .tc := ⟨.hbm, 360, rfl⟩
abbrev main_v289 : Ref sig .tc := ⟨.hbm, 361, rfl⟩
abbrev main_v290 : Ref sig .tc := ⟨.hbm, 362, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1250000x64_0_1 : S1x64.BroadcastsInDim S1250000x64 (![0, 1] : Fin 2 → Fin S1250000x64.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  concatenates_S100000x64_S100000x64_S100000x128_d1 : Shape.Concatenates [S100000x64, S100000x64] S100000x128 1
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  concatenates_S1250000x64_S1250000x64_S1250000x128_d1 : Shape.Concatenates [S1250000x64, S1250000x64] S1250000x128 1
  bcast_S_S1250000x64 : S_.BroadcastsInDim S1250000x64 (![] : Fin 0 → Fin S1250000x64.rank)
  reducesTo_S1250000x64_S1250000_d1 : S1250000x64.ReducesTo [1] S1250000
  bcast_S_S1250000x1 : S_.BroadcastsInDim S1250000x1 (![] : Fin 0 → Fin S1250000x1.rank)
  bcast_S1250000x1_S1250000x64_0_1 : S1250000x1.BroadcastsInDim S1250000x64 (![0, 1] : Fin 2 → Fin S1250000x64.rank)
  slices_S3x128x64_S1x128x64_1_0_0 : S3x128x64.Slices ![1, 0, 0] S1x128x64
  slices_S3x64_S1x64_1_0 : S3x64.Slices ![1, 0] S1x64
  slices_S3x128x64_S1x128x64_2_0_0 : S3x128x64.Slices ![2, 0, 0] S1x128x64
  slices_S3x64_S1x64_2_0 : S3x64.Slices ![2, 0] S1x64
  dot_S100000x64_S64x64_S100000x64_1_0_0_1_n_n_wf : DotDims.WF S100000x64 S64x64 S100000x64 [1] [0] [0] [1] [] []
  dot_S1250000x32_S32x64_S1250000x64_1_0_0_1_n_n_wf : DotDims.WF S1250000x32 S32x64 S1250000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x128_S128x64_S100000x64_1_0_0_1_n_n_wf : DotDims.WF S100000x128 S128x64 S100000x64 [1] [0] [0] [1] [] []
  dot_S1250000x128_S128x64_S1250000x64_1_0_0_1_n_n_wf : DotDims.WF S1250000x128 S128x64 S1250000x64 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1250000x32_S32x64_S1250000x64_1_0_0_1_n_n : DotDims S1250000x32 S32x64 S1250000x64 where
  lhsContracting := [1]
  rhsContracting := [0]
  lhsNonContracting := [0]
  rhsNonContracting := [1]
  lhsBatch := []
  rhsBatch := []
  wf := dot_S1250000x32_S32x64_S1250000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1250000x128_S128x64_S1250000x64_1_0_0_1_n_n : DotDims S1250000x128 S128x64 S1250000x64 where
  lhsContracting := [1]
  rhsContracting := [0]
  lhsNonContracting := [0]
  rhsNonContracting := [1]
  lhsBatch := []
  rhsBatch := []
  wf := dot_S1250000x128_S128x64_S1250000x64_1_0_0_1_n_n_wf

class Facts : Prop extends Facts₀ where

variable [Facts]
-- ==== Proof.KRun.lean ====
/-
  The idealized kernel program's run, with its two results named.

  @main is twelve segments: six stretches of host operations, each followed by a launch of the layer kernel.  The
  buffer contents at every segment boundary are a fold from the launch memory; the last of them is `Gen.W12`.  Every
  weakly fair execution terminates, without a fault, with every unscoped buffer at `Gen.W12`: in particular the two
  results `main_v120` (the nodes after the third layer) and `main_v140` (the edges after the third layer), and each
  argument at its launch contents.  The launch of the twelve segments is the one the frame of this program uses; only
  what is read off the final state is more.
-/
import proofs.«133353_j47820165873981_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the two results at the last boundary's contents and the arguments as
    launched. -/
theorem run_values : θ_run defs (onTc (τ := τ) (main (F := F))) ⟨m, fun _ => 0, ρ⟩ (fun r => ∀ c : Dev nD,
      r.2.mem ((c.tc : Thread nD τ).loc main_v120) = W12 m ρ c (Proc.devRef .tc main_v120)
      ∧ r.2.mem ((c.tc : Thread nD τ).loc main_v140) = W12 m ρ c (Proc.devRef .tc main_v140)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v120 (by decide)),
       h c _ (mem_uc main_v140 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c)⟩)

end Cert.KernelIdeal.Run

end
-- ==== Proof.CarryR.lean ====
/-
  What each piece of the reference program leaves alone.

  The reference's operations are taken in twelve consecutive pieces: a stretch of gathers, scatters and slices, then a
  layer block, six times over.  Every operation writes exactly one buffer, its result; for each piece the results are
  listed, and a buffer that is not in the list holds, after the piece, what it held before.
-/
import proofs.«133353_j47820165873981_1_alg».proof.Proof.RefOps
import Idealize.ShloMosaic.PureOps.Ideal

set_option maxRecDepth 16384
set_option maxHeartbeats 1000000

noncomputable section

namespace Cert.ReferenceIdeal.Carry

open Idealize.ShloMosaic Idealize.ShloMosaic.TcCoe Idealize.SL.Sem Idealize.ShloMosaic.StableHlo
open Cert.ReferenceIdeal Cert.ReferenceIdeal.Gen Cert.ReferenceIdeal.RefOps

/-- The results of piece 0. -/
abbrev written0 : List (Ref sig .tc) := [main_v0, main_v1, main_v2, main_v3, main_v4, main_v5, main_v6, main_v7, main_v8, main_v9, main_v10, main_v11, main_c, main_v12, main_v13, main_c_0, main_v14, main_v15, main_v16, main_v17, main_v18, main_cst, main_v19, main_v20, main_v21, main_v22, main_v23, main_v24]

theorem writes0 : (piece0 (F := Ideal)).Forall fun op => op.writes ⊆ (written0.map (Proc.devRef (τ := τ) .tc)).toFinset := by
  simp only [piece0, TRef.nullary, TRef.unary, TRef.binary, TRef.of, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer piece 0 does not write is unchanged by it. -/
theorem keep0 (V : Valuation τ sig (Elt Ideal)) (b : Ref sig .tc) (hb : b ∉ written0) :
    StableHlo.after (piece0 (F := Ideal)) V (Proc.devRef .tc b) = V (Proc.devRef .tc b) :=
  StableHlo.after_of_writes_sub _ V writes0 hb

/-- The results of piece 1. -/
abbrev written1 : List (Ref sig .tc) := [main_v25, main_v26, main_v27, main_v28, main_v29, main_v30, main_call0_cst, main_call0_v0, main_v31, main_v32, main_v33, main_v34, main_v35, main_cst_1, main_v36, main_v37, main_cst_2, main_v38, main_v39, main_v40, main_v41, main_v42, main_cst_3, main_v43, main_v44, main_cst_4, main_v45, main_v46, main_v47, main_v48, main_cst_5, main_v49, main_v50, main_v51, main_v52, main_v53, main_v54, main_v55, main_v56, main_v57, main_v58, main_v59]

theorem writes1 : (piece1 (F := Ideal)).Forall fun op => op.writes ⊆ (written1.map (Proc.devRef (τ := τ) .tc)).toFinset := by
  simp only [piece1, TRef.nullary, TRef.unary, TRef.binary, TRef.of, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer piece 1 does not write is unchanged by it. -/
theorem keep1 (V : Valuation τ sig (Elt Ideal)) (b : Ref sig .tc) (hb : b ∉ written1) :
    StableHlo.after (piece1 (F := Ideal)) V (Proc.devRef .tc b) = V (Proc.devRef .tc b) :=
  StableHlo.after_of_writes_sub _ V writes1 hb

/-- The results of piece 2. -/
abbrev written2 : List (Ref sig .tc) := [main_c_6, main_v60, main_v61, main_c_7, main_v62, main_v63, main_v64, main_v65, main_v66, main_v67, main_v68, main_v69]

theorem writes2 : (piece2 (F := Ideal)).Forall fun op => op.writes ⊆ (written2.map (Proc.devRef (τ := τ) .tc)).toFinset := by
  simp only [piece2, TRef.nullary, TRef.unary, TRef.binary, TRef.of, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer piece 2 does not write is unchanged by it. -/
theorem keep2 (V : Valuation τ sig (Elt Ideal)) (b : Ref sig .tc) (hb : b ∉ written2) :
    StableHlo.after (piece2 (F := Ideal)) V (Proc.devRef .tc b) = V (Proc.devRef .tc b) :=
  StableHlo.after_of_writes_sub _ V writes2 hb

/-- The results of piece 3. -/
abbrev written3 : List (Ref sig .tc) := [main_v70, main_v71, main_v72, main_v73, main_v74, main_v75, main_call1_cst, main_call1_v0, main_v76, main_v77, main_v78, main_v79, main_v80, main_cst_8, main_v81, main_v82, main_cst_9, main_v83, main_v84, main_v85, main_v86, main_v87, main_cst_10, main_v88, main_v89, main_cst_11, main_v90, main_v91, main_v92, main_v93, main_cst_12, main_v94, main_v95, main_v96, main_v97, main_v98, main_v99, main_v100, main_v101, main_v102, main_v103, main_v104]

theorem writes3 : (piece3 (F := Ideal)).Forall fun op => op.writes ⊆ (written3.map (Proc.devRef (τ := τ) .tc)).toFinset := by
  simp only [piece3, TRef.nullary, TRef.unary, TRef.binary, TRef.of, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer piece 3 does not write is unchanged by it. -/
theorem keep3 (V : Valuation τ sig (Elt Ideal)) (b : Ref sig .tc) (hb : b ∉ written3) :
    StableHlo.after (piece3 (F := Ideal)) V (Proc.devRef .tc b) = V (Proc.devRef .tc b) :=
  StableHlo.after_of_writes_sub _ V writes3 hb

/-- The results of piece 4. -/
abbrev written4 : List (Ref sig .tc) := [main_c_13, main_v105, main_v106, main_c_14, main_v107, main_v108, main_v109, main_v110, main_v111, main_cst_15, main_v112, main_v113, main_v114, main_v115, main_v116, main_v117]

theorem writes4 : (piece4 (F := Ideal)).Forall fun op => op.writes ⊆ (written4.map (Proc.devRef (τ := τ) .tc)).toFinset := by
  simp only [piece4, TRef.nullary, TRef.unary, TRef.binary, TRef.of, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer piece 4 does not write is unchanged by it. -/
theorem keep4 (V : Valuation τ sig (Elt Ideal)) (b : Ref sig .tc) (hb : b ∉ written4) :
    StableHlo.after (piece4 (F := Ideal)) V (Proc.devRef .tc b) = V (Proc.devRef .tc b) :=
  StableHlo.after_of_writes_sub _ V writes4 hb

/-- The results of piece 5. -/
abbrev written5 : List (Ref sig .tc) := [main_v118, main_v119, main_v120, main_v121, main_v122, main_v123, main_call2_cst, main_call2_v0, main_v124, main_v125, main_v126, main_v127, main_v128, main_cst_16, main_v129, main_v130, main_cst_17, main_v131, main_v132, main_v133, main_v134, main_v135, main_cst_18, main_v136, main_v137, main_cst_19, main_v138, main_v139, main_v140, main_v141, main_cst_20, main_v142, main_v143, main_v144, main_v145, main_v146, main_v147, main_v148, main_v149, main_v150, main_v151, main_v152]

theorem writes5 : (piece5 (F := Ideal)).Forall fun op => op.writes ⊆ (written5.map (Proc.devRef (τ := τ) .tc)).toFinset := by
  simp only [piece5, TRef.nullary, TRef.unary, TRef.binary, TRef.of, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer piece 5 does not write is unchanged by it. -/
theorem keep5 (V : Valuation τ sig (Elt Ideal)) (b : Ref sig .tc) (hb : b ∉ written5) :
    StableHlo.after (piece5 (F := Ideal)) V (Proc.devRef .tc b) = V (Proc.devRef .tc b) :=
  StableHlo.after_of_writes_sub _ V writes5 hb

/-- The results of piece 6. -/
abbrev written6 : List (Ref sig .tc) := [main_c_21, main_v153, main_v154, main_c_22, main_v155, main_v156, main_v157, main_v158, main_v159, main_v160, main_v161, main_v162]

theorem writes6 : (piece6 (F := Ideal)).Forall fun op => op.writes ⊆ (written6.map (Proc.devRef (τ := τ) .tc)).toFinset := by
  simp only [piece6, TRef.nullary, TRef.unary, TRef.binary, TRef.of, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer piece 6 does not write is unchanged by it. -/
theorem keep6 (V : Valuation τ sig (Elt Ideal)) (b : Ref sig .tc) (hb : b ∉ written6) :
    StableHlo.after (piece6 (F := Ideal)) V (Proc.devRef .tc b) = V (Proc.devRef .tc b) :=
  StableHlo.after_of_writes_sub _ V writes6 hb

/-- The results of piece 7. -/
abbrev written7 : List (Ref sig .tc) := [main_v163, main_v164, main_v165, main_v166, main_v167, main_v168, main_call3_cst, main_call3_v0, main_v169, main_v170, main_v171, main_v172, main_v173, main_cst_23, main_v174, main_v175, main_cst_24, main_v176, main_v177, main_v178, main_v179, main_v180, main_cst_25, main_v181, main_v182, main_cst_26, main_v183, main_v184, main_v185, main_v186, main_cst_27, main_v187, main_v188, main_v189, main_v190, main_v191, main_v192, main_v193, main_v194, main_v195, main_v196, main_v197]

theorem writes7 : (piece7 (F := Ideal)).Forall fun op => op.writes ⊆ (written7.map (Proc.devRef (τ := τ) .tc)).toFinset := by
  simp only [piece7, TRef.nullary, TRef.unary, TRef.binary, TRef.of, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer piece 7 does not write is unchanged by it. -/
theorem keep7 (V : Valuation τ sig (Elt Ideal)) (b : Ref sig .tc) (hb : b ∉ written7) :
    StableHlo.after (piece7 (F := Ideal)) V (Proc.devRef .tc b) = V (Proc.devRef .tc b) :=
  StableHlo.after_of_writes_sub _ V writes7 hb

/-- The results of piece 8. -/
abbrev written8 : List (Ref sig .tc) := [main_c_28, main_v198, main_v199, main_c_29, main_v200, main_v201, main_v202, main_v203, main_v204, main_cst_30, main_v205, main_v206, main_v207, main_v208, main_v209, main_v210]

theorem writes8 : (piece8 (F := Ideal)).Forall fun op => op.writes ⊆ (written8.map (Proc.devRef (τ := τ) .tc)).toFinset := by
  simp only [piece8, TRef.nullary, TRef.unary, TRef.binary, TRef.of, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer piece 8 does not write is unchanged by it. -/
theorem keep8 (V : Valuation τ sig (Elt Ideal)) (b : Ref sig .tc) (hb : b ∉ written8) :
    StableHlo.after (piece8 (F := Ideal)) V (Proc.devRef .tc b) = V (Proc.devRef .tc b) :=
  StableHlo.after_of_writes_sub _ V writes8 hb

/-- The results of piece 9. -/
abbrev written9 : List (Ref sig .tc) := [main_v211, main_v212, main_v213, main_v214, main_v215, main_v216, main_call4_cst, main_call4_v0, main_v217, main_v218, main_v219, main_v220, main_v221, main_cst_31, main_v222, main_v223, main_cst_32, main_v224, main_v225, main_v226, main_v227, main_v228, main_cst_33, main_v229, main_v230, main_cst_34, main_v231, main_v232, main_v233, main_v234, main_cst_35, main_v235, main_v236, main_v237, main_v238, main_v239, main_v240, main_v241, main_v242, main_v243, main_v244, main_v245]

theorem writes9 : (piece9 (F := Ideal)).Forall fun op => op.writes ⊆ (written9.map (Proc.devRef (τ := τ) .tc)).toFinset := by
  simp only [piece9, TRef.nullary, TRef.unary, TRef.binary, TRef.of, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer piece 9 does not write is unchanged by it. -/
theorem keep9 (V : Valuation τ sig (Elt Ideal)) (b : Ref sig .tc) (hb : b ∉ written9) :
    StableHlo.after (piece9 (F := Ideal)) V (Proc.devRef .tc b) = V (Proc.devRef .tc b) :=
  StableHlo.after_of_writes_sub _ V writes9 hb

/-- The results of piece 10. -/
abbrev written10 : List (Ref sig .tc) := [main_c_36, main_v246, main_v247, main_c_37, main_v248, main_v249, main_v250, main_v251, main_v252, main_v253, main_v254, main_v255]

theorem writes10 : (piece10 (F := Ideal)).Forall fun op => op.writes ⊆ (written10.map (Proc.devRef (τ := τ) .tc)).toFinset := by
  simp only [piece10, TRef.nullary, TRef.unary, TRef.binary, TRef.of, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer piece 10 does not write is unchanged by it. -/
theorem keep10 (V : Valuation τ sig (Elt Ideal)) (b : Ref sig .tc) (hb : b ∉ written10) :
    StableHlo.after (piece10 (F := Ideal)) V (Proc.devRef .tc b) = V (Proc.devRef .tc b) :=
  StableHlo.after_of_writes_sub _ V writes10 hb

/-- The results of piece 11. -/
abbrev written11 : List (Ref sig .tc) := [main_v256, main_v257, main_v258, main_v259, main_v260, main_v261, main_call5_cst, main_call5_v0, main_v262, main_v263, main_v264, main_v265, main_v266, main_cst_38, main_v267, main_v268, main_cst_39, main_v269, main_v270, main_v271, main_v272, main_v273, main_cst_40, main_v274, main_v275, main_cst_41, main_v276, main_v277, main_v278, main_v279, main_cst_42, main_v280, main_v281, main_v282, main_v283, main_v284, main_v285, main_v286, main_v287, main_v288, main_v289, main_v290]

theorem writes11 : (piece11 (F := Ideal)).Forall fun op => op.writes ⊆ (written11.map (Proc.devRef (τ := τ) .tc)).toFinset := by
  simp only [piece11, TRef.nullary, TRef.unary, TRef.binary, TRef.of, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer piece 11 does not write is unchanged by it. -/
theorem keep11 (V : Valuation τ sig (Elt Ideal)) (b : Ref sig .tc) (hb : b ∉ written11) :
    StableHlo.after (piece11 (F := Ideal)) V (Proc.devRef .tc b) = V (Proc.devRef .tc b) :=
  StableHlo.after_of_writes_sub _ V writes11 hb

end Cert.ReferenceIdeal.Carry

end
-- ==== Proof.RefFold.lean ====
/-
  The reference's run, stated over the fold of its operations.

  The reference is a straight line of 348 host operations.  Every weakly fair execution terminates, without a fault,
  with every buffer at the fold of the operations over the launch contents (the library's run of a straight line).
  The fold over the whole list is the fold over its twelve pieces in turn; no piece writes an argument, so each
  argument ends as launched.
-/
import proofs.«133353_j47820165873981_1_alg».proof.Proof.RefOps
import proofs.«133353_j47820165873981_1_alg».proof.Proof.CarryR

set_option maxRecDepth 16384
set_option maxHeartbeats 4000000

noncomputable section

namespace Cert.ReferenceIdeal.Fold

open Idealize.ShloMosaic Idealize.ShloMosaic.TcCoe Idealize.SL.Sem Idealize.ShloMosaic.StableHlo
open Cert.ReferenceIdeal Cert.ReferenceIdeal.Gen Cert.ReferenceIdeal.RefOps

/-- The contents after two lists of operations run one after the other. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- The contents after the whole program, piece by piece. -/
theorem after_ops (V : Valuation τ sig (Elt Ideal)) :
    StableHlo.after (ops (F := Ideal)) V
      = StableHlo.after piece11 (StableHlo.after piece10 (StableHlo.after piece9 (StableHlo.after piece8 (StableHlo.after piece7
          (StableHlo.after piece6 (StableHlo.after piece5 (StableHlo.after piece4 (StableHlo.after piece3 (StableHlo.after piece2
            (StableHlo.after piece1 (StableHlo.after piece0 V))))))))))) := by
  rw [ops_split]
  simp only [after_append]

/-- A buffer no piece writes ends as it began. -/
theorem ops_keeps (V : Valuation τ sig (Elt Ideal)) (b : Ref sig .tc)
    (h0 : b ∉ Carry.written0) (h1 : b ∉ Carry.written1) (h2 : b ∉ Carry.written2) (h3 : b ∉ Carry.written3) (h4 : b ∉ Carry.written4) (h5 : b ∉ Carry.written5) (h6 : b ∉ Carry.written6) (h7 : b ∉ Carry.written7) (h8 : b ∉ Carry.written8) (h9 : b ∉ Carry.written9) (h10 : b ∉ Carry.written10) (h11 : b ∉ Carry.written11) :
    StableHlo.after (ops (F := Ideal)) V (Proc.devRef .tc b) = V (Proc.devRef .tc b) := by
  rw [after_ops, Carry.keep11 _ b h11, Carry.keep10 _ b h10, Carry.keep9 _ b h9, Carry.keep8 _ b h8, Carry.keep7 _ b h7, Carry.keep6 _ b h6, Carry.keep5 _ b h5, Carry.keep4 _ b h4, Carry.keep3 _ b h3, Carry.keep2 _ b h2, Carry.keep1 _ b h1, Carry.keep0 _ b h0]

/-- THE RUN: every weakly fair execution of the reference ends with every buffer at the operations' fold over the
    launch contents. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc),
        r.2.mem ((d.tc : Thread nD τ).loc b) = StableHlo.after (ops (F := Ideal)) (launchContents m d) (Proc.devRef .tc b) :=
  run_seq scopedRefs_eq scopedSems_eq defs main (fun _ => ops) main_eq (fun _ => ops_sub) m ρ

/-- Argument 0 ends as launched. -/
theorem kept_arg0 (m : (ℓ : Loc nD τ sig) → Buf (Elt Ideal) ℓ) (d : Dev nD) :
    StableHlo.after (ops (F := Ideal)) (launchContents m d) (Proc.devRef .tc main_arg0) = m ((d.tc : Thread nD τ).loc main_arg0) :=
  ops_keeps _ main_arg0 (by decide) (by decide) (by decide) (by decide) (by decide) (by decide) (by decide) (by decide) (by decide) (by decide) (by decide) (by decide)
/-- Argument 1 ends as launched. -/
theorem kept_arg1 (m : (ℓ : Loc nD τ sig) → Buf (Elt Ideal) ℓ) (d : Dev nD) :
    StableHlo.after (ops (F := Ideal)) (launchContents m d) (Proc.devRef .tc main_arg1) = m ((d.tc : Thread nD τ).loc main_arg1) :=
  ops_keeps _ main_arg1 (by decide) (by decide) (by decide) (by decide) (by decide) (by decide) (by decide) (by decide) (by decide) (by decide) (by decide) (by decide)
/-- Argument 2 ends as launched. -/
theorem kept_arg2 (m : (ℓ : Loc nD τ sig) → Buf (Elt Ideal) ℓ) (d : Dev nD) :
    StableHlo.after (ops (F := Ideal)) (launchContents m d) (Proc.devRef .tc main_arg2) = m ((d.tc : Thread nD τ).loc main_arg2) :=
  ops_keeps _ main_arg2 (by decide) (by decide) (by decide) (by decide) (by decide) (by decide) (by decide) (by decide) (by decide) (by decide) (by decide) (by decide)
/-- Argument 3 ends as launched. -/
theorem kept_arg3 (m : (ℓ : Loc nD τ sig) → Buf (Elt Ideal) ℓ) (d : Dev nD) :
    StableHlo.after (ops (F := Ideal)) (launchContents m d) (Proc.devRef .tc main_arg3) = m ((d.tc : Thread nD τ).loc main_arg3) :=
  ops_keeps _ main_arg3 (by decide) (by decide) (by decide) (by decide) (by decide) (by decide) (by decide) (by decide) (by decide) (by decide) (by decide) (by decide)
/-- Argument 4 ends as launched. -/
theorem kept_arg4 (m : (ℓ : Loc nD τ sig) → Buf (Elt Ideal) ℓ) (d : Dev nD) :
    StableHlo.after (ops (F := Ideal)) (launchContents m d) (Proc.devRef .tc main_arg4) = m ((d.tc : Thread nD τ).loc main_arg4) :=
  ops_keeps _ main_arg4 (by decide) (by decide) (by decide) (by decide) (by decide) (by decide) (by decide) (by decide) (by decide) (by decide) (by decide) (by decide)
/-- Argument 5 ends as launched. -/
theorem kept_arg5 (m : (ℓ : Loc nD τ sig) → Buf (Elt Ideal) ℓ) (d : Dev nD) :
    StableHlo.after (ops (F := Ideal)) (launchContents m d) (Proc.devRef .tc main_arg5) = m ((d.tc : Thread nD τ).loc main_arg5) :=
  ops_keeps _ main_arg5 (by decide) (by decide) (by decide) (by decide) (by decide) (by decide) (by decide) (by decide) (by decide) (by decide) (by decide) (by decide)
/-- Argument 6 ends as launched. -/
theorem kept_arg6 (m : (ℓ : Loc nD τ sig) → Buf (Elt Ideal) ℓ) (d : Dev nD) :
    StableHlo.after (ops (F := Ideal)) (launchContents m d) (Proc.devRef .tc main_arg6) = m ((d.tc : Thread nD τ).loc main_arg6) :=
  ops_keeps _ main_arg6 (by decide) (by decide) (by decide) (by decide) (by decide) (by decide) (by decide) (by decide) (by decide) (by decide) (by decide) (by decide)
/-- Argument 7 ends as launched. -/
theorem kept_arg7 (m : (ℓ : Loc nD τ sig) → Buf (Elt Ideal) ℓ) (d : Dev nD) :
    StableHlo.after (ops (F := Ideal)) (launchContents m d) (Proc.devRef .tc main_arg7) = m ((d.tc : Thread nD τ).loc main_arg7) :=
  ops_keeps _ main_arg7 (by decide) (by decide) (by decide) (by decide) (by decide) (by decide) (by decide) (by decide) (by decide) (by decide) (by decide) (by decide)
/-- Argument 8 ends as launched. -/
theorem kept_arg8 (m : (ℓ : Loc nD τ sig) → Buf (Elt Ideal) ℓ) (d : Dev nD) :
    StableHlo.after (ops (F := Ideal)) (launchContents m d) (Proc.devRef .tc main_arg8) = m ((d.tc : Thread nD τ).loc main_arg8) :=
  ops_keeps _ main_arg8 (by decide) (by decide) (by decide) (by decide) (by decide) (by decide) (by decide) (by decide) (by decide) (by decide) (by decide) (by decide)
/-- Argument 9 ends as launched. -/
theorem kept_arg9 (m : (ℓ : Loc nD τ sig) → Buf (Elt Ideal) ℓ) (d : Dev nD) :
    StableHlo.after (ops (F := Ideal)) (launchContents m d) (Proc.devRef .tc main_arg9) = m ((d.tc : Thread nD τ).loc main_arg9) :=
  ops_keeps _ main_arg9 (by decide) (by decide) (by decide) (by decide) (by decide) (by decide) (by decide) (by decide) (by decide) (by decide) (by decide) (by decide)
/-- Argument 10 ends as launched. -/
theorem kept_arg10 (m : (ℓ : Loc nD τ sig) → Buf (Elt Ideal) ℓ) (d : Dev nD) :
    StableHlo.after (ops (F := Ideal)) (launchContents m d) (Proc.devRef .tc main_arg10) = m ((d.tc : Thread nD τ).loc main_arg10) :=
  ops_keeps _ main_arg10 (by decide) (by decide) (by decide) (by decide) (by decide) (by decide) (by decide) (by decide) (by decide) (by decide) (by decide) (by decide)
/-- Argument 11 ends as launched. -/
theorem kept_arg11 (m : (ℓ : Loc nD τ sig) → Buf (Elt Ideal) ℓ) (d : Dev nD) :
    StableHlo.after (ops (F := Ideal)) (launchContents m d) (Proc.devRef .tc main_arg11) = m ((d.tc : Thread nD τ).loc main_arg11) :=
  ops_keeps _ main_arg11 (by decide) (by decide) (by decide) (by decide) (by decide) (by decide) (by decide) (by decide) (by decide) (by decide) (by decide) (by decide)
/-- Argument 12 ends as launched. -/
theorem kept_arg12 (m : (ℓ : Loc nD τ sig) → Buf (Elt Ideal) ℓ) (d : Dev nD) :
    StableHlo.after (ops (F := Ideal)) (launchContents m d) (Proc.devRef .tc main_arg12) = m ((d.tc : Thread nD τ).loc main_arg12) :=
  ops_keeps _ main_arg12 (by decide) (by decide) (by decide) (by decide) (by decide) (by decide) (by decide) (by decide) (by decide) (by decide) (by decide) (by decide)
/-- Argument 13 ends as launched. -/
theorem kept_arg13 (m : (ℓ : Loc nD τ sig) → Buf (Elt Ideal) ℓ) (d : Dev nD) :
    StableHlo.after (ops (F := Ideal)) (launchContents m d) (Proc.devRef .tc main_arg13) = m ((d.tc : Thread nD τ).loc main_arg13) :=
  ops_keeps _ main_arg13 (by decide) (by decide) (by decide) (by decide) (by decide) (by decide) (by decide) (by decide) (by decide) (by decide) (by decide) (by decide)
/-- Argument 14 ends as launched. -/
theorem kept_arg14 (m : (ℓ : Loc nD τ sig) → Buf (Elt Ideal) ℓ) (d : Dev nD) :
    StableHlo.after (ops (F := Ideal)) (launchContents m d) (Proc.devRef .tc main_arg14) = m ((d.tc : Thread nD τ).loc main_arg14) :=
  ops_keeps _ main_arg14 (by decide) (by decide) (by decide) (by decide) (by decide) (by decide) (by decide) (by decide) (by decide) (by decide) (by decide) (by decide)

end Cert.ReferenceIdeal.Fold

end
-- ==== Proof.RowSpec.lean ====
/-
  One row of the layer, as a function on the extended reals.

  A row `x` of 128 entries is multiplied by a 128 × 64 weight matrix `w`, shifted by the bias `b` and cut off
  below at zero, which gives 64 entries `y`.  The row is then normalised: with `μ` the mean of `y` and `σ²` the
  mean of the squared deviations `(y j - μ)²`, entry `q` of the result is
      (y q - μ) · (σ² + ε)^(-1/2) · g q + be q.
  Both means are quotients by the float 64, and `ε` is the float nearest to 1e-5; the three float words are kept
  as words, since both programs spell them the same way.
-/
import Idealize.ShloMosaic.PureOps.Ideal
import Idealize.ShloMosaic.Lib.ValueIdx
import Idealize.ShloMosaic.Lib.ValueLayout

noncomputable section

namespace Cert.RowSpec

open Idealize.ShloMosaic Idealize.ShloMosaic.ValueIdx

/-- The affine image of a row under the weights and the bias, cut off below at zero. -/
def act (x : Fin 128 → EReal) (w : Fin 128 → Fin 64 → EReal) (b : Fin 64 → EReal) (j : Fin 64) : EReal :=
  max ((∑ k : Fin 128, x k * w k j) + b j) (Ideal.ofBits .f32 0x00000000#32)

/-- The mean of 64 entries: their sum divided by the float 64. -/
def mean (y : Fin 64 → EReal) : EReal :=
  Ideal.div (∑ j : Fin 64, y j) (Ideal.ofBits .f32 0x42800000#32)

/-- The normalisation of 64 entries `y` with gain `g` and offset `be`, at entry `q`. -/
def norm (y g be : Fin 64 → EReal) (q : Fin 64) : EReal :=
  (y q - mean y) * Ideal.rsqrt (mean (fun j => (y j - mean y) * (y j - mean y)) + Ideal.ofBits .f32 0x3727C5AC#32)
    * g q + be q

/-- One row of the layer at entry `q`. -/
def row (x : Fin 128 → EReal) (w : Fin 128 → Fin 64 → EReal) (b g be : Fin 64 → EReal) (q : Fin 64) : EReal :=
  norm (act x w b) g be q

/-- The layer on a whole array of `M` rows: row `i 0` of the input, entry `i 1`.  The bias, gain and offset are
    vectors of 64 entries. -/
def layer {M : ℕ} (inp : (⟨2, ![M, 128]⟩ : Shape).Idx → EReal) (w : (⟨2, ![128, 64]⟩ : Shape).Idx → EReal)
    (b g be : (⟨1, ![64]⟩ : Shape).Idx → EReal) : (⟨2, ![M, 64]⟩ : Shape).Idx → EReal :=
  fun i => row (fun k => inp (ix2 (i 0) k)) (fun k j => w (ix2 k j)) (fun j => b (ix1 j)) (fun j => g (ix1 j))
    (fun j => be (ix1 j)) (i 1)

/-- The same with the bias, gain and offset given as `1 × 64` rows. -/
def layerRows {M : ℕ} (inp : (⟨2, ![M, 128]⟩ : Shape).Idx → EReal) (w : (⟨2, ![128, 64]⟩ : Shape).Idx → EReal)
    (b g be : (⟨2, ![1, 64]⟩ : Shape).Idx → EReal) : (⟨2, ![M, 64]⟩ : Shape).Idx → EReal :=
  fun i => row (fun k => inp (ix2 (i 0) k)) (fun k j => w (ix2 k j)) (fun j => b (ix2 (0 : Fin 1) j))
    (fun j => g (ix2 (0 : Fin 1) j)) (fun j => be (ix2 (0 : Fin 1) j)) (i 1)

/-- A vector of 64 entries recast as a `1 × 64` row holds the same entries, so the two forms agree. -/
theorem layerRows_shapeCast {M : ℕ} (inp : (⟨2, ![M, 128]⟩ : Shape).Idx → EReal) (w : (⟨2, ![128, 64]⟩ : Shape).Idx → EReal)
    (b g be : (⟨1, ![64]⟩ : Shape).Idx → EReal) (h : (⟨1, ![64]⟩ : Shape).ShapeCasts ⟨2, ![1, 64]⟩) :
    layerRows inp w (shapeCast ⟨2, ![1, 64]⟩ b h) (shapeCast ⟨2, ![1, 64]⟩ g h) (shapeCast ⟨2, ![1, 64]⟩ be h)
      = layer inp w b g be := by
  funext i
  unfold layerRows layer
  simp only [shapeCast_a_1a_apply]

end Cert.RowSpec

end
-- ==== Proof.LibColumn.lean ====
/-
  Two layout operations read at an index, for a vector kept as a column: the reshape of an [a] array to an
  [a, 1] column, and the broadcast of an [a, 1] column over b columns.  (The row forms [a] → [1, a] and
  [1, b] → [a, b] are in the library; a sum with keepdims along the last axis produces the column forms.)
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to a column `[a, 1]` reads, at `(i, u)`, the operand at `i`, whatever the unit coordinate `u`:
    both positions have the same row-major rank. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.KBody.lean ====
/-
  What one block of the kernel computes, row by row.

  The kernel body works on a block of 10000 rows: it loads the block `x0` (10000 × 128), the weights `x1` (128 × 64)
  and three rows `x2`, `x3`, `x4` (bias, gain, offset; 1 × 64 each), and stores one 10000 × 64 value.  Read on the
  extended reals, entry `(p, q)` of that value depends only on row `p` of `x0`: it is `RowSpec.row` of that row.
  The steps: the matrix product into a zero accumulator is the plain sum of products over the 128 contracted
  positions; a sum along the lanes kept as a column is the sum of the row's 64 entries; a column broadcast back over
  the lanes reads the column's entry of the row; a row broadcast down the block reads the row's entry of the lane;
  everything else is entrywise.  The six kernel launches of the program run this same body.
-/
import proofs.«133353_j47820165873981_1_alg».proof.Proof.Gen.KernelIdeal.Skeleton
import proofs.«133353_j47820165873981_1_alg».proof.Proof.RowSpec
import proofs.«133353_j47820165873981_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.TcCoe Idealize.ShloMosaic.ValueIdx Idealize.ShloMosaic.ColumnLayout
open Cert.KernelIdeal Cert.KernelIdeal.Gen Cert.RowSpec

/-- The block product's dimension record: rows of the left operand against columns of the right one. -/
abbrev DD := dot_S10000x128_S128x64_S10000x64_1_0_0_1_n_n

theorem lhs0 (i : S10000x64.Idx) (c : DD.contr.Idx) : (DD.lhsIdx i c 0).val = (i 0).val := by
  unfold DotDims.lhsIdx
  rw [dif_neg (show ¬(0 : Fin S10000x128.rank) ∈ DD.lhsBatch by decide), dif_pos (show (0 : Fin S10000x128.rank) ∈ DD.lhsNonContracting by decide)]
  rfl
theorem lhs1 (i : S10000x64.Idx) (c : DD.contr.Idx) : (DD.lhsIdx i c 1).val = (c ⟨0, by decide⟩).val :=
  DD.lhsIdx_val_of_single rfl i c
theorem rhs0 (i : S10000x64.Idx) (c : DD.contr.Idx) : (DD.rhsIdx i c 0).val = (c ⟨0, by decide⟩).val :=
  DD.rhsIdx_val_of_single rfl i c
theorem rhs1 (i : S10000x64.Idx) (c : DD.contr.Idx) : (DD.rhsIdx i c 1).val = (i 1).val := by
  unfold DotDims.rhsIdx
  rw [dif_neg (show ¬(1 : Fin S128x64.rank) ∈ DD.rhsBatch by decide), dif_pos (show (1 : Fin S128x64.rank) ∈ DD.rhsNonContracting by decide)]
  rfl

/-- The block product into a zero accumulator, at entry `(p, q)`: the sum over the 128 contracted positions of the
    products of row `p` of the left operand with column `q` of the right one. -/
theorem product_apply (a : FVec Ideal S10000x128 .bf16) (w : FVec Ideal S128x64 .bf16) (p : Fin 10000) (q : Fin 64) :
    matmul DD none a w (constant (F := Ideal) S10000x64 .f32 0x00000000#32) (ix2 p q)
      = ∑ k : Fin 128, a (ix2 p k) * w (ix2 k q) := by
  simp only [matmul]
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun ax => Fin.ext (by
    match ax with
    | ⟨0, _⟩ => exact lhs0 _ _
    | ⟨1, _⟩ => exact (lhs1 _ _).trans hk)
  have er : DD.rhsIdx (ix2 p q) ((contrEquiv1 DD 128 rfl rfl).symm k) = ix2 k q := funext fun ax => Fin.ext (by
    match ax with
    | ⟨0, _⟩ => exact (rhs0 _ _).trans hk
    | ⟨1, _⟩ => exact rhs1 _ _)
  rw [el, er]

/-- A sum along the lanes, kept as a column, at row `p`: the sum of the row's 64 entries. -/
theorem rowsum_apply (y : FVec Ideal S10000x64 .f32) (p : Fin 10000) (u : Fin 1) :
    shapeCast S10000x1 (multiReduction (F := Ideal) .add [1] S10000 y 0x00000000#32 reduces_S10000x64_S10000 (.inl rfl) rfl)
        shapeCasts_S10000_S10000x1 (ix2 p u)
      = ∑ k : Fin 64, y (ix2 p k) := by
  refine (shapeCast_a_a1_apply _ shapeCasts_S10000_S10000x1 p u).trans ?_
  refine (Ideal.multiReduction_add_single y 0x00000000#32 reduces_S10000x64_S10000 (.inl rfl) rfl (ix1 p)).trans ?_
  exact Finset.sum_congr rfl fun k _ => congrArg y (funext fun ax => Fin.ext (by
    match ax with
    | ⟨0, _⟩ => rfl
    | ⟨1, _⟩ => rfl))

/-- A `1 × 64` row (under the identity cast the body puts on every load) broadcast down the block, at `(p, q)`. -/
theorem rowcast_apply (r : Vec Ideal S1x64 .f32) (p : Fin 10000) (q : Fin 64) :
    broadcastTo S10000x64 (shapeCast S1x64 r shapeCasts_S1x64_S1x64) broadcasts_S1x64_S10000x64 (ix2 p q) = r (ix2 (0 : Fin 1) q) := by
  rw [shapeCast_self]
  exact broadcastTo_1b_ab_apply r broadcasts_S1x64_S10000x64 p q

/-- The part of the body before the normalisation: the product, plus the bias row, cut off below at zero. -/
def actVec (x0 : Vec Ideal S10000x128 .f32) (x1 : Vec Ideal S128x64 .f32) (x2 : Vec Ideal S1x64 .f32) : FVec Ideal S10000x64 .f32 :=
  maximumf
    (addf (matmul DD none (truncf .bf16 (shapeCast S10000x128 x0 shapeCasts_S10000x128_S10000x128) bitsLt_bf16_f32)
        (truncf .bf16 (shapeCast S128x64 x1 shapeCasts_S128x64_S128x64) bitsLt_bf16_f32) (constant (F := Ideal) S10000x64 .f32 0x00000000#32))
      (broadcastTo S10000x64 (shapeCast S1x64 x2 shapeCasts_S1x64_S1x64) broadcasts_S1x64_S10000x64))
    (broadcast S10000x64 (Scalar.ofBits (F := Ideal) .f32 0x00000000#32))

theorem actVec_apply (x0 : Vec Ideal S10000x128 .f32) (x1 : Vec Ideal S128x64 .f32) (x2 : Vec Ideal S1x64 .f32) (p : Fin 10000) (q : Fin 64) :
    actVec x0 x1 x2 (ix2 p q) = act (fun k => x0 (ix2 p k)) (fun k j => x1 (ix2 k j)) (fun j => x2 (ix2 (0 : Fin 1) j)) q := by
  unfold actVec act
  show max (matmul DD none _ _ _ (ix2 p q) + broadcastTo S10000x64 _ _ (ix2 p q)) (Ideal.ofBits .f32 0x00000000#32) = _
  rw [product_apply, rowcast_apply, shapeCast_self, shapeCast_self]
  rfl

/-- The mean of each row, kept as a column. -/
def meanCol (y : FVec Ideal S10000x64 .f32) : FVec Ideal S10000x1 .f32 :=
  divf (shapeCast S10000x1 (multiReduction (F := Ideal) .add [1] S10000 y 0x00000000#32 reduces_S10000x64_S10000 (.inl rfl) rfl) shapeCasts_S10000_S10000x1)
    (broadcast S10000x1 (Scalar.ofBits (F := Ideal) .f32 0x42800000#32))

theorem meanCol_apply (y : FVec Ideal S10000x64 .f32) (p : Fin 10000) (u : Fin 1) :
    meanCol y (ix2 p u) = mean (fun j => y (ix2 p j)) := by
  unfold meanCol mean
  show Ideal.div (shapeCast S10000x1 _ _ (ix2 p u)) (Ideal.ofBits .f32 0x42800000#32) = _
  rw [rowsum_apply]

/-- Each entry's deviation from its row's mean. -/
def devVec (y : FVec Ideal S10000x64 .f32) : FVec Ideal S10000x64 .f32 :=
  subf y (broadcastTo S10000x64 (meanCol y) broadcasts_S10000x1_S10000x64)

theorem devVec_apply (y : FVec Ideal S10000x64 .f32) (p : Fin 10000) (q : Fin 64) :
    devVec y (ix2 p q) = y (ix2 p q) - mean (fun j => y (ix2 p j)) := by
  unfold devVec
  show y (ix2 p q) - broadcastTo S10000x64 (meanCol y) broadcasts_S10000x1_S10000x64 (ix2 p q) = _
  rw [broadcastTo_a1_ab_apply, meanCol_apply]

/-- The normalisation of the block `y` with the gain row `x3` and the offset row `x4`. -/
def normVec (y : FVec Ideal S10000x64 .f32) (x3 x4 : Vec Ideal S1x64 .f32) : FVec Ideal S10000x64 .f32 :=
  addf
    (mulf
      (mulf (devVec y)
        (broadcastTo S10000x64
          (rsqrt (addf (meanCol (mulf (devVec y) (devVec y))) (broadcast S10000x1 (Scalar.ofBits (F := Ideal) .f32 0x3727C5AC#32))))
          broadcasts_S10000x1_S10000x64))
      (broadcastTo S10000x64 (shapeCast S1x64 x3 shapeCasts_S1x64_S1x64) broadcasts_S1x64_S10000x64))
    (broadcastTo S10000x64 (shapeCast S1x64 x4 shapeCasts_S1x64_S1x64) broadcasts_S1x64_S10000x64)

theorem normVec_apply (y : FVec Ideal S10000x64 .f32) (x3 x4 : Vec Ideal S1x64 .f32) (p : Fin 10000) (q : Fin 64) :
    normVec y x3 x4 (ix2 p q)
      = RowSpec.norm (fun j => y (ix2 p j)) (fun j => x3 (ix2 (0 : Fin 1) j)) (fun j => x4 (ix2 (0 : Fin 1) j)) q := by
  unfold normVec RowSpec.norm
  show devVec y (ix2 p q) * broadcastTo S10000x64 _ broadcasts_S10000x1_S10000x64 (ix2 p q)
      * broadcastTo S10000x64 _ broadcasts_S1x64_S10000x64 (ix2 p q)
      + broadcastTo S10000x64 _ broadcasts_S1x64_S10000x64 (ix2 p q) = _
  rw [rowcast_apply, rowcast_apply, broadcastTo_a1_ab_apply, devVec_apply]
  show _ * Ideal.rsqrt (meanCol (mulf (devVec y) (devVec y)) (ix2 p 0) + Ideal.ofBits .f32 0x3727C5AC#32) * _ + _ = _
  rw [meanCol_apply]
  have hd : (fun j => (mulf (devVec y) (devVec y)) (ix2 p j))
      = fun j => (y (ix2 p j) - mean (fun j => y (ix2 p j))) * (y (ix2 p j) - mean (fun j => y (ix2 p j))) :=
    funext fun j => by
      show devVec y (ix2 p j) * devVec y (ix2 p j) = _
      rw [devVec_apply]
  rw [hd]

/-- The body's stored value is the normalisation of the cut-off affine image. -/
theorem pay_eq (x0 : Vec Ideal S10000x128 .f32) (x1 : Vec Ideal S128x64 .f32) (x2 x3 x4 : Vec Ideal S1x64 .f32) :
    k0_pay1 (F := Ideal) x0 x1 x2 x3 x4 = normVec (actVec x0 x1 x2) x3 x4 := rfl

/-- Entry `(p, q)` of the body's stored value is `RowSpec.row` of row `p` of the block. -/
theorem pay_apply (x0 : Vec Ideal S10000x128 .f32) (x1 : Vec Ideal S128x64 .f32) (x2 x3 x4 : Vec Ideal S1x64 .f32) (p : Fin 10000) (q : Fin 64) :
    k0_pay1 (F := Ideal) x0 x1 x2 x3 x4 (ix2 p q)
      = row (fun k => x0 (ix2 p k)) (fun k j => x1 (ix2 k j)) (fun j => x2 (ix2 (0 : Fin 1) j))
          (fun j => x3 (ix2 (0 : Fin 1) j)) (fun j => x4 (ix2 (0 : Fin 1) j)) q := by
  rw [pay_eq, normVec_apply]
  unfold row
  have ha : (fun j => actVec x0 x1 x2 (ix2 p j))
      = act (fun k => x0 (ix2 p k)) (fun k j => x1 (ix2 k j)) (fun j => x2 (ix2 (0 : Fin 1) j)) :=
    funext fun j => actVec_apply x0 x1 x2 p j
  rw [ha]

/-- The body's stored value as a block of the whole-array layer: if row `y 0` of the loaded block `x0` is row `(e y) 0` of
    an array `a0` of `M` rows, and `e` keeps the lane, then entry `y` of the stored value is entry `e y` of the layer on `a0`. -/
theorem point_eq {M : ℕ} (x0 : Vec Ideal S10000x128 .f32) (x1 : Vec Ideal S128x64 .f32) (x2 x3 x4 : Vec Ideal S1x64 .f32)
    (a0 : (⟨2, ![M, 128]⟩ : Shape).Idx → EReal) (e : S10000x64.Idx → (⟨2, ![M, 64]⟩ : Shape).Idx)
    (h0 : ∀ (y : S10000x64.Idx) (k : Fin 128), x0 (ix2 (y 0) k) = a0 (ix2 (e y 0) k))
    (he : ∀ y : S10000x64.Idx, (e y 1).val = (y 1).val) (y : S10000x64.Idx) :
    k0_pay1 (F := Ideal) x0 x1 x2 x3 x4 y = layerRows a0 x1 x2 x3 x4 (e y) := by
  obtain ⟨p, q, rfl⟩ : ∃ (p : Fin 10000) (q : Fin 64), y = ix2 p q := ⟨y 0, y 1, eq_ix2 y⟩
  rw [pay_apply]
  unfold layerRows
  have hq : (e (ix2 p q) 1 : Fin 64) = q := Fin.ext (he _)
  have hr : (fun k : Fin 128 => x0 (ix2 p k)) = fun k => a0 (ix2 (e (ix2 p q) 0) k) := funext fun k => h0 (ix2 p q) k
  rw [hq, hr]

/-- The other five launches run the same body. -/
theorem pay1_eq : @k1_pay1 Ideal _ = @k0_pay1 Ideal _ := rfl
theorem pay2_eq : @k2_pay1 Ideal _ = @k0_pay1 Ideal _ := rfl
theorem pay3_eq : @k3_pay1 Ideal _ = @k0_pay1 Ideal _ := rfl
theorem pay4_eq : @k4_pay1 Ideal _ = @k0_pay1 Ideal _ := rfl
theorem pay5_eq : @k5_pay1 Ideal _ = @k0_pay1 Ideal _ := rfl

end Cert.KernelIdeal.Body

end
-- ==== Proof.KReg0.lean ====
/-
  Launch 0 of the layer kernel as one whole-array function.

  The launch runs the body at 10 grid points; point `t` reads rows `10000 t … 10000 t + 9999` of its 100000 × 128 input,
  all of the weights and of the three parameter rows, and writes back rows `10000 t … 10000 t + 9999` of the 100000 × 64
  result.  Each written block is the matching block of `RowSpec.layerRows` of the arrays the launch finds, and the blocks
  cover the result, so after the launch the result array is that function.  (the first node layer)
-/
import proofs.«133353_j47820165873981_1_alg».proof.Proof.Gen.KernelIdeal.Frame
import proofs.«133353_j47820165873981_1_alg».proof.Proof.KBody
import Idealize.ShloMosaic.Lib.Pipeline.Value

set_option maxRecDepth 16384

noncomputable section

namespace Cert.KernelIdeal.Reg0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.RowSpec

variable (V : (c : Dev nD) → (b : Ref sig .tc) → Buf (Elt Ideal) ((c : Thread nD τ).loc b))

theorem hz : (![0, 0] : Fin 2 → Nat) = fun _ => 0 := funext fun a => by fin_cases a <;> rfl

/-- The layer on the arrays the launch reads, at the program's own array types. -/
abbrev G (a0 : S100000x128.Idx → Elt Ideal .f32) (a1 : S128x64.Idx → Elt Ideal .f32) (a2 a3 a4 : S1x64.Idx → Elt Ideal .f32) :
    S100000x64.Idx → Elt Ideal .f32 :=
  layerRows (M := 100000) a0 a1 a2 a3 a4

/-- The printed index maps, decided over the grid: the input and the result move together down the rows, one block per
    point; the weights and the parameter rows stay at their one block. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A window whose one block is its whole array hands the body the array itself. -/
theorem whole1 (c : Dev nD) (t : Fin cfg0.N) : iblk0 V c 1 t = V c main_v24 := by
  obtain ⟨-, -, e0, e1, -⟩ := idx_facts t
  funext y
  show V c main_v24 (((cfg0.win 1).blk t).view.emb y) = V c main_v24 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega
theorem whole2 (c : Dev nD) (t : Fin cfg0.N) : iblk0 V c 2 t = V c main_v31 := by
  obtain ⟨-, -, -, -, e0, e1, -⟩ := idx_facts t
  funext y
  show V c main_v31 (((cfg0.win 2).blk t).view.emb y) = V c main_v31 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega
theorem whole3 (c : Dev nD) (t : Fin cfg0.N) : iblk0 V c 3 t = V c main_v32 := by
  obtain ⟨-, -, -, -, -, -, e0, e1, -⟩ := idx_facts t
  funext y
  show V c main_v32 (((cfg0.win 3).blk t).view.emb y) = V c main_v32 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega
theorem whole4 (c : Dev nD) (t : Fin cfg0.N) : iblk0 V c 4 t = V c main_v33 := by
  obtain ⟨-, -, -, -, -, -, -, -, e0, e1, -⟩ := idx_facts t
  funext y
  show V c main_v33 (((cfg0.win 4).blk t).view.emb y) = V c main_v33 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- What point `t` writes back is block `t` of the layer on the arrays as the launch finds them. -/
theorem flushed_eq (c : Dev nD) (t : Fin cfg0.N) :
    (dat0 V c).flushed 5 t = ((cfg0.win 5).blk t).view.read (Elt Ideal)
      (G (V c main_v22) (V c main_v24) (V c main_v31) (V c main_v32) (V c main_v33)) := by
  show (cfg0.win 5).cut (grid0.coords t) ((dat0 V c).after 5 t) = _
  rw [after0_5]
  unfold out0_5
  rw [View.canon_unit_zero hz]
  simp only [View.ld_unit_zero (S := S10000x128) hz, View.ld_unit_zero (S := S128x64) hz, View.ld_unit_zero (S := S1x64) hz]
  rw [whole1, whole2, whole3, whole4]
  obtain ⟨e0, e1, -, -, -, -, -, -, -, -, e5, e6⟩ := idx_facts t
  funext j
  refine point_eq (M := 100000) (iblk0 V c 0 t) (V c main_v24) (V c main_v31) (V c main_v32) (V c main_v33) (V c main_v22)
    (fun y => ((cfg0.win 5).blk t).view.emb y) (fun y k => ?_) (fun y => ?_) j
  · show V c main_v22 (((cfg0.win 0).blk t).view.emb (ix2 (y 0) k)) = V c main_v22 (ix2 (((cfg0.win 5).blk t).view.emb y 0) k)
    refine congrArg _ (funext fun a => Fin.ext ?_)
    match a with
    | ⟨0, _⟩ => show win0_0.index t (0 : Fin 2) * 10000 + 1 * (y 0).val = win0_5.index t (0 : Fin 2) * 10000 + 1 * (y 0).val; omega
    | ⟨1, _⟩ => show win0_0.index t (1 : Fin 2) * 128 + 1 * k.val = k.val; omega
  · show win0_5.index t (1 : Fin 2) * 64 + 1 * (y 1).val = (y 1).val
    omega

/-- An index of the result is in point `t`'s block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v34).slice (win0_5.rect t)).set ↔ _
  rw [View.set_slice_whole, Rect.mem_set_unit]
  exact Iff.rfl

/-- Every row of the result is in the block of the point `row / 10000`. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : (i 0).val / 10000 < cfg0.N := by show (i 0).val / 10000 < 10; omega
  refine ⟨⟨(i 0).val / 10000, hN⟩, flush0_5 _, ?_⟩
  rw [mem_blk]
  obtain ⟨-, -, -, -, -, -, -, -, -, -, e5, e6⟩ := idx_facts ⟨(i 0).val / 10000, hN⟩
  intro a
  match a with
  | ⟨0, _⟩ => show win0_5.index _ (0 : Fin 2) * 10000 ≤ (i 0).val ∧ (i 0).val < win0_5.index _ (0 : Fin 2) * 10000 + 10000; rw [e5]; show (i 0).val / 10000 * 10000 ≤ _ ∧ _ < (i 0).val / 10000 * 10000 + 10000; omega
  | ⟨1, _⟩ => show win0_5.index _ (1 : Fin 2) * 64 ≤ (i 1).val ∧ (i 1).val < win0_5.index _ (1 : Fin 2) * 64 + 64; omega

/-- THE RESULT ARRAY after the launch: the layer on the arrays the launch finds. -/
theorem final (c : Dev nD) :
    (dat0 V c).arrAt 5 cfg0.N = G (V c main_v22) (V c main_v24) (V c main_v31) (V c main_v32) (V c main_v33) :=
  (dat0 V c).arrAt_eq_of_cover 5 _ (fun t _ => flushed_eq V c t) cover

end Cert.KernelIdeal.Reg0

end
-- ==== Proof.CarryK.lean ====
/-
  What each stretch of host operations of the kernel program leaves alone.

  Every host operation writes exactly one buffer, its result.  For each of the six stretches between the kernel
  launches the results are listed; a buffer that is not in the list holds, after the stretch, what it held before.
  This is how the indices, the earlier layers' outputs and the parameter arrays are carried from where they are
  computed to where a later stretch reads them.
-/
import proofs.«133353_j47820165873981_1_alg».proof.Proof.Gen.KernelIdeal.Launch
import Idealize.ShloMosaic.Lib.StableHlo.Run
import Idealize.ShloMosaic.PureOps.Ideal

set_option maxRecDepth 16384
set_option maxHeartbeats 1000000

noncomputable section

namespace Cert.KernelIdeal.Carry

open Idealize.ShloMosaic Idealize.ShloMosaic.TcCoe Idealize.SL.Sem Idealize.ShloMosaic.StableHlo
open Cert.KernelIdeal Cert.KernelIdeal.Gen

/-- The results of stretch 0. -/
abbrev written0 : List (Ref sig .tc) := [main_v0, main_v1, main_v2, main_v3, main_v4, main_v5, main_v6, main_v7, main_v8, main_v9, main_v10, main_v11, main_c, main_v12, main_v13, main_c_0, main_v14, main_v15, main_v16, main_v17, main_v18, main_cst, main_v19, main_v20, main_v21, main_v22, main_v23, main_v24, main_v25, main_v26, main_v27, main_v28, main_v29, main_v30, main_v31, main_v32, main_v33]

theorem writes0 : (hostOps0 (F := Ideal)).Forall fun op => op.writes ⊆ (written0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer stretch 0 does not write is unchanged by it. -/
theorem keep0 (V : Valuation τ sig (Elt Ideal)) (b : Ref sig .tc) (hb : b ∉ written0) :
    StableHlo.after (hostOps0 (F := Ideal)) V (Proc.devRef .tc b) = V (Proc.devRef .tc b) :=
  StableHlo.after_of_writes_sub _ V writes0 hb

/-- The results of stretch 1. -/
abbrev written1 : List (Ref sig .tc) := [main_c_1, main_v35, main_v36, main_c_2, main_v37, main_v38, main_v39, main_v40, main_v41, main_v42, main_v43, main_v44, main_v45, main_v46, main_v47, main_v48, main_v49, main_v50, main_v51, main_v52, main_v53]

theorem writes1 : (hostOps1 (F := Ideal)).Forall fun op => op.writes ⊆ (written1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer stretch 1 does not write is unchanged by it. -/
theorem keep1 (V : Valuation τ sig (Elt Ideal)) (b : Ref sig .tc) (hb : b ∉ written1) :
    StableHlo.after (hostOps1 (F := Ideal)) V (Proc.devRef .tc b) = V (Proc.devRef .tc b) :=
  StableHlo.after_of_writes_sub _ V writes1 hb

/-- The results of stretch 2. -/
abbrev written2 : List (Ref sig .tc) := [main_c_3, main_v55, main_v56, main_c_4, main_v57, main_v58, main_v59, main_v60, main_v61, main_cst_5, main_v62, main_v63, main_v64, main_v65, main_v66, main_v67, main_v68, main_v69, main_v70, main_v71, main_v72, main_v73, main_v74, main_v75, main_v76]

theorem writes2 : (hostOps2 (F := Ideal)).Forall fun op => op.writes ⊆ (written2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer stretch 2 does not write is unchanged by it. -/
theorem keep2 (V : Valuation τ sig (Elt Ideal)) (b : Ref sig .tc) (hb : b ∉ written2) :
    StableHlo.after (hostOps2 (F := Ideal)) V (Proc.devRef .tc b) = V (Proc.devRef .tc b) :=
  StableHlo.after_of_writes_sub _ V writes2 hb

/-- The results of stretch 3. -/
abbrev written3 : List (Ref sig .tc) := [main_c_6, main_v78, main_v79, main_c_7, main_v80, main_v81, main_v82, main_v83, main_v84, main_v85, main_v86, main_v87, main_v88, main_v89, main_v90, main_v91, main_v92, main_v93, main_v94, main_v95, main_v96]

theorem writes3 : (hostOps3 (F := Ideal)).Forall fun op => op.writes ⊆ (written3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer stretch 3 does not write is unchanged by it. -/
theorem keep3 (V : Valuation τ sig (Elt Ideal)) (b : Ref sig .tc) (hb : b ∉ written3) :
    StableHlo.after (hostOps3 (F := Ideal)) V (Proc.devRef .tc b) = V (Proc.devRef .tc b) :=
  StableHlo.after_of_writes_sub _ V writes3 hb

/-- The results of stretch 4. -/
abbrev written4 : List (Ref sig .tc) := [main_c_8, main_v98, main_v99, main_c_9, main_v100, main_v101, main_v102, main_v103, main_v104, main_cst_10, main_v105, main_v106, main_v107, main_v108, main_v109, main_v110, main_v111, main_v112, main_v113, main_v114, main_v115, main_v116, main_v117, main_v118, main_v119]

theorem writes4 : (hostOps4 (F := Ideal)).Forall fun op => op.writes ⊆ (written4.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer stretch 4 does not write is unchanged by it. -/
theorem keep4 (V : Valuation τ sig (Elt Ideal)) (b : Ref sig .tc) (hb : b ∉ written4) :
    StableHlo.after (hostOps4 (F := Ideal)) V (Proc.devRef .tc b) = V (Proc.devRef .tc b) :=
  StableHlo.after_of_writes_sub _ V writes4 hb

/-- The results of stretch 5. -/
abbrev written5 : List (Ref sig .tc) := [main_c_11, main_v121, main_v122, main_c_12, main_v123, main_v124, main_v125, main_v126, main_v127, main_v128, main_v129, main_v130, main_v131, main_v132, main_v133, main_v134, main_v135, main_v136, main_v137, main_v138, main_v139]

theorem writes5 : (hostOps5 (F := Ideal)).Forall fun op => op.writes ⊆ (written5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer stretch 5 does not write is unchanged by it. -/
theorem keep5 (V : Valuation τ sig (Elt Ideal)) (b : Ref sig .tc) (hb : b ∉ written5) :
    StableHlo.after (hostOps5 (F := Ideal)) V (Proc.devRef .tc b) = V (Proc.devRef .tc b) :=
  StableHlo.after_of_writes_sub _ V writes5 hb

end Cert.KernelIdeal.Carry

end
-- ==== Proof.RParams.lean ====
/-
  The parameters of layer `l`.

  The weights of the three layers are stacked in one 3 × 128 × 64 array and each of bias, gain and offset in a 3 × 64
  array; layer `l` uses slab `l` of the first as its 128 × 64 weight matrix and row `l` of the others as vectors of 64
  entries.  Both programs take them out with a slice and a reshape.
-/
import proofs.«133353_j47820165873981_1_alg».proof.Proof.Gen.ReferenceIdeal
import Idealize.ShloMosaic.PureOps.Ideal

noncomputable section

namespace Cert.ReferenceIdeal.Params

open Idealize.ShloMosaic Idealize.ShloMosaic.TcCoe
open Cert.ReferenceIdeal Cert.ReferenceIdeal.Gen

/-- Row 0 of a 3 × 64 parameter array, as a vector of 64 entries. -/
def pvec0 (a : FVec Ideal S3x64 .f32) : FVec Ideal S64 .f32 :=
  shapeCast S64 (extractStridedSlice S1x64 ![0, 0] a slices_S3x64_S1x64_0_0) shapeCasts_S1x64_S64

/-- Slab 0 of the stacked weights, as a 128 × 64 matrix. -/
def wmat0 (a : FVec Ideal S3x128x64 .f32) : FVec Ideal S128x64 .f32 :=
  shapeCast S128x64 (extractStridedSlice S1x128x64 ![0, 0, 0] a slices_S3x128x64_S1x128x64_0_0_0) shapeCasts_S1x128x64_S128x64

/-- Row 1 of a 3 × 64 parameter array, as a vector of 64 entries. -/
def pvec1 (a : FVec Ideal S3x64 .f32) : FVec Ideal S64 .f32 :=
  shapeCast S64 (extractStridedSlice S1x64 ![1, 0] a slices_S3x64_S1x64_1_0) shapeCasts_S1x64_S64

/-- Slab 1 of the stacked weights, as a 128 × 64 matrix. -/
def wmat1 (a : FVec Ideal S3x128x64 .f32) : FVec Ideal S128x64 .f32 :=
  shapeCast S128x64 (extractStridedSlice S1x128x64 ![1, 0, 0] a slices_S3x128x64_S1x128x64_1_0_0) shapeCasts_S1x128x64_S128x64

/-- Row 2 of a 3 × 64 parameter array, as a vector of 64 entries. -/
def pvec2 (a : FVec Ideal S3x64 .f32) : FVec Ideal S64 .f32 :=
  shapeCast S64 (extractStridedSlice S1x64 ![2, 0] a slices_S3x64_S1x64_2_0) shapeCasts_S1x64_S64

/-- Slab 2 of the stacked weights, as a 128 × 64 matrix. -/
def wmat2 (a : FVec Ideal S3x128x64 .f32) : FVec Ideal S128x64 .f32 :=
  shapeCast S128x64 (extractStridedSlice S1x128x64 ![2, 0, 0] a slices_S3x128x64_S1x128x64_2_0_0) shapeCasts_S1x128x64_S128x64

end Cert.ReferenceIdeal.Params

end
-- ==== Proof.Stretch0.lean ====
/-
  Stretch 0 of host operations, in the kernel program and in the reference.

  Between two layers both programs run the same host operations on the same values: the node projection, the two index vectors, the first gather and the first node layer's input.
  Read as functions of the buffers they start from, the two stretches give equal results whenever those buffers hold
  equal contents: both sides are the same composition of slices, comparisons, gathers, a scatter-add and a
  concatenation, and nothing is opened.  The layer's weight matrix and its three parameter rows are slab and row 0 of
  the stacked parameter arrays (`Params`); the kernel program lays each parameter row out once more as a 1 × 64 row.
-/
import proofs.«133353_j47820165873981_1_alg».proof.Proof.Gen.KernelIdeal.Launch
import proofs.«133353_j47820165873981_1_alg».proof.Proof.RefOps
import proofs.«133353_j47820165873981_1_alg».proof.Proof.RParams
import Idealize.ShloMosaic.PureOps.Ideal

set_option maxRecDepth 16384
set_option maxHeartbeats 2000000

noncomputable section

namespace Cert.Stretch0

open Idealize.ShloMosaic Idealize.ShloMosaic.TcCoe Idealize.SL.Sem Idealize.ShloMosaic.StableHlo

theorem row (WK : Valuation Cert.KernelIdeal.τ Cert.KernelIdeal.sig (Elt Ideal)) (WR : Valuation Cert.ReferenceIdeal.τ Cert.ReferenceIdeal.sig (Elt Ideal))
    (h_arg1 : WK (Proc.devRef .tc Cert.KernelIdeal.main_arg1) = WR (Proc.devRef .tc Cert.ReferenceIdeal.main_arg1)) :
    StableHlo.after (Cert.KernelIdeal.Gen.hostOps0 (F := Ideal)) WK (Proc.devRef .tc Cert.KernelIdeal.main_v1)
      = StableHlo.after (Cert.ReferenceIdeal.RefOps.piece0 (F := Ideal)) WR (Proc.devRef .tc Cert.ReferenceIdeal.main_v1) := by
  after_results
  rw [h_arg1]
  rfl

theorem col (WK : Valuation Cert.KernelIdeal.τ Cert.KernelIdeal.sig (Elt Ideal)) (WR : Valuation Cert.ReferenceIdeal.τ Cert.ReferenceIdeal.sig (Elt Ideal))
    (h_arg1 : WK (Proc.devRef .tc Cert.KernelIdeal.main_arg1) = WR (Proc.devRef .tc Cert.ReferenceIdeal.main_arg1)) :
    StableHlo.after (Cert.KernelIdeal.Gen.hostOps0 (F := Ideal)) WK (Proc.devRef .tc Cert.KernelIdeal.main_v3)
      = StableHlo.after (Cert.ReferenceIdeal.RefOps.piece0 (F := Ideal)) WR (Proc.devRef .tc Cert.ReferenceIdeal.main_v3) := by
  after_results
  rw [h_arg1]
  rfl

theorem inp (WK : Valuation Cert.KernelIdeal.τ Cert.KernelIdeal.sig (Elt Ideal)) (WR : Valuation Cert.ReferenceIdeal.τ Cert.ReferenceIdeal.sig (Elt Ideal))
    (h_arg0 : WK (Proc.devRef .tc Cert.KernelIdeal.main_arg0) = WR (Proc.devRef .tc Cert.ReferenceIdeal.main_arg0))
    (h_arg3 : WK (Proc.devRef .tc Cert.KernelIdeal.main_arg3) = WR (Proc.devRef .tc Cert.ReferenceIdeal.main_arg3))
    (h_arg4 : WK (Proc.devRef .tc Cert.KernelIdeal.main_arg4) = WR (Proc.devRef .tc Cert.ReferenceIdeal.main_arg4))
    (h_arg1 : WK (Proc.devRef .tc Cert.KernelIdeal.main_arg1) = WR (Proc.devRef .tc Cert.ReferenceIdeal.main_arg1)) :
    StableHlo.after (Cert.KernelIdeal.Gen.hostOps0 (F := Ideal)) WK (Proc.devRef .tc Cert.KernelIdeal.main_v22)
      = StableHlo.after (Cert.ReferenceIdeal.RefOps.piece0 (F := Ideal)) WR (Proc.devRef .tc Cert.ReferenceIdeal.main_v22) := by
  after_results
  rw [h_arg0, h_arg3, h_arg4, h_arg1]
  rfl

theorem weightsK (WK : Valuation Cert.KernelIdeal.τ Cert.KernelIdeal.sig (Elt Ideal)) :
    StableHlo.after (Cert.KernelIdeal.Gen.hostOps0 (F := Ideal)) WK (Proc.devRef .tc Cert.KernelIdeal.main_v24) = Cert.ReferenceIdeal.Params.wmat0 (WK (Proc.devRef .tc Cert.KernelIdeal.main_arg7)) := by
  after_results <;> rfl

theorem weightsR (WR : Valuation Cert.ReferenceIdeal.τ Cert.ReferenceIdeal.sig (Elt Ideal)) :
    StableHlo.after (Cert.ReferenceIdeal.RefOps.piece0 (F := Ideal)) WR (Proc.devRef .tc Cert.ReferenceIdeal.main_v24) = Cert.ReferenceIdeal.Params.wmat0 (WR (Proc.devRef .tc Cert.ReferenceIdeal.main_arg7)) := by
  after_results <;> rfl

theorem param0K (WK : Valuation Cert.KernelIdeal.τ Cert.KernelIdeal.sig (Elt Ideal)) :
    StableHlo.after (Cert.KernelIdeal.Gen.hostOps0 (F := Ideal)) WK (Proc.devRef .tc Cert.KernelIdeal.main_v31)
      = shapeCast Cert.KernelIdeal.S1x64 (Cert.ReferenceIdeal.Params.pvec0 (WK (Proc.devRef .tc Cert.KernelIdeal.main_arg8))) Cert.KernelIdeal.Gen.shapeCasts_S64_S1x64 := by
  after_results <;> rfl

theorem param1K (WK : Valuation Cert.KernelIdeal.τ Cert.KernelIdeal.sig (Elt Ideal)) :
    StableHlo.after (Cert.KernelIdeal.Gen.hostOps0 (F := Ideal)) WK (Proc.devRef .tc Cert.KernelIdeal.main_v32)
      = shapeCast Cert.KernelIdeal.S1x64 (Cert.ReferenceIdeal.Params.pvec0 (WK (Proc.devRef .tc Cert.KernelIdeal.main_arg9))) Cert.KernelIdeal.Gen.shapeCasts_S64_S1x64 := by
  after_results <;> rfl

theorem param2K (WK : Valuation Cert.KernelIdeal.τ Cert.KernelIdeal.sig (Elt Ideal)) :
    StableHlo.after (Cert.KernelIdeal.Gen.hostOps0 (F := Ideal)) WK (Proc.devRef .tc Cert.KernelIdeal.main_v33)
      = shapeCast Cert.KernelIdeal.S1x64 (Cert.ReferenceIdeal.Params.pvec0 (WK (Proc.devRef .tc Cert.KernelIdeal.main_arg10))) Cert.KernelIdeal.Gen.shapeCasts_S64_S1x64 := by
  after_results <;> rfl

end Cert.Stretch0

end
-- ==== Proof.RBlock.lean ====
/-
  The reference's layer block, read on the extended reals.

  Between two stretches of gathers and scatters the reference applies, to an array of `M` rows of 128 entries, the
  same layer the kernel computes block by block: a product with the 128 × 64 weights, the bias, the cut-off at zero,
  and the normalisation of every row.  Its operations' composed term is spelt here as small definitions (the cut-off
  affine image, the row means kept as a column, the deviations, the normalisation), and shown equal, index by index, to
  `RowSpec.layer`: the host's product is the plain sum of products, its sum along the last axis from a zero start the
  sum of the row's entries, and each broadcast reads the entry its row or lane names.  There are two sizes, the node
  arrays (100000 rows) and the edge arrays (1250000 rows); the two texts differ in the extent only.
-/
import proofs.«133353_j47820165873981_1_alg».proof.Proof.Gen.ReferenceIdeal
import proofs.«133353_j47820165873981_1_alg».proof.Proof.RowSpec
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

open Idealize.ShloMosaic Idealize.ShloMosaic.TcCoe Idealize.ShloMosaic.ValueIdx
open Cert.ReferenceIdeal Cert.ReferenceIdeal.Gen Cert.RowSpec

/-! ## The block on 100000 rows -/

namespace Cert.ReferenceIdeal.NodeBlock

/-- The block's product: rows of the input against columns of the weights. -/
abbrev DD := dot_S100000x128_S128x64_S100000x64_1_0_0_1_n_n

theorem lhs0 (i : S100000x64.Idx) (c : DD.contr.Idx) : (DD.lhsIdx i c 0).val = (i 0).val := by
  unfold DotDims.lhsIdx
  rw [dif_neg (show ¬(0 : Fin S100000x128.rank) ∈ DD.lhsBatch by decide), dif_pos (show (0 : Fin S100000x128.rank) ∈ DD.lhsNonContracting by decide)]
  rfl
theorem lhs1 (i : S100000x64.Idx) (c : DD.contr.Idx) : (DD.lhsIdx i c 1).val = (c ⟨0, by decide⟩).val :=
  DD.lhsIdx_val_of_single rfl i c
theorem rhs0 (i : S100000x64.Idx) (c : DD.contr.Idx) : (DD.rhsIdx i c 0).val = (c ⟨0, by decide⟩).val :=
  DD.rhsIdx_val_of_single rfl i c
theorem rhs1 (i : S100000x64.Idx) (c : DD.contr.Idx) : (DD.rhsIdx i c 1).val = (i 1).val := by
  unfold DotDims.rhsIdx
  rw [dif_neg (show ¬(1 : Fin S128x64.rank) ∈ DD.rhsBatch by decide), dif_pos (show (1 : Fin S128x64.rank) ∈ DD.rhsNonContracting by decide)]
  rfl

/-- The host's product at entry `(p, q)`: the sum over the 128 contracted positions. -/
theorem product_apply (a : FVec Ideal S100000x128 .f32) (w : FVec Ideal S128x64 .f32) (p : Fin 100000) (q : Fin 64) :
    Host.dotGeneral (F := Ideal) DD none a w (ix2 p q) = ∑ k : Fin 128, a (ix2 p k) * w (ix2 k q) := by
  simp only [Host.dotGeneral]
  rw [Ideal.dotGeneral_apply, ← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun ax => Fin.ext (by
    match ax with
    | ⟨0, _⟩ => exact lhs0 _ _
    | ⟨1, _⟩ => exact (lhs1 _ _).trans hk)
  have er : DD.rhsIdx (ix2 p q) ((contrEquiv1 DD 128 rfl rfl).symm k) = ix2 k q := funext fun ax => Fin.ext (by
    match ax with
    | ⟨0, _⟩ => exact (rhs0 _ _).trans hk
    | ⟨1, _⟩ => exact rhs1 _ _)
  rw [el, er]

/-- The host's sum along the last axis from a zero start, at row `p`: the sum of the row's 64 entries. -/
theorem rowsum_apply (y : FVec Ideal S100000x64 .f32) (p : Fin 100000) :
    Host.reduceAdd (F := Ideal) y (constant (F := Ideal) S_ .f32 0x00000000#32) reducesTo_S100000x64_S100000_d1 h_S_ (ix1 p)
      = ∑ k : Fin 64, y (ix2 p k) := by
  simp only [Host.reduceAdd, Ideal.hostReduceAdd_def]
  rw [Ideal.hostReduceAdd_single reducesTo_S100000x64_S100000_d1 (by decide)]
  show Ideal.ofBits .f32 0x00000000#32 + _ = _
  rw [Ideal.ofBits_zero_f32, zero_add]
  exact Finset.sum_congr rfl fun k _ => congrArg y (funext fun ax => Fin.ext (by
    match ax with
    | ⟨0, _⟩ => rfl
    | ⟨1, _⟩ => rfl))

/-- A vector of 64 entries laid out as a row and broadcast down the rows, at `(p, q)`. -/
theorem rowcast_apply (r : FVec Ideal S64 .f32) (p : Fin 100000) (q : Fin 64) :
    broadcastInDim S100000x64 ![0, 1] bcast_S1x64_S100000x64_0_1 (broadcastInDim S1x64 ![1] bcast_S64_S1x64_1 r) (ix2 p q) = r (ix1 q) := by
  refine (broadcastInDim_apply _ bcast_S1x64_S100000x64_0_1 _ (ix2 p q) (ix2 (0 : Fin 1) q) fun ax => ?_).trans ?_
  · match ax with
    | ⟨0, _⟩ => rfl
    | ⟨1, _⟩ => rfl
  · exact broadcastInDim_apply _ bcast_S64_S1x64_1 r (ix2 (0 : Fin 1) q) (ix1 q) fun ax => by
      match ax with
      | ⟨0, _⟩ => rfl

/-- A column broadcast over the 64 lanes, at `(p, q)`. -/
theorem colcast_apply (v : FVec Ideal S100000x1 .f32) (p : Fin 100000) (q : Fin 64) :
    broadcastInDim S100000x64 ![0, 1] bcast_S100000x1_S100000x64_0_1 v (ix2 p q) = v (ix2 p (0 : Fin 1)) :=
  broadcastInDim_apply _ bcast_S100000x1_S100000x64_0_1 v (ix2 p q) (ix2 p (0 : Fin 1)) fun ax => by
    match ax with
    | ⟨0, _⟩ => rfl
    | ⟨1, _⟩ => rfl

/-- A vector of row values kept as a column, at `(p, u)`. -/
theorem keep_apply (v : FVec Ideal S100000 .f32) (p : Fin 100000) (u : Fin 1) :
    broadcastInDim S100000x1 ![0] bcast_S100000_S100000x1_0 v (ix2 p u) = v (ix1 p) :=
  broadcastInDim_apply _ bcast_S100000_S100000x1_0 v (ix2 p u) (ix1 p) fun ax => by
    match ax with
    | ⟨0, _⟩ => rfl

/-- The affine image of every row, cut off below at zero. -/
def actArr (inp : FVec Ideal S100000x128 .f32) (w : FVec Ideal S128x64 .f32) (b : FVec Ideal S64 .f32) : FVec Ideal S100000x64 .f32 :=
  maximumf
    (addf (Host.dotGeneral (F := Ideal) DD none inp w)
      (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

theorem actArr_apply (inp : FVec Ideal S100000x128 .f32) (w : FVec Ideal S128x64 .f32) (b : FVec Ideal S64 .f32) (p : Fin 100000) (q : Fin 64) :
    actArr inp w b (ix2 p q) = act (fun k => inp (ix2 p k)) (fun k j => w (ix2 k j)) (fun j => b (ix1 j)) q := by
  unfold actArr act
  show max (Host.dotGeneral (F := Ideal) DD none inp w (ix2 p q) + broadcastInDim S100000x64 ![0, 1] bcast_S1x64_S100000x64_0_1 (broadcastInDim S1x64 ![1] bcast_S64_S1x64_1 b) (ix2 p q))
      (broadcastInDim S100000x64 ![] bcast_S_S100000x64 (constant (F := Ideal) S_ .f32 0x00000000#32) (ix2 p q)) = _
  rw [product_apply, rowcast_apply, broadcastInDim_scalar_apply]
  rfl

/-- Each row's mean, kept as a column. -/
def meanCol (y : FVec Ideal S100000x64 .f32) : FVec Ideal S100000x1 .f32 :=
  Host.divf (F := Ideal)
    (broadcastInDim S100000x1 ![0] bcast_S100000_S100000x1_0
      (Host.reduceAdd (F := Ideal) y (constant (F := Ideal) S_ .f32 0x00000000#32) reducesTo_S100000x64_S100000_d1 h_S_))
    (broadcastInDim S100000x1 ![] bcast_S_S100000x1 (constant (F := Ideal) S_ .f32 0x42800000#32))

theorem meanCol_apply (y : FVec Ideal S100000x64 .f32) (p : Fin 100000) (u : Fin 1) :
    meanCol y (ix2 p u) = mean (fun j => y (ix2 p j)) := by
  unfold meanCol mean
  show Ideal.div (broadcastInDim S100000x1 ![0] bcast_S100000_S100000x1_0
        (Host.reduceAdd (F := Ideal) y (constant (F := Ideal) S_ .f32 0x00000000#32) reducesTo_S100000x64_S100000_d1 h_S_) (ix2 p u))
      (broadcastInDim S100000x1 ![] bcast_S_S100000x1 (constant (F := Ideal) S_ .f32 0x42800000#32) (ix2 p u)) = _
  rw [keep_apply, rowsum_apply, broadcastInDim_scalar_apply]
  rfl

/-- Each entry's deviation from its row's mean. -/
def devArr (y : FVec Ideal S100000x64 .f32) : FVec Ideal S100000x64 .f32 :=
  subf y (broadcastInDim S100000x64 ![0, 1] bcast_S100000x1_S100000x64_0_1 (meanCol y))

theorem devArr_apply (y : FVec Ideal S100000x64 .f32) (p : Fin 100000) (q : Fin 64) :
    devArr y (ix2 p q) = y (ix2 p q) - mean (fun j => y (ix2 p j)) := by
  unfold devArr
  show y (ix2 p q) - broadcastInDim S100000x64 ![0, 1] bcast_S100000x1_S100000x64_0_1 (meanCol y) (ix2 p q) = _
  rw [colcast_apply, meanCol_apply]

/-- The reciprocal root of each row's variance plus `ε`, kept as a column. -/
def rsCol (y : FVec Ideal S100000x64 .f32) : FVec Ideal S100000x1 .f32 :=
  Host.rsqrt (F := Ideal)
    (addf (meanCol (mulf (devArr y) (devArr y)))
      (broadcastInDim S100000x1 ![] bcast_S_S100000x1 (constant (F := Ideal) S_ .f32 0x3727C5AC#32)))

theorem rsCol_apply (y : FVec Ideal S100000x64 .f32) (p : Fin 100000) (u : Fin 1) :
    rsCol y (ix2 p u)
      = Ideal.rsqrt (mean (fun j => (y (ix2 p j) - mean (fun j => y (ix2 p j))) * (y (ix2 p j) - mean (fun j => y (ix2 p j))))
          + Ideal.ofBits .f32 0x3727C5AC#32) := by
  unfold rsCol
  show Ideal.rsqrt (meanCol (mulf (devArr y) (devArr y)) (ix2 p u)
      + broadcastInDim S100000x1 ![] bcast_S_S100000x1 (constant (F := Ideal) S_ .f32 0x3727C5AC#32) (ix2 p u)) = _
  rw [meanCol_apply, broadcastInDim_scalar_apply]
  have hd : (fun j => (mulf (devArr y) (devArr y)) (ix2 p j))
      = fun j => (y (ix2 p j) - mean (fun j => y (ix2 p j))) * (y (ix2 p j) - mean (fun j => y (ix2 p j))) :=
    funext fun j => by
      show devArr y (ix2 p j) * devArr y (ix2 p j) = _
      rw [devArr_apply]
  rw [hd]
  rfl

/-- The normalisation of every row of `y`, with gain `g` and offset `be`. -/
def normArr (y : FVec Ideal S100000x64 .f32) (g be : FVec Ideal S64 .f32) : FVec Ideal S100000x64 .f32 :=
  addf
    (mulf
      (mulf (devArr y) (broadcastInDim S100000x64 ![0, 1] bcast_S100000x1_S100000x64_0_1 (rsCol y)))
      (broadcastInDim S100000x64 ![0, 1] bcast_S1x64_S100000x64_0_1 (broadcastInDim S1x64 ![1] bcast_S64_S1x64_1 g)))
    (broadcastInDim S100000x64 ![0, 1] bcast_S1x64_S100000x64_0_1 (broadcastInDim S1x64 ![1] bcast_S64_S1x64_1 be))

theorem normArr_apply (y : FVec Ideal S100000x64 .f32) (g be : FVec Ideal S64 .f32) (p : Fin 100000) (q : Fin 64) :
    normArr y g be (ix2 p q) = RowSpec.norm (fun j => y (ix2 p j)) (fun j => g (ix1 j)) (fun j => be (ix1 j)) q := by
  unfold normArr RowSpec.norm
  show devArr y (ix2 p q) * broadcastInDim S100000x64 ![0, 1] bcast_S100000x1_S100000x64_0_1 (rsCol y) (ix2 p q)
      * broadcastInDim S100000x64 ![0, 1] bcast_S1x64_S100000x64_0_1 (broadcastInDim S1x64 ![1] bcast_S64_S1x64_1 g) (ix2 p q)
      + broadcastInDim S100000x64 ![0, 1] bcast_S1x64_S100000x64_0_1 (broadcastInDim S1x64 ![1] bcast_S64_S1x64_1 be) (ix2 p q) = _
  rw [rowcast_apply, rowcast_apply, colcast_apply, devArr_apply, rsCol_apply]

/-- The block's composed term: the normalisation of the cut-off affine image. -/
def block (inp : FVec Ideal S100000x128 .f32) (w : FVec Ideal S128x64 .f32) (b g be : FVec Ideal S64 .f32) : FVec Ideal S100000x64 .f32 :=
  normArr (actArr inp w b) g be

/-- The block is the layer, index by index. -/
theorem block_eq_layer (inp : FVec Ideal S100000x128 .f32) (w : FVec Ideal S128x64 .f32) (b g be : FVec Ideal S64 .f32) :
    block inp w b g be = layer (M := 100000) inp w b g be := by
  funext i
  obtain ⟨p, q, rfl⟩ : ∃ (p : Fin 100000) (q : Fin 64), i = ix2 p q := ⟨i 0, i 1, eq_ix2 i⟩
  unfold block layer row
  rw [normArr_apply]
  have ha : (fun j => actArr inp w b (ix2 p j)) = act (fun k => inp (ix2 p k)) (fun k j => w (ix2 k j)) (fun j => b (ix1 j)) :=
    funext fun j => actArr_apply inp w b p j
  rw [ha]

end Cert.ReferenceIdeal.NodeBlock

/-! ## The block on 1250000 rows -/

namespace Cert.ReferenceIdeal.EdgeBlock

/-- The block's product: rows of the input against columns of the weights. -/
abbrev DD := dot_S1250000x128_S128x64_S1250000x64_1_0_0_1_n_n

theorem lhs0 (i : S1250000x64.Idx) (c : DD.contr.Idx) : (DD.lhsIdx i c 0).val = (i 0).val := by
  unfold DotDims.lhsIdx
  rw [dif_neg (show ¬(0 : Fin S1250000x128.rank) ∈ DD.lhsBatch by decide), dif_pos (show (0 : Fin S1250000x128.rank) ∈ DD.lhsNonContracting by decide)]
  rfl
theorem lhs1 (i : S1250000x64.Idx) (c : DD.contr.Idx) : (DD.lhsIdx i c 1).val = (c ⟨0, by decide⟩).val :=
  DD.lhsIdx_val_of_single rfl i c
theorem rhs0 (i : S1250000x64.Idx) (c : DD.contr.Idx) : (DD.rhsIdx i c 0).val = (c ⟨0, by decide⟩).val :=
  DD.rhsIdx_val_of_single rfl i c
theorem rhs1 (i : S1250000x64.Idx) (c : DD.contr.Idx) : (DD.rhsIdx i c 1).val = (i 1).val := by
  unfold DotDims.rhsIdx
  rw [dif_neg (show ¬(1 : Fin S128x64.rank) ∈ DD.rhsBatch by decide), dif_pos (show (1 : Fin S128x64.rank) ∈ DD.rhsNonContracting by decide)]
  rfl

/-- The host's product at entry `(p, q)`: the sum over the 128 contracted positions. -/
theorem product_apply (a : FVec Ideal S1250000x128 .f32) (w : FVec Ideal S128x64 .f32) (p : Fin 1250000) (q : Fin 64) :
    Host.dotGeneral (F := Ideal) DD none a w (ix2 p q) = ∑ k : Fin 128, a (ix2 p k) * w (ix2 k q) := by
  simp only [Host.dotGeneral]
  rw [Ideal.dotGeneral_apply, ← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun ax => Fin.ext (by
    match ax with
    | ⟨0, _⟩ => exact lhs0 _ _
    | ⟨1, _⟩ => exact (lhs1 _ _).trans hk)
  have er : DD.rhsIdx (ix2 p q) ((contrEquiv1 DD 128 rfl rfl).symm k) = ix2 k q := funext fun ax => Fin.ext (by
    match ax with
    | ⟨0, _⟩ => exact (rhs0 _ _).trans hk
    | ⟨1, _⟩ => exact rhs1 _ _)
  rw [el, er]

/-- The host's sum along the last axis from a zero start, at row `p`: the sum of the row's 64 entries. -/
theorem rowsum_apply (y : FVec Ideal S1250000x64 .f32) (p : Fin 1250000) :
    Host.reduceAdd (F := Ideal) y (constant (F := Ideal) S_ .f32 0x00000000#32) reducesTo_S1250000x64_S1250000_d1 h_S_ (ix1 p)
      = ∑ k : Fin 64, y (ix2 p k) := by
  simp only [Host.reduceAdd, Ideal.hostReduceAdd_def]
  rw [Ideal.hostReduceAdd_single reducesTo_S1250000x64_S1250000_d1 (by decide)]
  show Ideal.ofBits .f32 0x00000000#32 + _ = _
  rw [Ideal.ofBits_zero_f32, zero_add]
  exact Finset.sum_congr rfl fun k _ => congrArg y (funext fun ax => Fin.ext (by
    match ax with
    | ⟨0, _⟩ => rfl
    | ⟨1, _⟩ => rfl))

/-- A vector of 64 entries laid out as a row and broadcast down the rows, at `(p, q)`. -/
theorem rowcast_apply (r : FVec Ideal S64 .f32) (p : Fin 1250000) (q : Fin 64) :
    broadcastInDim S1250000x64 ![0, 1] bcast_S1x64_S1250000x64_0_1 (broadcastInDim S1x64 ![1] bcast_S64_S1x64_1 r) (ix2 p q) = r (ix1 q) := by
  refine (broadcastInDim_apply _ bcast_S1x64_S1250000x64_0_1 _ (ix2 p q) (ix2 (0 : Fin 1) q) fun ax => ?_).trans ?_
  · match ax with
    | ⟨0, _⟩ => rfl
    | ⟨1, _⟩ => rfl
  · exact broadcastInDim_apply _ bcast_S64_S1x64_1 r (ix2 (0 : Fin 1) q) (ix1 q) fun ax => by
      match ax with
      | ⟨0, _⟩ => rfl

/-- A column broadcast over the 64 lanes, at `(p, q)`. -/
theorem colcast_apply (v : FVec Ideal S1250000x1 .f32) (p : Fin 1250000) (q : Fin 64) :
    broadcastInDim S1250000x64 ![0, 1] bcast_S1250000x1_S1250000x64_0_1 v (ix2 p q) = v (ix2 p (0 : Fin 1)) :=
  broadcastInDim_apply _ bcast_S1250000x1_S1250000x64_0_1 v (ix2 p q) (ix2 p (0 : Fin 1)) fun ax => by
    match ax with
    | ⟨0, _⟩ => rfl
    | ⟨1, _⟩ => rfl

/-- A vector of row values kept as a column, at `(p, u)`. -/
theorem keep_apply (v : FVec Ideal S1250000 .f32) (p : Fin 1250000) (u : Fin 1) :
    broadcastInDim S1250000x1 ![0] bcast_S1250000_S1250000x1_0 v (ix2 p u) = v (ix1 p) :=
  broadcastInDim_apply _ bcast_S1250000_S1250000x1_0 v (ix2 p u) (ix1 p) fun ax => by
    match ax with
    | ⟨0, _⟩ => rfl

/-- The affine image of every row, cut off below at zero. -/
def actArr (inp : FVec Ideal S1250000x128 .f32) (w : FVec Ideal S128x64 .f32) (b : FVec Ideal S64 .f32) : FVec Ideal S1250000x64 .f32 :=
  maximumf
    (addf (Host.dotGeneral (F := Ideal) DD none inp w)
      (broadcastInDim S1250000x64 ![0, 1] bcast_S1x64_S1250000x64_0_1 (broadcastInDim S1x64 ![1] bcast_S64_S1x64_1 b)))
    (broadcastInDim S1250000x64 ![] bcast_S_S1250000x64 (constant (F := Ideal) S_ .f32 0x00000000#32))

theorem actArr_apply (inp : FVec Ideal S1250000x128 .f32) (w : FVec Ideal S128x64 .f32) (b : FVec Ideal S64 .f32) (p : Fin 1250000) (q : Fin 64) :
    actArr inp w b (ix2 p q) = act (fun k => inp (ix2 p k)) (fun k j => w (ix2 k j)) (fun j => b (ix1 j)) q := by
  unfold actArr act
  show max (Host.dotGeneral (F := Ideal) DD none inp w (ix2 p q) + broadcastInDim S1250000x64 ![0, 1] bcast_S1x64_S1250000x64_0_1 (broadcastInDim S1x64 ![1] bcast_S64_S1x64_1 b) (ix2 p q))
      (broadcastInDim S1250000x64 ![] bcast_S_S1250000x64 (constant (F := Ideal) S_ .f32 0x00000000#32) (ix2 p q)) = _
  rw [product_apply, rowcast_apply, broadcastInDim_scalar_apply]
  rfl

/-- Each row's mean, kept as a column. -/
def meanCol (y : FVec Ideal S1250000x64 .f32) : FVec Ideal S1250000x1 .f32 :=
  Host.divf (F := Ideal)
    (broadcastInDim S1250000x1 ![0] bcast_S1250000_S1250000x1_0
      (Host.reduceAdd (F := Ideal) y (constant (F := Ideal) S_ .f32 0x00000000#32) reducesTo_S1250000x64_S1250000_d1 h_S_))
    (broadcastInDim S1250000x1 ![] bcast_S_S1250000x1 (constant (F := Ideal) S_ .f32 0x42800000#32))

theorem meanCol_apply (y : FVec Ideal S1250000x64 .f32) (p : Fin 1250000) (u : Fin 1) :
    meanCol y (ix2 p u) = mean (fun j => y (ix2 p j)) := by
  unfold meanCol mean
  show Ideal.div (broadcastInDim S1250000x1 ![0] bcast_S1250000_S1250000x1_0
        (Host.reduceAdd (F := Ideal) y (constant (F := Ideal) S_ .f32 0x00000000#32) reducesTo_S1250000x64_S1250000_d1 h_S_) (ix2 p u))
      (broadcastInDim S1250000x1 ![] bcast_S_S1250000x1 (constant (F := Ideal) S_ .f32 0x42800000#32) (ix2 p u)) = _
  rw [keep_apply, rowsum_apply, broadcastInDim_scalar_apply]
  rfl

/-- Each entry's deviation from its row's mean. -/
def devArr (y : FVec Ideal S1250000x64 .f32) : FVec Ideal S1250000x64 .f32 :=
  subf y (broadcastInDim S1250000x64 ![0, 1] bcast_S1250000x1_S1250000x64_0_1 (meanCol y))

theorem devArr_apply (y : FVec Ideal S1250000x64 .f32) (p : Fin 1250000) (q : Fin 64) :
    devArr y (ix2 p q) = y (ix2 p q) - mean (fun j => y (ix2 p j)) := by
  unfold devArr
  show y (ix2 p q) - broadcastInDim S1250000x64 ![0, 1] bcast_S1250000x1_S1250000x64_0_1 (meanCol y) (ix2 p q) = _
  rw [colcast_apply, meanCol_apply]

/-- The reciprocal root of each row's variance plus `ε`, kept as a column. -/
def rsCol (y : FVec Ideal S1250000x64 .f32) : FVec Ideal S1250000x1 .f32 :=
  Host.rsqrt (F := Ideal)
    (addf (meanCol (mulf (devArr y) (devArr y)))
      (broadcastInDim S1250000x1 ![] bcast_S_S1250000x1 (constant (F := Ideal) S_ .f32 0x3727C5AC#32)))

theorem rsCol_apply (y : FVec Ideal S1250000x64 .f32) (p : Fin 1250000) (u : Fin 1) :
    rsCol y (ix2 p u)
      = Ideal.rsqrt (mean (fun j => (y (ix2 p j) - mean (fun j => y (ix2 p j))) * (y (ix2 p j) - mean (fun j => y (ix2 p j))))
          + Ideal.ofBits .f32 0x3727C5AC#32) := by
  unfold rsCol
  show Ideal.rsqrt (meanCol (mulf (devArr y) (devArr y)) (ix2 p u)
      + broadcastInDim S1250000x1 ![] bcast_S_S1250000x1 (constant (F := Ideal) S_ .f32 0x3727C5AC#32) (ix2 p u)) = _
  rw [meanCol_apply, broadcastInDim_scalar_apply]
  have hd : (fun j => (mulf (devArr y) (devArr y)) (ix2 p j))
      = fun j => (y (ix2 p j) - mean (fun j => y (ix2 p j))) * (y (ix2 p j) - mean (fun j => y (ix2 p j))) :=
    funext fun j => by
      show devArr y (ix2 p j) * devArr y (ix2 p j) = _
      rw [devArr_apply]
  rw [hd]
  rfl

/-- The normalisation of every row of `y`, with gain `g` and offset `be`. -/
def normArr (y : FVec Ideal S1250000x64 .f32) (g be : FVec Ideal S64 .f32) : FVec Ideal S1250000x64 .f32 :=
  addf
    (mulf
      (mulf (devArr y) (broadcastInDim S1250000x64 ![0, 1] bcast_S1250000x1_S1250000x64_0_1 (rsCol y)))
      (broadcastInDim S1250000x64 ![0, 1] bcast_S1x64_S1250000x64_0_1 (broadcastInDim S1x64 ![1] bcast_S64_S1x64_1 g)))
    (broadcastInDim S1250000x64 ![0, 1] bcast_S1x64_S1250000x64_0_1 (broadcastInDim S1x64 ![1] bcast_S64_S1x64_1 be))

theorem normArr_apply (y : FVec Ideal S1250000x64 .f32) (g be : FVec Ideal S64 .f32) (p : Fin 1250000) (q : Fin 64) :
    normArr y g be (ix2 p q) = RowSpec.norm (fun j => y (ix2 p j)) (fun j => g (ix1 j)) (fun j => be (ix1 j)) q := by
  unfold normArr RowSpec.norm
  show devArr y (ix2 p q) * broadcastInDim S1250000x64 ![0, 1] bcast_S1250000x1_S1250000x64_0_1 (rsCol y) (ix2 p q)
      * broadcastInDim S1250000x64 ![0, 1] bcast_S1x64_S1250000x64_0_1 (broadcastInDim S1x64 ![1] bcast_S64_S1x64_1 g) (ix2 p q)
      + broadcastInDim S1250000x64 ![0, 1] bcast_S1x64_S1250000x64_0_1 (broadcastInDim S1x64 ![1] bcast_S64_S1x64_1 be) (ix2 p q) = _
  rw [rowcast_apply, rowcast_apply, colcast_apply, devArr_apply, rsCol_apply]

/-- The block's composed term: the normalisation of the cut-off affine image. -/
def block (inp : FVec Ideal S1250000x128 .f32) (w : FVec Ideal S128x64 .f32) (b g be : FVec Ideal S64 .f32) : FVec Ideal S1250000x64 .f32 :=
  normArr (actArr inp w b) g be

/-- The block is the layer, index by index. -/
theorem block_eq_layer (inp : FVec Ideal S1250000x128 .f32) (w : FVec Ideal S128x64 .f32) (b g be : FVec Ideal S64 .f32) :
    block inp w b g be = layer (M := 1250000) inp w b g be := by
  funext i
  obtain ⟨p, q, rfl⟩ : ∃ (p : Fin 1250000) (q : Fin 64), i = ix2 p q := ⟨i 0, i 1, eq_ix2 i⟩
  unfold block layer row
  rw [normArr_apply]
  have ha : (fun j => actArr inp w b (ix2 p j)) = act (fun k => inp (ix2 p k)) (fun k j => w (ix2 k j)) (fun j => b (ix1 j)) :=
    funext fun j => actArr_apply inp w b p j
  rw [ha]

end Cert.ReferenceIdeal.EdgeBlock

end
-- ==== Proof.BlocksNode.lean ====
/-
  The reference's node layer blocks, read off its operations.

  Each of the three node layers is one piece of 42 operations.  Its last result, as a function of the buffers the piece
  starts from, is the block's composed term (`NodeBlock.block`) of the layer's input, its weight matrix, and row `l` of
  the three parameter arrays, hence `RowSpec.layer` of them.
-/
import proofs.«133353_j47820165873981_1_alg».proof.Proof.RefOps
import proofs.«133353_j47820165873981_1_alg».proof.Proof.RBlock
import proofs.«133353_j47820165873981_1_alg».proof.Proof.RParams

set_option maxRecDepth 16384
set_option maxHeartbeats 2000000

noncomputable section

namespace Cert.ReferenceIdeal.BlocksNode

open Idealize.ShloMosaic Idealize.ShloMosaic.TcCoe Idealize.SL.Sem Idealize.ShloMosaic.StableHlo
open Cert.ReferenceIdeal Cert.ReferenceIdeal.Gen Cert.ReferenceIdeal.Params Cert.RowSpec

/-- Layer 1: piece 1. -/
theorem layer0 (WR : Valuation τ sig (Elt Ideal)) :
    StableHlo.after (RefOps.piece1 (F := Ideal)) WR (Proc.devRef .tc main_v59)
      = layer (M := 100000) (WR (Proc.devRef .tc main_v22)) (WR (Proc.devRef .tc main_v24))
          (pvec0 (WR (Proc.devRef .tc main_arg8))) (pvec0 (WR (Proc.devRef .tc main_arg9)))
          (pvec0 (WR (Proc.devRef .tc main_arg10))) :=
  (show StableHlo.after (RefOps.piece1 (F := Ideal)) WR (Proc.devRef .tc main_v59)
      = NodeBlock.block (WR (Proc.devRef .tc main_v22)) (WR (Proc.devRef .tc main_v24))
          (pvec0 (WR (Proc.devRef .tc main_arg8))) (pvec0 (WR (Proc.devRef .tc main_arg9)))
          (pvec0 (WR (Proc.devRef .tc main_arg10))) from by after_results_simp <;> rfl).trans
    (NodeBlock.block_eq_layer _ _ _ _ _)

/-- Layer 2: piece 5. -/
theorem layer1 (WR : Valuation τ sig (Elt Ideal)) :
    StableHlo.after (RefOps.piece5 (F := Ideal)) WR (Proc.devRef .tc main_v152)
      = layer (M := 100000) (WR (Proc.devRef .tc main_v115)) (WR (Proc.devRef .tc main_v117))
          (pvec1 (WR (Proc.devRef .tc main_arg8))) (pvec1 (WR (Proc.devRef .tc main_arg9)))
          (pvec1 (WR (Proc.devRef .tc main_arg10))) :=
  (show StableHlo.after (RefOps.piece5 (F := Ideal)) WR (Proc.devRef .tc main_v152)
      = NodeBlock.block (WR (Proc.devRef .tc main_v115)) (WR (Proc.devRef .tc main_v117))
          (pvec1 (WR (Proc.devRef .tc main_arg8))) (pvec1 (WR (Proc.devRef .tc main_arg9)))
          (pvec1 (WR (Proc.devRef .tc main_arg10))) from by after_results_simp <;> rfl).trans
    (NodeBlock.block_eq_layer _ _ _ _ _)

/-- Layer 3: piece 9. -/
theorem layer2 (WR : Valuation τ sig (Elt Ideal)) :
    StableHlo.after (RefOps.piece9 (F := Ideal)) WR (Proc.devRef .tc main_v245)
      = layer (M := 100000) (WR (Proc.devRef .tc main_v208)) (WR (Proc.devRef .tc main_v210))
          (pvec2 (WR (Proc.devRef .tc main_arg8))) (pvec2 (WR (Proc.devRef .tc main_arg9)))
          (pvec2 (WR (Proc.devRef .tc main_arg10))) :=
  (show StableHlo.after (RefOps.piece9 (F := Ideal)) WR (Proc.devRef .tc main_v245)
      = NodeBlock.block (WR (Proc.devRef .tc main_v208)) (WR (Proc.devRef .tc main_v210))
          (pvec2 (WR (Proc.devRef .tc main_arg8))) (pvec2 (WR (Proc.devRef .tc main_arg9)))
          (pvec2 (WR (Proc.devRef .tc main_arg10))) from by after_results_simp <;> rfl).trans
    (NodeBlock.block_eq_layer _ _ _ _ _)

end Cert.ReferenceIdeal.BlocksNode

end
-- ==== Proof.Agree.lean ====
/-
  What the two programs' buffers share at the boundaries between layers.

  Both programs are run from memories that agree on the arguments.  At each boundary between two layers the buffers
  that later operations still read hold the same contents in both: the stacked parameters; the two index vectors; the
  node features after the layers so far; near the end also the last gather and the final node features.  The edge
  features of the first two layers are computed and never read again, so they are not tracked.
-/
import proofs.«133353_j47820165873981_1_alg».proof.KernelIdeal
import proofs.«133353_j47820165873981_1_alg».proof.ReferenceIdeal
import Idealize.ShloMosaic.Lib.StableHlo.Run
import Idealize.ShloMosaic.PureOps.Ideal

noncomputable section

namespace Cert.Join

open Idealize.ShloMosaic Idealize.ShloMosaic.TcCoe Idealize.SL.Sem Idealize.ShloMosaic.StableHlo

/-- Buffer contents of the kernel program, of the reference. -/
abbrev KVal := Valuation Cert.KernelIdeal.τ Cert.KernelIdeal.sig (Elt Ideal)
abbrev RVal := Valuation Cert.ReferenceIdeal.τ Cert.ReferenceIdeal.sig (Elt Ideal)

/-- The stacked weights and parameter rows of the node layers (arguments 7 to 10) and of the edge layers (11 to 14). -/
structure SameParams (WK : KVal) (WR : RVal) : Prop where
  a7 : WK (Proc.devRef .tc Cert.KernelIdeal.main_arg7) = WR (Proc.devRef .tc Cert.ReferenceIdeal.main_arg7)
  a8 : WK (Proc.devRef .tc Cert.KernelIdeal.main_arg8) = WR (Proc.devRef .tc Cert.ReferenceIdeal.main_arg8)
  a9 : WK (Proc.devRef .tc Cert.KernelIdeal.main_arg9) = WR (Proc.devRef .tc Cert.ReferenceIdeal.main_arg9)
  a10 : WK (Proc.devRef .tc Cert.KernelIdeal.main_arg10) = WR (Proc.devRef .tc Cert.ReferenceIdeal.main_arg10)
  a11 : WK (Proc.devRef .tc Cert.KernelIdeal.main_arg11) = WR (Proc.devRef .tc Cert.ReferenceIdeal.main_arg11)
  a12 : WK (Proc.devRef .tc Cert.KernelIdeal.main_arg12) = WR (Proc.devRef .tc Cert.ReferenceIdeal.main_arg12)
  a13 : WK (Proc.devRef .tc Cert.KernelIdeal.main_arg13) = WR (Proc.devRef .tc Cert.ReferenceIdeal.main_arg13)
  a14 : WK (Proc.devRef .tc Cert.KernelIdeal.main_arg14) = WR (Proc.devRef .tc Cert.ReferenceIdeal.main_arg14)

/-- At launch: the parameters, the node features, the edge index and the node projection. -/
structure Agree0 (WK : KVal) (WR : RVal) : Prop where
  p : SameParams WK WR
  a0 : WK (Proc.devRef .tc Cert.KernelIdeal.main_arg0) = WR (Proc.devRef .tc Cert.ReferenceIdeal.main_arg0)
  a1 : WK (Proc.devRef .tc Cert.KernelIdeal.main_arg1) = WR (Proc.devRef .tc Cert.ReferenceIdeal.main_arg1)
  a3 : WK (Proc.devRef .tc Cert.KernelIdeal.main_arg3) = WR (Proc.devRef .tc Cert.ReferenceIdeal.main_arg3)
  a4 : WK (Proc.devRef .tc Cert.KernelIdeal.main_arg4) = WR (Proc.devRef .tc Cert.ReferenceIdeal.main_arg4)

/-- After the first node layer (and still after the first edge layer). -/
structure Agree1 (WK : KVal) (WR : RVal) : Prop where
  p : SameParams WK WR
  row : WK (Proc.devRef .tc Cert.KernelIdeal.main_v1) = WR (Proc.devRef .tc Cert.ReferenceIdeal.main_v1)
  col : WK (Proc.devRef .tc Cert.KernelIdeal.main_v3) = WR (Proc.devRef .tc Cert.ReferenceIdeal.main_v3)
  h : WK (Proc.devRef .tc Cert.KernelIdeal.main_v34) = WR (Proc.devRef .tc Cert.ReferenceIdeal.main_v59)

/-- After the second node layer (and still after the second edge layer). -/
structure Agree3 (WK : KVal) (WR : RVal) : Prop where
  p : SameParams WK WR
  row : WK (Proc.devRef .tc Cert.KernelIdeal.main_v1) = WR (Proc.devRef .tc Cert.ReferenceIdeal.main_v1)
  col : WK (Proc.devRef .tc Cert.KernelIdeal.main_v3) = WR (Proc.devRef .tc Cert.ReferenceIdeal.main_v3)
  h : WK (Proc.devRef .tc Cert.KernelIdeal.main_v77) = WR (Proc.devRef .tc Cert.ReferenceIdeal.main_v152)

/-- After the third node layer: its input's gather and its output as well. -/
structure Agree5 (WK : KVal) (WR : RVal) : Prop where
  p : SameParams WK WR
  row : WK (Proc.devRef .tc Cert.KernelIdeal.main_v1) = WR (Proc.devRef .tc Cert.ReferenceIdeal.main_v1)
  h : WK (Proc.devRef .tc Cert.KernelIdeal.main_v77) = WR (Proc.devRef .tc Cert.ReferenceIdeal.main_v152)
  hcol : WK (Proc.devRef .tc Cert.KernelIdeal.main_v104) = WR (Proc.devRef .tc Cert.ReferenceIdeal.main_v204)
  nodes : WK (Proc.devRef .tc Cert.KernelIdeal.main_v120) = WR (Proc.devRef .tc Cert.ReferenceIdeal.main_v245)

/-- At the end: the two results. -/
structure Agree6 (WK : KVal) (WR : RVal) : Prop where
  nodes : WK (Proc.devRef .tc Cert.KernelIdeal.main_v120) = WR (Proc.devRef .tc Cert.ReferenceIdeal.main_v245)
  edges : WK (Proc.devRef .tc Cert.KernelIdeal.main_v140) = WR (Proc.devRef .tc Cert.ReferenceIdeal.main_v290)

end Cert.Join

end
-- ==== Proof.LayerGlue.lean ====
/-
  Where the two programs' spellings of a layer's output meet.

  The kernel program hands its launch the bias, gain and offset as 1 × 64 rows, each the recast of a vector of 64
  entries; the reference uses the vectors themselves.  With equal inputs and weights the two outputs are equal.
-/
import proofs.«133353_j47820165873981_1_alg».proof.Proof.RowSpec

noncomputable section

namespace Cert.RowSpec

open Idealize.ShloMosaic Idealize.ShloMosaic.ValueIdx

/-- The two programs' spellings of a layer's output meet: equal inputs and weights, and each parameter row of the one
    the recast of a vector equal to the other's. -/
theorem layer_glue {M : ℕ} (kin rin : (⟨2, ![M, 128]⟩ : Shape).Idx → EReal) (kw rw : (⟨2, ![128, 64]⟩ : Shape).Idx → EReal)
    (kb kg kbe : (⟨2, ![1, 64]⟩ : Shape).Idx → EReal) (b g be b' g' be' : (⟨1, ![64]⟩ : Shape).Idx → EReal)
    (hc : (⟨1, ![64]⟩ : Shape).ShapeCasts ⟨2, ![1, 64]⟩)
    (hin : kin = rin) (hw : kw = rw)
    (hb : kb = shapeCast ⟨2, ![1, 64]⟩ b hc) (hg : kg = shapeCast ⟨2, ![1, 64]⟩ g hc) (hbe : kbe = shapeCast ⟨2, ![1, 64]⟩ be hc)
    (hb' : b = b') (hg' : g = g') (hbe' : be = be') :
    layerRows kin kw kb kg kbe = layer rin rw b' g' be' := by
  subst hin hw hb hg hbe hb' hg' hbe'
  exact layerRows_shapeCast _ _ _ _ _ hc

end Cert.RowSpec

end
-- ==== Proof.Half0.lean ====
/-
  Half-layer 0: from the launch to the end of the first node layer.

  The stretch computes, in both programs alike, the two index vectors and the first node layer's input; the kernel
  launch and the reference's block then both apply the layer.  What later layers read — the parameters, the index
  vectors, the new node features — agrees afterwards.
-/
import proofs.«133353_j47820165873981_1_alg».proof.Proof.Gen.KernelIdeal.Frame
import proofs.«133353_j47820165873981_1_alg».proof.Proof.KReg0
import proofs.«133353_j47820165873981_1_alg».proof.Proof.CarryK
import proofs.«133353_j47820165873981_1_alg».proof.Proof.CarryR
import proofs.«133353_j47820165873981_1_alg».proof.Proof.Stretch0
import proofs.«133353_j47820165873981_1_alg».proof.Proof.BlocksNode
import proofs.«133353_j47820165873981_1_alg».proof.Proof.Agree
import proofs.«133353_j47820165873981_1_alg».proof.Proof.LayerGlue

set_option maxRecDepth 16384
set_option maxHeartbeats 1000000

noncomputable section

namespace Cert.Join

open Idealize.ShloMosaic Idealize.ShloMosaic.TcCoe Idealize.SL.Sem Idealize.ShloMosaic.StableHlo
open Cert.KernelIdeal Cert.KernelIdeal.Gen

/-- The kernel program's buffer contents after stretch 0 of host operations and launch 0, from contents `WK`: the
    launch's arrays at what its write-backs leave, every other buffer as the stretch left it. -/
def nextK0 (WK : Dev nD → KVal) (c : Dev nD) : KVal :=
  Pipeline.withArrays spec0 c (StableHlo.after (hostOps0 (F := Ideal)) (WK c))
    fun w => (dat0 (fun c b => StableHlo.after (hostOps0 (F := Ideal)) (WK c) (Proc.devRef .tc b)) c).arrAt w cfg0.N

/-- The reference's buffer contents after pieces 0 and 1 of its operations, from contents `WR`. -/
def nextR0 (WR : RVal) : RVal :=
  StableHlo.after (Cert.ReferenceIdeal.RefOps.piece1 (F := Ideal)) (StableHlo.after (Cert.ReferenceIdeal.RefOps.piece0 (F := Ideal)) WR)

/-- A buffer that is not one of the launch's arrays is as the stretch left it. -/
theorem kRegion0 (WK : Dev nD → KVal) (c : Dev nD) (b : Ref sig .tc) (hb : ∀ w, Pipeline.arrRef spec0 w ≠ b) :
    nextK0 WK c (Proc.devRef .tc b) = StableHlo.after (hostOps0 (F := Ideal)) (WK c) (Proc.devRef .tc b) :=
  Pipeline.withArrays_of_ne spec0 c _ _ b hb

/-- A buffer neither the stretch nor the launch writes is unchanged. -/
theorem kThrough0 (WK : Dev nD → KVal) (c : Dev nD) (b : Ref sig .tc) (h1 : b ∉ Carry.written0)
    (h2 : ∀ w, Pipeline.arrRef spec0 w ≠ b) : nextK0 WK c (Proc.devRef .tc b) = WK c (Proc.devRef .tc b) :=
  (kRegion0 WK c b h2).trans (Carry.keep0 _ b h1)

/-- A buffer the layer block does not write is as the stretch left it. -/
theorem rBlock0 (WR : RVal) (b : Ref Cert.ReferenceIdeal.sig .tc) (h : b ∉ Cert.ReferenceIdeal.Carry.written1) :
    nextR0 WR (Proc.devRef .tc b) = StableHlo.after (Cert.ReferenceIdeal.RefOps.piece0 (F := Ideal)) WR (Proc.devRef .tc b) :=
  Cert.ReferenceIdeal.Carry.keep1 _ b h

/-- A buffer neither piece writes is unchanged. -/
theorem rThrough0 (WR : RVal) (b : Ref Cert.ReferenceIdeal.sig .tc) (h0 : b ∉ Cert.ReferenceIdeal.Carry.written0)
    (h1 : b ∉ Cert.ReferenceIdeal.Carry.written1) : nextR0 WR (Proc.devRef .tc b) = WR (Proc.devRef .tc b) :=
  (rBlock0 WR b h1).trans (Cert.ReferenceIdeal.Carry.keep0 WR b h0)

/-- From agreement on the arguments to agreement after the first node layer. -/
theorem half0 (WK : Dev nD → KVal) (WR : RVal) (c : Dev nD) (h : Agree0 (WK c) WR) : Agree1 (nextK0 WK c) (nextR0 WR) :=
  { p := {
      a7 := (kThrough0 WK c main_arg7 (by decide) (by decide)).trans (h.p.a7.trans (rThrough0 WR Cert.ReferenceIdeal.main_arg7 (by decide) (by decide)).symm),
      a8 := (kThrough0 WK c main_arg8 (by decide) (by decide)).trans (h.p.a8.trans (rThrough0 WR Cert.ReferenceIdeal.main_arg8 (by decide) (by decide)).symm),
      a9 := (kThrough0 WK c main_arg9 (by decide) (by decide)).trans (h.p.a9.trans (rThrough0 WR Cert.ReferenceIdeal.main_arg9 (by decide) (by decide)).symm),
      a10 := (kThrough0 WK c main_arg10 (by decide) (by decide)).trans (h.p.a10.trans (rThrough0 WR Cert.ReferenceIdeal.main_arg10 (by decide) (by decide)).symm),
      a11 := (kThrough0 WK c main_arg11 (by decide) (by decide)).trans (h.p.a11.trans (rThrough0 WR Cert.ReferenceIdeal.main_arg11 (by decide) (by decide)).symm),
      a12 := (kThrough0 WK c main_arg12 (by decide) (by decide)).trans (h.p.a12.trans (rThrough0 WR Cert.ReferenceIdeal.main_arg12 (by decide) (by decide)).symm),
      a13 := (kThrough0 WK c main_arg13 (by decide) (by decide)).trans (h.p.a13.trans (rThrough0 WR Cert.ReferenceIdeal.main_arg13 (by decide) (by decide)).symm),
      a14 := (kThrough0 WK c main_arg14 (by decide) (by decide)).trans (h.p.a14.trans (rThrough0 WR Cert.ReferenceIdeal.main_arg14 (by decide) (by decide)).symm) },
    row := (kRegion0 WK c main_v1 (by decide)).trans ((Stretch0.row (WK c) WR h.a1).trans (rBlock0 WR Cert.ReferenceIdeal.main_v1 (by decide)).symm),
    col := (kRegion0 WK c main_v3 (by decide)).trans ((Stretch0.col (WK c) WR h.a1).trans (rBlock0 WR Cert.ReferenceIdeal.main_v3 (by decide)).symm),
    h := by
      have hK : nextK0 WK c (Proc.devRef .tc main_v34)
          = Reg0.G (StableHlo.after (hostOps0 (F := Ideal)) (WK c) (Proc.devRef .tc main_v22))
              (StableHlo.after (hostOps0 (F := Ideal)) (WK c) (Proc.devRef .tc main_v24))
              (StableHlo.after (hostOps0 (F := Ideal)) (WK c) (Proc.devRef .tc main_v31))
              (StableHlo.after (hostOps0 (F := Ideal)) (WK c) (Proc.devRef .tc main_v32))
              (StableHlo.after (hostOps0 (F := Ideal)) (WK c) (Proc.devRef .tc main_v33)) :=
        (Pipeline.withArrays_arr spec0 launch0.win.arr_inj c _ _ 5).trans (Reg0.final _ c)
      have hR := Cert.ReferenceIdeal.BlocksNode.layer0 (StableHlo.after (Cert.ReferenceIdeal.RefOps.piece0 (F := Ideal)) WR)
      refine hK.trans (Eq.trans ?_ hR.symm)
      exact RowSpec.layer_glue _ _ _ _ _ _ _ _ _ _ _ _ _ shapeCasts_S64_S1x64
        (Stretch0.inp (WK c) WR h.a0 h.a3 h.a4 h.a1)
        ((Stretch0.weightsK (WK c)).trans ((congrArg Cert.ReferenceIdeal.Params.wmat0 h.p.a7).trans (Stretch0.weightsR WR).symm))
        (Stretch0.param0K (WK c)) (Stretch0.param1K (WK c)) (Stretch0.param2K (WK c))
        (congrArg Cert.ReferenceIdeal.Params.pvec0 (h.p.a8.trans (Cert.ReferenceIdeal.Carry.keep0 WR Cert.ReferenceIdeal.main_arg8 (by decide)).symm))
        (congrArg Cert.ReferenceIdeal.Params.pvec0 (h.p.a9.trans (Cert.ReferenceIdeal.Carry.keep0 WR Cert.ReferenceIdeal.main_arg9 (by decide)).symm))
        (congrArg Cert.ReferenceIdeal.Params.pvec0 (h.p.a10.trans (Cert.ReferenceIdeal.Carry.keep0 WR Cert.ReferenceIdeal.main_arg10 (by decide)).symm)) }

end Cert.Join

end
-- ==== Proof.Half1.lean ====
/-
  Half-layer 1: the first edge layer.

  Its output, the edge features after one layer, is never read again: the next edge layer starts from the node
  features.  So all that matters here is that the stretch and the launch (in the reference: the two pieces) leave alone
  what later layers read.
-/
import proofs.«133353_j47820165873981_1_alg».proof.Proof.Gen.KernelIdeal.Frame
import proofs.«133353_j47820165873981_1_alg».proof.Proof.CarryK
import proofs.«133353_j47820165873981_1_alg».proof.Proof.CarryR
import proofs.«133353_j47820165873981_1_alg».proof.Proof.Agree

set_option maxRecDepth 16384
set_option maxHeartbeats 1000000

noncomputable section

namespace Cert.Join

open Idealize.ShloMosaic Idealize.ShloMosaic.TcCoe Idealize.SL.Sem Idealize.ShloMosaic.StableHlo
open Cert.KernelIdeal Cert.KernelIdeal.Gen

/-- The kernel program's buffer contents after stretch 1 of host operations and launch 1, from contents `WK`: the
    launch's arrays at what its write-backs leave, every other buffer as the stretch left it. -/
def nextK1 (WK : Dev nD → KVal) (c : Dev nD) : KVal :=
  Pipeline.withArrays spec1 c (StableHlo.after (hostOps1 (F := Ideal)) (WK c))
    fun w => (dat1 (fun c b => StableHlo.after (hostOps1 (F := Ideal)) (WK c) (Proc.devRef .tc b)) c).arrAt w cfg1.N

/-- The reference's buffer contents after pieces 2 and 3 of its operations, from contents `WR`. -/
def nextR1 (WR : RVal) : RVal :=
  StableHlo.after (Cert.ReferenceIdeal.RefOps.piece3 (F := Ideal)) (StableHlo.after (Cert.ReferenceIdeal.RefOps.piece2 (F := Ideal)) WR)

/-- A buffer that is not one of the launch's arrays is as the stretch left it. -/
theorem kRegion1 (WK : Dev nD → KVal) (c : Dev nD) (b : Ref sig .tc) (hb : ∀ w, Pipeline.arrRef spec1 w ≠ b) :
    nextK1 WK c (Proc.devRef .tc b) = StableHlo.after (hostOps1 (F := Ideal)) (WK c) (Proc.devRef .tc b) :=
  Pipeline.withArrays_of_ne spec1 c _ _ b hb

/-- A buffer neither the stretch nor the launch writes is unchanged. -/
theorem kThrough1 (WK : Dev nD → KVal) (c : Dev nD) (b : Ref sig .tc) (h1 : b ∉ Carry.written1)
    (h2 : ∀ w, Pipeline.arrRef spec1 w ≠ b) : nextK1 WK c (Proc.devRef .tc b) = WK c (Proc.devRef .tc b) :=
  (kRegion1 WK c b h2).trans (Carry.keep1 _ b h1)

/-- A buffer the layer block does not write is as the stretch left it. -/
theorem rBlock1 (WR : RVal) (b : Ref Cert.ReferenceIdeal.sig .tc) (h : b ∉ Cert.ReferenceIdeal.Carry.written3) :
    nextR1 WR (Proc.devRef .tc b) = StableHlo.after (Cert.ReferenceIdeal.RefOps.piece2 (F := Ideal)) WR (Proc.devRef .tc b) :=
  Cert.ReferenceIdeal.Carry.keep3 _ b h

/-- A buffer neither piece writes is unchanged. -/
theorem rThrough1 (WR : RVal) (b : Ref Cert.ReferenceIdeal.sig .tc) (h0 : b ∉ Cert.ReferenceIdeal.Carry.written2)
    (h1 : b ∉ Cert.ReferenceIdeal.Carry.written3) : nextR1 WR (Proc.devRef .tc b) = WR (Proc.devRef .tc b) :=
  (rBlock1 WR b h1).trans (Cert.ReferenceIdeal.Carry.keep2 WR b h0)

/-- Nothing a later layer reads is touched. -/
theorem half1 (WK : Dev nD → KVal) (WR : RVal) (c : Dev nD) (h : Agree1 (WK c) WR) : Agree1 (nextK1 WK c) (nextR1 WR) :=
  { p := {
      a7 := (kThrough1 WK c main_arg7 (by decide) (by decide)).trans (h.p.a7.trans (rThrough1 WR Cert.ReferenceIdeal.main_arg7 (by decide) (by decide)).symm),
      a8 := (kThrough1 WK c main_arg8 (by decide) (by decide)).trans (h.p.a8.trans (rThrough1 WR Cert.ReferenceIdeal.main_arg8 (by decide) (by decide)).symm),
      a9 := (kThrough1 WK c main_arg9 (by decide) (by decide)).trans (h.p.a9.trans (rThrough1 WR Cert.ReferenceIdeal.main_arg9 (by decide) (by decide)).symm),
      a10 := (kThrough1 WK c main_arg10 (by decide) (by decide)).trans (h.p.a10.trans (rThrough1 WR Cert.ReferenceIdeal.main_arg10 (by decide) (by decide)).symm),
      a11 := (kThrough1 WK c main_arg11 (by decide) (by decide)).trans (h.p.a11.trans (rThrough1 WR Cert.ReferenceIdeal.main_arg11 (by decide) (by decide)).symm),
      a12 := (kThrough1 WK c main_arg12 (by decide) (by decide)).trans (h.p.a12.trans (rThrough1 WR Cert.ReferenceIdeal.main_arg12 (by decide) (by decide)).symm),
      a13 := (kThrough1 WK c main_arg13 (by decide) (by decide)).trans (h.p.a13.trans (rThrough1 WR Cert.ReferenceIdeal.main_arg13 (by decide) (by decide)).symm),
      a14 := (kThrough1 WK c main_arg14 (by decide) (by decide)).trans (h.p.a14.trans (rThrough1 WR Cert.ReferenceIdeal.main_arg14 (by decide) (by decide)).symm) },
    row := (kThrough1 WK c main_v1 (by decide) (by decide)).trans (h.row.trans (rThrough1 WR Cert.ReferenceIdeal.main_v1 (by decide) (by decide)).symm),
    col := (kThrough1 WK c main_v3 (by decide) (by decide)).trans (h.col.trans (rThrough1 WR Cert.ReferenceIdeal.main_v3 (by decide) (by decide)).symm),
    h := (kThrough1 WK c main_v34 (by decide) (by decide)).trans (h.h.trans (rThrough1 WR Cert.ReferenceIdeal.main_v59 (by decide) (by decide)).symm) }

end Cert.Join

end
-- ==== Proof.KReg2.lean ====
/-
  Launch 2 of the layer kernel as one whole-array function.

  The launch runs the body at 10 grid points; point `t` reads rows `10000 t … 10000 t + 9999` of its 100000 × 128 input,
  all of the weights and of the three parameter rows, and writes back rows `10000 t … 10000 t + 9999` of the 100000 × 64
  result.  Each written block is the matching block of `RowSpec.layerRows` of the arrays the launch finds, and the blocks
  cover the result, so after the launch the result array is that function.  (the second node layer)
-/
import proofs.«133353_j47820165873981_1_alg».proof.Proof.Gen.KernelIdeal.Frame
import proofs.«133353_j47820165873981_1_alg».proof.Proof.KBody
import Idealize.ShloMosaic.Lib.Pipeline.Value

set_option maxRecDepth 16384

noncomputable section

namespace Cert.KernelIdeal.Reg2

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.RowSpec

variable (V : (c : Dev nD) → (b : Ref sig .tc) → Buf (Elt Ideal) ((c : Thread nD τ).loc b))

theorem hz : (![0, 0] : Fin 2 → Nat) = fun _ => 0 := funext fun a => by fin_cases a <;> rfl

/-- The layer on the arrays the launch reads, at the program's own array types. -/
abbrev G (a0 : S100000x128.Idx → Elt Ideal .f32) (a1 : S128x64.Idx → Elt Ideal .f32) (a2 a3 a4 : S1x64.Idx → Elt Ideal .f32) :
    S100000x64.Idx → Elt Ideal .f32 :=
  layerRows (M := 100000) a0 a1 a2 a3 a4

/-- The printed index maps, decided over the grid: the input and the result move together down the rows, one block per
    point; the weights and the parameter rows stay at their one block. -/
theorem idx_facts : ∀ t : Fin cfg2.N,
    win2_0.index t (0 : Fin 2) = win2_5.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A window whose one block is its whole array hands the body the array itself. -/
theorem whole1 (c : Dev nD) (t : Fin cfg2.N) : iblk2 V c 1 t = V c main_v67 := by
  obtain ⟨-, -, e0, e1, -⟩ := idx_facts t
  funext y
  show V c main_v67 (((cfg2.win 1).blk t).view.emb y) = V c main_v67 y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 64 + 1 * (y 1).val = (y 1).val; omega
theorem whole2 (c : Dev nD) (t : Fin cfg2.N) : iblk2 V c 2 t = V c main_v74 := by
  obtain ⟨-, -, -, -, e0, e1, -⟩ := idx_facts t
  funext y
  show V c main_v74 (((cfg2.win 2).blk t).view.emb y) = V c main_v74 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 64 + 1 * (y 1).val = (y 1).val; omega
theorem whole3 (c : Dev nD) (t : Fin cfg2.N) : iblk2 V c 3 t = V c main_v75 := by
  obtain ⟨-, -, -, -, -, -, e0, e1, -⟩ := idx_facts t
  funext y
  show V c main_v75 (((cfg2.win 3).blk t).view.emb y) = V c main_v75 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega
theorem whole4 (c : Dev nD) (t : Fin cfg2.N) : iblk2 V c 4 t = V c main_v76 := by
  obtain ⟨-, -, -, -, -, -, -, -, e0, e1, -⟩ := idx_facts t
  funext y
  show V c main_v76 (((cfg2.win 4).blk t).view.emb y) = V c main_v76 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- What point `t` writes back is block `t` of the layer on the arrays as the launch finds them. -/
theorem flushed_eq (c : Dev nD) (t : Fin cfg2.N) :
    (dat2 V c).flushed 5 t = ((cfg2.win 5).blk t).view.read (Elt Ideal)
      (G (V c main_v65) (V c main_v67) (V c main_v74) (V c main_v75) (V c main_v76)) := by
  show (cfg2.win 5).cut (grid2.coords t) ((dat2 V c).after 5 t) = _
  rw [after2_5]
  unfold out2_5
  rw [View.canon_unit_zero hz]
  simp only [View.ld_unit_zero (S := S10000x128) hz, View.ld_unit_zero (S := S128x64) hz, View.ld_unit_zero (S := S1x64) hz]
  rw [whole1, whole2, whole3, whole4, pay2_eq]
  obtain ⟨e0, e1, -, -, -, -, -, -, -, -, e5, e6⟩ := idx_facts t
  funext j
  refine point_eq (M := 100000) (iblk2 V c 0 t) (V c main_v67) (V c main_v74) (V c main_v75) (V c main_v76) (V c main_v65)
    (fun y => ((cfg2.win 5).blk t).view.emb y) (fun y k => ?_) (fun y => ?_) j
  · show V c main_v65 (((cfg2.win 0).blk t).view.emb (ix2 (y 0) k)) = V c main_v65 (ix2 (((cfg2.win 5).blk t).view.emb y 0) k)
    refine congrArg _ (funext fun a => Fin.ext ?_)
    match a with
    | ⟨0, _⟩ => show win2_0.index t (0 : Fin 2) * 10000 + 1 * (y 0).val = win2_5.index t (0 : Fin 2) * 10000 + 1 * (y 0).val; omega
    | ⟨1, _⟩ => show win2_0.index t (1 : Fin 2) * 128 + 1 * k.val = k.val; omega
  · show win2_5.index t (1 : Fin 2) * 64 + 1 * (y 1).val = (y 1).val
    omega

/-- An index of the result is in point `t`'s block iff each coordinate is in the block's range on its axis. -/
theorem mem_blk (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v77).slice (win2_5.rect t)).set ↔ _
  rw [View.set_slice_whole, Rect.mem_set_unit]
  exact Iff.rfl

/-- Every row of the result is in the block of the point `row / 10000`. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : (i 0).val / 10000 < cfg2.N := by show (i 0).val / 10000 < 10; omega
  refine ⟨⟨(i 0).val / 10000, hN⟩, flush2_5 _, ?_⟩
  rw [mem_blk]
  obtain ⟨-, -, -, -, -, -, -, -, -, -, e5, e6⟩ := idx_facts ⟨(i 0).val / 10000, hN⟩
  intro a
  match a with
  | ⟨0, _⟩ => show win2_5.index _ (0 : Fin 2) * 10000 ≤ (i 0).val ∧ (i 0).val < win2_5.index _ (0 : Fin 2) * 10000 + 10000; rw [e5]; show (i 0).val / 10000 * 10000 ≤ _ ∧ _ < (i 0).val / 10000 * 10000 + 10000; omega
  | ⟨1, _⟩ => show win2_5.index _ (1 : Fin 2) * 64 ≤ (i 1).val ∧ (i 1).val < win2_5.index _ (1 : Fin 2) * 64 + 64; omega

/-- THE RESULT ARRAY after the launch: the layer on the arrays the launch finds. -/
theorem final (c : Dev nD) :
    (dat2 V c).arrAt 5 cfg2.N = G (V c main_v65) (V c main_v67) (V c main_v74) (V c main_v75) (V c main_v76) :=
  (dat2 V c).arrAt_eq_of_cover 5 _ (fun t _ => flushed_eq V c t) cover

end Cert.KernelIdeal.Reg2

end
-- ==== Proof.Stretch2.lean ====
/-
  Stretch 2 of host operations, in the kernel program and in the reference.

  Between two layers both programs run the same host operations on the same values: the second gather and the second node layer's input.
  Read as functions of the buffers they start from, the two stretches give equal results whenever those buffers hold
  equal contents: both sides are the same composition of slices, comparisons, gathers, a scatter-add and a
  concatenation, and nothing is opened.  The layer's weight matrix and its three parameter rows are slab and row 1 of
  the stacked parameter arrays (`Params`); the kernel program lays each parameter row out once more as a 1 × 64 row.
-/
import proofs.«133353_j47820165873981_1_alg».proof.Proof.Gen.KernelIdeal.Launch
import proofs.«133353_j47820165873981_1_alg».proof.Proof.RefOps
import proofs.«133353_j47820165873981_1_alg».proof.Proof.RParams
import Idealize.ShloMosaic.PureOps.Ideal

set_option maxRecDepth 16384
set_option maxHeartbeats 2000000

noncomputable section

namespace Cert.Stretch2

open Idealize.ShloMosaic Idealize.ShloMosaic.TcCoe Idealize.SL.Sem Idealize.ShloMosaic.StableHlo

theorem inp (WK : Valuation Cert.KernelIdeal.τ Cert.KernelIdeal.sig (Elt Ideal)) (WR : Valuation Cert.ReferenceIdeal.τ Cert.ReferenceIdeal.sig (Elt Ideal))
    (h_v1 : WK (Proc.devRef .tc Cert.KernelIdeal.main_v1) = WR (Proc.devRef .tc Cert.ReferenceIdeal.main_v1))
    (h_v3 : WK (Proc.devRef .tc Cert.KernelIdeal.main_v3) = WR (Proc.devRef .tc Cert.ReferenceIdeal.main_v3))
    (h_v34 : WK (Proc.devRef .tc Cert.KernelIdeal.main_v34) = WR (Proc.devRef .tc Cert.ReferenceIdeal.main_v59)) :
    StableHlo.after (Cert.KernelIdeal.Gen.hostOps2 (F := Ideal)) WK (Proc.devRef .tc Cert.KernelIdeal.main_v65)
      = StableHlo.after (Cert.ReferenceIdeal.RefOps.piece4 (F := Ideal)) WR (Proc.devRef .tc Cert.ReferenceIdeal.main_v115) := by
  after_results
  rw [h_v1, h_v3, h_v34]
  rfl

theorem weightsK (WK : Valuation Cert.KernelIdeal.τ Cert.KernelIdeal.sig (Elt Ideal)) :
    StableHlo.after (Cert.KernelIdeal.Gen.hostOps2 (F := Ideal)) WK (Proc.devRef .tc Cert.KernelIdeal.main_v67) = Cert.ReferenceIdeal.Params.wmat1 (WK (Proc.devRef .tc Cert.KernelIdeal.main_arg7)) := by
  after_results <;> rfl

theorem weightsR (WR : Valuation Cert.ReferenceIdeal.τ Cert.ReferenceIdeal.sig (Elt Ideal)) :
    StableHlo.after (Cert.ReferenceIdeal.RefOps.piece4 (F := Ideal)) WR (Proc.devRef .tc Cert.ReferenceIdeal.main_v117) = Cert.ReferenceIdeal.Params.wmat1 (WR (Proc.devRef .tc Cert.ReferenceIdeal.main_arg7)) := by
  after_results <;> rfl

theorem param0K (WK : Valuation Cert.KernelIdeal.τ Cert.KernelIdeal.sig (Elt Ideal)) :
    StableHlo.after (Cert.KernelIdeal.Gen.hostOps2 (F := Ideal)) WK (Proc.devRef .tc Cert.KernelIdeal.main_v74)
      = shapeCast Cert.KernelIdeal.S1x64 (Cert.ReferenceIdeal.Params.pvec1 (WK (Proc.devRef .tc Cert.KernelIdeal.main_arg8))) Cert.KernelIdeal.Gen.shapeCasts_S64_S1x64 := by
  after_results <;> rfl

theorem param1K (WK : Valuation Cert.KernelIdeal.τ Cert.KernelIdeal.sig (Elt Ideal)) :
    StableHlo.after (Cert.KernelIdeal.Gen.hostOps2 (F := Ideal)) WK (Proc.devRef .tc Cert.KernelIdeal.main_v75)
      = shapeCast Cert.KernelIdeal.S1x64 (Cert.ReferenceIdeal.Params.pvec1 (WK (Proc.devRef .tc Cert.KernelIdeal.main_arg9))) Cert.KernelIdeal.Gen.shapeCasts_S64_S1x64 := by
  after_results <;> rfl

theorem param2K (WK : Valuation Cert.KernelIdeal.τ Cert.KernelIdeal.sig (Elt Ideal)) :
    StableHlo.after (Cert.KernelIdeal.Gen.hostOps2 (F := Ideal)) WK (Proc.devRef .tc Cert.KernelIdeal.main_v76)
      = shapeCast Cert.KernelIdeal.S1x64 (Cert.ReferenceIdeal.Params.pvec1 (WK (Proc.devRef .tc Cert.KernelIdeal.main_arg10))) Cert.KernelIdeal.Gen.shapeCasts_S64_S1x64 := by
  after_results <;> rfl

end Cert.Stretch2

end
-- ==== Proof.Half2.lean ====
/-
  Half-layer 2: the second node layer.

  From the first layer's node features and the index vectors the stretch builds, in both programs alike, the layer's
  input (the features beside their sums over incoming edges); the kernel launch and the reference's block apply the layer.
-/
import proofs.«133353_j47820165873981_1_alg».proof.Proof.Gen.KernelIdeal.Frame
import proofs.«133353_j47820165873981_1_alg».proof.Proof.KReg2
import proofs.«133353_j47820165873981_1_alg».proof.Proof.CarryK
import proofs.«133353_j47820165873981_1_alg».proof.Proof.CarryR
import proofs.«133353_j47820165873981_1_alg».proof.Proof.Stretch2
import proofs.«133353_j47820165873981_1_alg».proof.Proof.BlocksNode
import proofs.«133353_j47820165873981_1_alg».proof.Proof.Agree
import proofs.«133353_j47820165873981_1_alg».proof.Proof.LayerGlue

set_option maxRecDepth 16384
set_option maxHeartbeats 1000000

noncomputable section

namespace Cert.Join

open Idealize.ShloMosaic Idealize.ShloMosaic.TcCoe Idealize.SL.Sem Idealize.ShloMosaic.StableHlo
open Cert.KernelIdeal Cert.KernelIdeal.Gen

/-- The kernel program's buffer contents after stretch 2 of host operations and launch 2, from contents `WK`: the
    launch's arrays at what its write-backs leave, every other buffer as the stretch left it. -/
def nextK2 (WK : Dev nD → KVal) (c : Dev nD) : KVal :=
  Pipeline.withArrays spec2 c (StableHlo.after (hostOps2 (F := Ideal)) (WK c))
    fun w => (dat2 (fun c b => StableHlo.after (hostOps2 (F := Ideal)) (WK c) (Proc.devRef .tc b)) c).arrAt w cfg2.N

/-- The reference's buffer contents after pieces 4 and 5 of its operations, from contents `WR`. -/
def nextR2 (WR : RVal) : RVal :=
  StableHlo.after (Cert.ReferenceIdeal.RefOps.piece5 (F := Ideal)) (StableHlo.after (Cert.ReferenceIdeal.RefOps.piece4 (F := Ideal)) WR)

/-- A buffer that is not one of the launch's arrays is as the stretch left it. -/
theorem kRegion2 (WK : Dev nD → KVal) (c : Dev nD) (b : Ref sig .tc) (hb : ∀ w, Pipeline.arrRef spec2 w ≠ b) :
    nextK2 WK c (Proc.devRef .tc b) = StableHlo.after (hostOps2 (F := Ideal)) (WK c) (Proc.devRef .tc b) :=
  Pipeline.withArrays_of_ne spec2 c _ _ b hb

/-- A buffer neither the stretch nor the launch writes is unchanged. -/
theorem kThrough2 (WK : Dev nD → KVal) (c : Dev nD) (b : Ref sig .tc) (h1 : b ∉ Carry.written2)
    (h2 : ∀ w, Pipeline.arrRef spec2 w ≠ b) : nextK2 WK c (Proc.devRef .tc b) = WK c (Proc.devRef .tc b) :=
  (kRegion2 WK c b h2).trans (Carry.keep2 _ b h1)

/-- A buffer the layer block does not write is as the stretch left it. -/
theorem rBlock2 (WR : RVal) (b : Ref Cert.ReferenceIdeal.sig .tc) (h : b ∉ Cert.ReferenceIdeal.Carry.written5) :
    nextR2 WR (Proc.devRef .tc b) = StableHlo.after (Cert.ReferenceIdeal.RefOps.piece4 (F := Ideal)) WR (Proc.devRef .tc b) :=
  Cert.ReferenceIdeal.Carry.keep5 _ b h

/-- A buffer neither piece writes is unchanged. -/
theorem rThrough2 (WR : RVal) (b : Ref Cert.ReferenceIdeal.sig .tc) (h0 : b ∉ Cert.ReferenceIdeal.Carry.written4)
    (h1 : b ∉ Cert.ReferenceIdeal.Carry.written5) : nextR2 WR (Proc.devRef .tc b) = WR (Proc.devRef .tc b) :=
  (rBlock2 WR b h1).trans (Cert.ReferenceIdeal.Carry.keep4 WR b h0)

/-- From agreement after the first node layer to agreement after the second. -/
theorem half2 (WK : Dev nD → KVal) (WR : RVal) (c : Dev nD) (h : Agree1 (WK c) WR) : Agree3 (nextK2 WK c) (nextR2 WR) :=
  { p := {
      a7 := (kThrough2 WK c main_arg7 (by decide) (by decide)).trans (h.p.a7.trans (rThrough2 WR Cert.ReferenceIdeal.main_arg7 (by decide) (by decide)).symm),
      a8 := (kThrough2 WK c main_arg8 (by decide) (by decide)).trans (h.p.a8.trans (rThrough2 WR Cert.ReferenceIdeal.main_arg8 (by decide) (by decide)).symm),
      a9 := (kThrough2 WK c main_arg9 (by decide) (by decide)).trans (h.p.a9.trans (rThrough2 WR Cert.ReferenceIdeal.main_arg9 (by decide) (by decide)).symm),
      a10 := (kThrough2 WK c main_arg10 (by decide) (by decide)).trans (h.p.a10.trans (rThrough2 WR Cert.ReferenceIdeal.main_arg10 (by decide) (by decide)).symm),
      a11 := (kThrough2 WK c main_arg11 (by decide) (by decide)).trans (h.p.a11.trans (rThrough2 WR Cert.ReferenceIdeal.main_arg11 (by decide) (by decide)).symm),
      a12 := (kThrough2 WK c main_arg12 (by decide) (by decide)).trans (h.p.a12.trans (rThrough2 WR Cert.ReferenceIdeal.main_arg12 (by decide) (by decide)).symm),
      a13 := (kThrough2 WK c main_arg13 (by decide) (by decide)).trans (h.p.a13.trans (rThrough2 WR Cert.ReferenceIdeal.main_arg13 (by decide) (by decide)).symm),
      a14 := (kThrough2 WK c main_arg14 (by decide) (by decide)).trans (h.p.a14.trans (rThrough2 WR Cert.ReferenceIdeal.main_arg14 (by decide) (by decide)).symm) },
    row := (kThrough2 WK c main_v1 (by decide) (by decide)).trans (h.row.trans (rThrough2 WR Cert.ReferenceIdeal.main_v1 (by decide) (by decide)).symm),
    col := (kThrough2 WK c main_v3 (by decide) (by decide)).trans (h.col.trans (rThrough2 WR Cert.ReferenceIdeal.main_v3 (by decide) (by decide)).symm),
    h := by
      have hK : nextK2 WK c (Proc.devRef .tc main_v77)
          = Reg2.G (StableHlo.after (hostOps2 (F := Ideal)) (WK c) (Proc.devRef .tc main_v65))
              (StableHlo.after (hostOps2 (F := Ideal)) (WK c) (Proc.devRef .tc main_v67))
              (StableHlo.after (hostOps2 (F := Ideal)) (WK c) (Proc.devRef .tc main_v74))
              (StableHlo.after (hostOps2 (F := Ideal)) (WK c) (Proc.devRef .tc main_v75))
              (StableHlo.after (hostOps2 (F := Ideal)) (WK c) (Proc.devRef .tc main_v76)) :=
        (Pipeline.withArrays_arr spec2 launch2.win.arr_inj c _ _ 5).trans (Reg2.final _ c)
      have hR := Cert.ReferenceIdeal.BlocksNode.layer1 (StableHlo.after (Cert.ReferenceIdeal.RefOps.piece4 (F := Ideal)) WR)
      refine hK.trans (Eq.trans ?_ hR.symm)
      exact RowSpec.layer_glue _ _ _ _ _ _ _ _ _ _ _ _ _ shapeCasts_S64_S1x64
        (Stretch2.inp (WK c) WR h.row h.col h.h)
        ((Stretch2.weightsK (WK c)).trans ((congrArg Cert.ReferenceIdeal.Params.wmat1 h.p.a7).trans (Stretch2.weightsR WR).symm))
        (Stretch2.param0K (WK c)) (Stretch2.param1K (WK c)) (Stretch2.param2K (WK c))
        (congrArg Cert.ReferenceIdeal.Params.pvec1 (h.p.a8.trans (Cert.ReferenceIdeal.Carry.keep4 WR Cert.ReferenceIdeal.main_arg8 (by decide)).symm))
        (congrArg Cert.ReferenceIdeal.Params.pvec1 (h.p.a9.trans (Cert.ReferenceIdeal.Carry.keep4 WR Cert.ReferenceIdeal.main_arg9 (by decide)).symm))
        (congrArg Cert.ReferenceIdeal.Params.pvec1 (h.p.a10.trans (Cert.ReferenceIdeal.Carry.keep4 WR Cert.ReferenceIdeal.main_arg10 (by decide)).symm)) }

end Cert.Join

end
-- ==== Proof.Half3.lean ====
/-
  Half-layer 3: the second edge layer.

  Its output, the edge features after two layers, is never read again.  So all that matters here is that the stretch
  and the launch (in the reference: the two pieces) leave alone what later layers read.
-/
import proofs.«133353_j47820165873981_1_alg».proof.Proof.Gen.KernelIdeal.Frame
import proofs.«133353_j47820165873981_1_alg».proof.Proof.CarryK
import proofs.«133353_j47820165873981_1_alg».proof.Proof.CarryR
import proofs.«133353_j47820165873981_1_alg».proof.Proof.Agree

set_option maxRecDepth 16384
set_option maxHeartbeats 1000000

noncomputable section

namespace Cert.Join

open Idealize.ShloMosaic Idealize.ShloMosaic.TcCoe Idealize.SL.Sem Idealize.ShloMosaic.StableHlo
open Cert.KernelIdeal Cert.KernelIdeal.Gen

/-- The kernel program's buffer contents after stretch 3 of host operations and launch 3, from contents `WK`: the
    launch's arrays at what its write-backs leave, every other buffer as the stretch left it. -/
def nextK3 (WK : Dev nD → KVal) (c : Dev nD) : KVal :=
  Pipeline.withArrays spec3 c (StableHlo.after (hostOps3 (F := Ideal)) (WK c))
    fun w => (dat3 (fun c b => StableHlo.after (hostOps3 (F := Ideal)) (WK c) (Proc.devRef .tc b)) c).arrAt w cfg3.N

/-- The reference's buffer contents after pieces 6 and 7 of its operations, from contents `WR`. -/
def nextR3 (WR : RVal) : RVal :=
  StableHlo.after (Cert.ReferenceIdeal.RefOps.piece7 (F := Ideal)) (StableHlo.after (Cert.ReferenceIdeal.RefOps.piece6 (F := Ideal)) WR)

/-- A buffer that is not one of the launch's arrays is as the stretch left it. -/
theorem kRegion3 (WK : Dev nD → KVal) (c : Dev nD) (b : Ref sig .tc) (hb : ∀ w, Pipeline.arrRef spec3 w ≠ b) :
    nextK3 WK c (Proc.devRef .tc b) = StableHlo.after (hostOps3 (F := Ideal)) (WK c) (Proc.devRef .tc b) :=
  Pipeline.withArrays_of_ne spec3 c _ _ b hb

/-- A buffer neither the stretch nor the launch writes is unchanged. -/
theorem kThrough3 (WK : Dev nD → KVal) (c : Dev nD) (b : Ref sig .tc) (h1 : b ∉ Carry.written3)
    (h2 : ∀ w, Pipeline.arrRef spec3 w ≠ b) : nextK3 WK c (Proc.devRef .tc b) = WK c (Proc.devRef .tc b) :=
  (kRegion3 WK c b h2).trans (Carry.keep3 _ b h1)

/-- A buffer the layer block does not write is as the stretch left it. -/
theorem rBlock3 (WR : RVal) (b : Ref Cert.ReferenceIdeal.sig .tc) (h : b ∉ Cert.ReferenceIdeal.Carry.written7) :
    nextR3 WR (Proc.devRef .tc b) = StableHlo.after (Cert.ReferenceIdeal.RefOps.piece6 (F := Ideal)) WR (Proc.devRef .tc b) :=
  Cert.ReferenceIdeal.Carry.keep7 _ b h

/-- A buffer neither piece writes is unchanged. -/
theorem rThrough3 (WR : RVal) (b : Ref Cert.ReferenceIdeal.sig .tc) (h0 : b ∉ Cert.ReferenceIdeal.Carry.written6)
    (h1 : b ∉ Cert.ReferenceIdeal.Carry.written7) : nextR3 WR (Proc.devRef .tc b) = WR (Proc.devRef .tc b) :=
  (rBlock3 WR b h1).trans (Cert.ReferenceIdeal.Carry.keep6 WR b h0)

/-- Nothing a later layer reads is touched. -/
theorem half3 (WK : Dev nD → KVal) (WR : RVal) (c : Dev nD) (h : Agree3 (WK c) WR) : Agree3 (nextK3 WK c) (nextR3 WR) :=
  { p := {
      a7 := (kThrough3 WK c main_arg7 (by decide) (by decide)).trans (h.p.a7.trans (rThrough3 WR Cert.ReferenceIdeal.main_arg7 (by decide) (by decide)).symm),
      a8 := (kThrough3 WK c main_arg8 (by decide) (by decide)).trans (h.p.a8.trans (rThrough3 WR Cert.ReferenceIdeal.main_arg8 (by decide) (by decide)).symm),
      a9 := (kThrough3 WK c main_arg9 (by decide) (by decide)).trans (h.p.a9.trans (rThrough3 WR Cert.ReferenceIdeal.main_arg9 (by decide) (by decide)).symm),
      a10 := (kThrough3 WK c main_arg10 (by decide) (by decide)).trans (h.p.a10.trans (rThrough3 WR Cert.ReferenceIdeal.main_arg10 (by decide) (by decide)).symm),
      a11 := (kThrough3 WK c main_arg11 (by decide) (by decide)).trans (h.p.a11.trans (rThrough3 WR Cert.ReferenceIdeal.main_arg11 (by decide) (by decide)).symm),
      a12 := (kThrough3 WK c main_arg12 (by decide) (by decide)).trans (h.p.a12.trans (rThrough3 WR Cert.ReferenceIdeal.main_arg12 (by decide) (by decide)).symm),
      a13 := (kThrough3 WK c main_arg13 (by decide) (by decide)).trans (h.p.a13.trans (rThrough3 WR Cert.ReferenceIdeal.main_arg13 (by decide) (by decide)).symm),
      a14 := (kThrough3 WK c main_arg14 (by decide) (by decide)).trans (h.p.a14.trans (rThrough3 WR Cert.ReferenceIdeal.main_arg14 (by decide) (by decide)).symm) },
    row := (kThrough3 WK c main_v1 (by decide) (by decide)).trans (h.row.trans (rThrough3 WR Cert.ReferenceIdeal.main_v1 (by decide) (by decide)).symm),
    col := (kThrough3 WK c main_v3 (by decide) (by decide)).trans (h.col.trans (rThrough3 WR Cert.ReferenceIdeal.main_v3 (by decide) (by decide)).symm),
    h := (kThrough3 WK c main_v77 (by decide) (by decide)).trans (h.h.trans (rThrough3 WR Cert.ReferenceIdeal.main_v152 (by decide) (by decide)).symm) }

end Cert.Join

end
-- ==== Proof.KReg4.lean ====
/-
  Launch 4 of the layer kernel as one whole-array function.

  The launch runs the body at 10 grid points; point `t` reads rows `10000 t … 10000 t + 9999` of its 100000 × 128 input,
  all of the weights and of the three parameter rows, and writes back rows `10000 t … 10000 t + 9999` of the 100000 × 64
  result.  Each written block is the matching block of `RowSpec.layerRows` of the arrays the launch finds, and the blocks
  cover the result, so after the launch the result array is that function.  (the third node layer)
-/
import proofs.«133353_j47820165873981_1_alg».proof.Proof.Gen.KernelIdeal.Frame
import proofs.«133353_j47820165873981_1_alg».proof.Proof.KBody
import Idealize.ShloMosaic.Lib.Pipeline.Value

set_option maxRecDepth 16384

noncomputable section

namespace Cert.KernelIdeal.Reg4

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.RowSpec

variable (V : (c : Dev nD) → (b : Ref sig .tc) → Buf (Elt Ideal) ((c : Thread nD τ).loc b))

theorem hz : (![0, 0] : Fin 2 → Nat) = fun _ => 0 := funext fun a => by fin_cases a <;> rfl

/-- The layer on the arrays the launch reads, at the program's own array types. -/
abbrev G (a0 : S100000x128.Idx → Elt Ideal .f32) (a1 : S128x64.Idx → Elt Ideal .f32) (a2 a3 a4 : S1x64.Idx → Elt Ideal .f32) :
    S100000x64.Idx → Elt Ideal .f32 :=
  layerRows (M := 100000) a0 a1 a2 a3 a4

/-- The printed index maps, decided over the grid: the input and the result move together down the rows, one block per
    point; the weights and the parameter rows stay at their one block. -/
theorem idx_facts : ∀ t : Fin cfg4.N,
    win4_0.index t (0 : Fin 2) = win4_5.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- A window whose one block is its whole array hands the body the array itself. -/
theorem whole1 (c : Dev nD) (t : Fin cfg4.N) : iblk4 V c 1 t = V c main_v110 := by
  obtain ⟨-, -, e0, e1, -⟩ := idx_facts t
  funext y
  show V c main_v110 (((cfg4.win 1).blk t).view.emb y) = V c main_v110 y
  refine congrArg _ (funext fun a => Fin.ext ?_)
  match a with
  | ⟨0, _⟩ => show win4_1.index t (0 : Fin 2) * 128 + 1 * (y 0).val = (y 0).val; omega
  | ⟨1, _⟩ => show win4_1.index t (1 : Fin 2) * 64 + 1 * (y 1).val = (y 1).val; omega
theorem whole2 (c : Dev nD) (t : Fin cfg4.N) : iblk4 V c 2 t = V c main_v117 := by
  obtain ⟨-, -, -, -, e0, e1, -⟩ := idx_facts t
  funext y
  show V c main_v117 (((cfg4.win 2).blk t).view.emb y) = V c main_v117 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 64 + 1 * (y 1).val = (y 1).val; omega
theorem whole3 (c : Dev nD) (t : Fin cfg4.N) : iblk4 V c 3 t = V c main_v118 := by
  obtain ⟨-, -, -, -, -, -, e0, e1, -⟩ := idx_facts t
  funext y
  show V c main_v118 (((cfg4.win 3).blk t).view.emb y) = V c main_v118 y
  refine congrArg _ (funext fun a => Fin.ext ?_)
  match a with
  | ⟨0, _⟩ => show win4_3.index t (0 : Fin 2) * 1 + 1 * (y 0).val = (y 0).val; omega
  | ⟨1, _⟩ => show win4_3.index t (1 : Fin 2) * 64 + 1 * (y 1).val = (y 1).val; omega
theorem whole4 (c : Dev nD) (t : Fin cfg4.N) : iblk4 V c 4 t = V c main_v119 := by
  obtain ⟨-, -, -, -, -, -, -, -, e0, e1, -⟩ := idx_facts t
  funext y
  show V c main_v119 (((cfg4.win 4).blk t).view.emb y) = V c main_v119 y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 64 + 1 * (y 1).val = (y 1).val; omega

/-- What point `t` writes back is block `t` of the layer on the arrays as the launch finds them. -/
theorem flushed_eq (c : Dev nD) (t : Fin cfg4.N) :
    (dat4 V c).flushed 5 t = ((cfg4.win 5).blk t).view.read (Elt Ideal)
      (G (V c main_v108) (V c main_v110) (V c main_v117) (V c main_v118) (V c main_v119)) := by
  show (cfg4.win 5).cut (grid4.coords t) ((dat4 V c).after 5 t) = _
  rw [after4_5]
  unfold out4_5
  rw [View.canon_unit_zero hz]
  simp only [View.ld_unit_zero (S := S10000x128) hz, View.ld_unit_zero (S := S128x64) hz, View.ld_unit_zero (S := S1x64) hz]
  rw [whole1, whole2, whole3, whole4, pay4_eq]
  obtain ⟨e0, e1, -, -, -, -, -, -, -, -, e5, e6⟩ := idx_facts t
  funext j
  refine point_eq (M := 100000) (iblk4 V c 0 t) (V c main_v110) (V c main_v117) (V c main_v118) (V c main_v119) (V c main_v108)
    (fun y => ((cfg4.win 5).blk t).view.emb y) (fun y k => ?_) (fun y => ?_) j
  · show V c main_v108 (((cfg4.win 0).blk t).view.emb (ix2 (y 0) k)) = V c main_v108 (ix2 (((cfg4.win 5).blk t).view.emb y 0) k)
    refine congrArg _ (funext fun a => Fin.ext ?_)
    match a with
    | ⟨0, _⟩ => show win4_0.index t (0 : Fin 2) * 10000 + 1 * (y 0).val = win4_5.index t (0 : Fin 2) * 10000 + 1 * (y 0).val; omega
    | ⟨1, _⟩ => show win4_0.index t (1 : Fin 2) * 128 + 1 * k.val = k.val; omega
  · show win4_5.index t (1 : Fin 2) * 64 + 1 * (y 1).val = (y 1).val
    omega

/-- An index of the result is in point `t`'s block iff each coordinate is in the block's range on its axis. -/
theorem mem_blk (t : Fin cfg4.N) (i : S100000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v120).slice (win4_5.rect t)).set ↔ _
  rw [View.set_slice_whole, Rect.mem_set_unit]
  exact Iff.rfl

/-- Every row of the result is in the block of the point `row / 10000`. -/
theorem cover (i : S100000x64.Idx) : ∃ t : Fin cfg4.N, (cfg4.win 5).flush t = true ∧ i ∈ ((cfg4.win 5).blk t).view.set := by
  have hi0 : (i 0).val < 100000 := (i 0).isLt
  have hi1 : (i 1).val < 64 := (i 1).isLt
  have hN : (i 0).val / 10000 < cfg4.N := by show (i 0).val / 10000 < 10; omega
  refine ⟨⟨(i 0).val / 10000, hN⟩, flush4_5 _, ?_⟩
  rw [mem_blk]
  obtain ⟨-, -, -, -, -, -, -, -, -, -, e5, e6⟩ := idx_facts ⟨(i 0).val / 10000, hN⟩
  intro a
  match a with
  | ⟨0, _⟩ => show win4_5.index _ (0 : Fin 2) * 10000 ≤ (i 0).val ∧ (i 0).val < win4_5.index _ (0 : Fin 2) * 10000 + 10000; rw [e5]; show (i 0).val / 10000 * 10000 ≤ _ ∧ _ < (i 0).val / 10000 * 10000 + 10000; omega
  | ⟨1, _⟩ => show win4_5.index _ (1 : Fin 2) * 64 ≤ (i 1).val ∧ (i 1).val < win4_5.index _ (1 : Fin 2) * 64 + 64; omega

/-- THE RESULT ARRAY after the launch: the layer on the arrays the launch finds. -/
theorem final (c : Dev nD) :
    (dat4 V c).arrAt 5 cfg4.N = G (V c main_v108) (V c main_v110) (V c main_v117) (V c main_v118) (V c main_v119) :=
  (dat4 V c).arrAt_eq_of_cover 5 _ (fun t _ => flushed_eq V c t) cover

end Cert.KernelIdeal.Reg4

end
-- ==== Proof.Stretch4.lean ====
/-
  Stretch 4 of host operations, in the kernel program and in the reference.

  Between two layers both programs run the same host operations on the same values: the third gather and the third node layer's input.
  Read as functions of the buffers they start from, the two stretches give equal results whenever those buffers hold
  equal contents: both sides are the same composition of slices, comparisons, gathers, a scatter-add and a
  concatenation, and nothing is opened.  The layer's weight matrix and its three parameter rows are slab and row 2 of
  the stacked parameter arrays (`Params`); the kernel program lays each parameter row out once more as a 1 × 64 row.
-/
import proofs.«133353_j47820165873981_1_alg».proof.Proof.Gen.KernelIdeal.Launch
import proofs.«133353_j47820165873981_1_alg».proof.Proof.RefOps
import proofs.«133353_j47820165873981_1_alg».proof.Proof.RParams
import Idealize.ShloMosaic.PureOps.Ideal

set_option maxRecDepth 16384
set_option maxHeartbeats 2000000

noncomputable section

namespace Cert.Stretch4

open Idealize.ShloMosaic Idealize.ShloMosaic.TcCoe Idealize.SL.Sem Idealize.ShloMosaic.StableHlo

theorem hcol (WK : Valuation Cert.KernelIdeal.τ Cert.KernelIdeal.sig (Elt Ideal)) (WR : Valuation Cert.ReferenceIdeal.τ Cert.ReferenceIdeal.sig (Elt Ideal))
    (h_v3 : WK (Proc.devRef .tc Cert.KernelIdeal.main_v3) = WR (Proc.devRef .tc Cert.ReferenceIdeal.main_v3))
    (h_v77 : WK (Proc.devRef .tc Cert.KernelIdeal.main_v77) = WR (Proc.devRef .tc Cert.ReferenceIdeal.main_v152)) :
    StableHlo.after (Cert.KernelIdeal.Gen.hostOps4 (F := Ideal)) WK (Proc.devRef .tc Cert.KernelIdeal.main_v104)
      = StableHlo.after (Cert.ReferenceIdeal.RefOps.piece8 (F := Ideal)) WR (Proc.devRef .tc Cert.ReferenceIdeal.main_v204) := by
  after_results
  rw [h_v3, h_v77]
  rfl

theorem inp (WK : Valuation Cert.KernelIdeal.τ Cert.KernelIdeal.sig (Elt Ideal)) (WR : Valuation Cert.ReferenceIdeal.τ Cert.ReferenceIdeal.sig (Elt Ideal))
    (h_v1 : WK (Proc.devRef .tc Cert.KernelIdeal.main_v1) = WR (Proc.devRef .tc Cert.ReferenceIdeal.main_v1))
    (h_v3 : WK (Proc.devRef .tc Cert.KernelIdeal.main_v3) = WR (Proc.devRef .tc Cert.ReferenceIdeal.main_v3))
    (h_v77 : WK (Proc.devRef .tc Cert.KernelIdeal.main_v77) = WR (Proc.devRef .tc Cert.ReferenceIdeal.main_v152)) :
    StableHlo.after (Cert.KernelIdeal.Gen.hostOps4 (F := Ideal)) WK (Proc.devRef .tc Cert.KernelIdeal.main_v108)
      = StableHlo.after (Cert.ReferenceIdeal.RefOps.piece8 (F := Ideal)) WR (Proc.devRef .tc Cert.ReferenceIdeal.main_v208) := by
  after_results
  rw [h_v1, h_v3, h_v77]
  rfl

theorem weightsK (WK : Valuation Cert.KernelIdeal.τ Cert.KernelIdeal.sig (Elt Ideal)) :
    StableHlo.after (Cert.KernelIdeal.Gen.hostOps4 (F := Ideal)) WK (Proc.devRef .tc Cert.KernelIdeal.main_v110) = Cert.ReferenceIdeal.Params.wmat2 (WK (Proc.devRef .tc Cert.KernelIdeal.main_arg7)) := by
  after_results <;> rfl

theorem weightsR (WR : Valuation Cert.ReferenceIdeal.τ Cert.ReferenceIdeal.sig (Elt Ideal)) :
    StableHlo.after (Cert.ReferenceIdeal.RefOps.piece8 (F := Ideal)) WR (Proc.devRef .tc Cert.ReferenceIdeal.main_v210) = Cert.ReferenceIdeal.Params.wmat2 (WR (Proc.devRef .tc Cert.ReferenceIdeal.main_arg7)) := by
  after_results <;> rfl

theorem param0K (WK : Valuation Cert.KernelIdeal.τ Cert.KernelIdeal.sig (Elt Ideal)) :
    StableHlo.after (Cert.KernelIdeal.Gen.hostOps4 (F := Ideal)) WK (Proc.devRef .tc Cert.KernelIdeal.main_v117)
      = shapeCast Cert.KernelIdeal.S1x64 (Cert.ReferenceIdeal.Params.pvec2 (WK (Proc.devRef .tc Cert.KernelIdeal.main_arg8))) Cert.KernelIdeal.Gen.shapeCasts_S64_S1x64 := by
  after_results <;> rfl

theorem param1K (WK : Valuation Cert.KernelIdeal.τ Cert.KernelIdeal.sig (Elt Ideal)) :
    StableHlo.after (Cert.KernelIdeal.Gen.hostOps4 (F := Ideal)) WK (Proc.devRef .tc Cert.KernelIdeal.main_v118)
      = shapeCast Cert.KernelIdeal.S1x64 (Cert.ReferenceIdeal.Params.pvec2 (WK (Proc.devRef .tc Cert.KernelIdeal.main_arg9))) Cert.KernelIdeal.Gen.shapeCasts_S64_S1x64 := by
  after_results <;> rfl

theorem param2K (WK : Valuation Cert.KernelIdeal.τ Cert.KernelIdeal.sig (Elt Ideal)) :
    StableHlo.after (Cert.KernelIdeal.Gen.hostOps4 (F := Ideal)) WK (Proc.devRef .tc Cert.KernelIdeal.main_v119)
      = shapeCast Cert.KernelIdeal.S1x64 (Cert.ReferenceIdeal.Params.pvec2 (WK (Proc.devRef .tc Cert.KernelIdeal.main_arg10))) Cert.KernelIdeal.Gen.shapeCasts_S64_S1x64 := by
  after_results <;> rfl

end Cert.Stretch4

end
-- ==== Proof.Half4.lean ====
/-
  Half-layer 4: the third node layer.

  As for the second; the gather of the second layer's features along the edges' targets is kept as well, since the
  third edge layer reads it.
-/
import proofs.«133353_j47820165873981_1_alg».proof.Proof.Gen.KernelIdeal.Frame
import proofs.«133353_j47820165873981_1_alg».proof.Proof.KReg4
import proofs.«133353_j47820165873981_1_alg».proof.Proof.CarryK
import proofs.«133353_j47820165873981_1_alg».proof.Proof.CarryR
import proofs.«133353_j47820165873981_1_alg».proof.Proof.Stretch4
import proofs.«133353_j47820165873981_1_alg».proof.Proof.BlocksNode
import proofs.«133353_j47820165873981_1_alg».proof.Proof.Agree
import proofs.«133353_j47820165873981_1_alg».proof.Proof.LayerGlue

set_option maxRecDepth 16384
set_option maxHeartbeats 1000000

noncomputable section

namespace Cert.Join

open Idealize.ShloMosaic Idealize.ShloMosaic.TcCoe Idealize.SL.Sem Idealize.ShloMosaic.StableHlo
open Cert.KernelIdeal Cert.KernelIdeal.Gen

/-- The kernel program's buffer contents after stretch 4 of host operations and launch 4, from contents `WK`: the
    launch's arrays at what its write-backs leave, every other buffer as the stretch left it. -/
def nextK4 (WK : Dev nD → KVal) (c : Dev nD) : KVal :=
  Pipeline.withArrays spec4 c (StableHlo.after (hostOps4 (F := Ideal)) (WK c))
    fun w => (dat4 (fun c b => StableHlo.after (hostOps4 (F := Ideal)) (WK c) (Proc.devRef .tc b)) c).arrAt w cfg4.N

/-- The reference's buffer contents after pieces 8 and 9 of its operations, from contents `WR`. -/
def nextR4 (WR : RVal) : RVal :=
  StableHlo.after (Cert.ReferenceIdeal.RefOps.piece9 (F := Ideal)) (StableHlo.after (Cert.ReferenceIdeal.RefOps.piece8 (F := Ideal)) WR)

/-- A buffer that is not one of the launch's arrays is as the stretch left it. -/
theorem kRegion4 (WK : Dev nD → KVal) (c : Dev nD) (b : Ref sig .tc) (hb : ∀ w, Pipeline.arrRef spec4 w ≠ b) :
    nextK4 WK c (Proc.devRef .tc b) = StableHlo.after (hostOps4 (F := Ideal)) (WK c) (Proc.devRef .tc b) :=
  Pipeline.withArrays_of_ne spec4 c _ _ b hb

/-- A buffer neither the stretch nor the launch writes is unchanged. -/
theorem kThrough4 (WK : Dev nD → KVal) (c : Dev nD) (b : Ref sig .tc) (h1 : b ∉ Carry.written4)
    (h2 : ∀ w, Pipeline.arrRef spec4 w ≠ b) : nextK4 WK c (Proc.devRef .tc b) = WK c (Proc.devRef .tc b) :=
  (kRegion4 WK c b h2).trans (Carry.keep4 _ b h1)

/-- A buffer the layer block does not write is as the stretch left it. -/
theorem rBlock4 (WR : RVal) (b : Ref Cert.ReferenceIdeal.sig .tc) (h : b ∉ Cert.ReferenceIdeal.Carry.written9) :
    nextR4 WR (Proc.devRef .tc b) = StableHlo.after (Cert.ReferenceIdeal.RefOps.piece8 (F := Ideal)) WR (Proc.devRef .tc b) :=
  Cert.ReferenceIdeal.Carry.keep9 _ b h

/-- A buffer neither piece writes is unchanged. -/
theorem rThrough4 (WR : RVal) (b : Ref Cert.ReferenceIdeal.sig .tc) (h0 : b ∉ Cert.ReferenceIdeal.Carry.written8)
    (h1 : b ∉ Cert.ReferenceIdeal.Carry.written9) : nextR4 WR (Proc.devRef .tc b) = WR (Proc.devRef .tc b) :=
  (rBlock4 WR b h1).trans (Cert.ReferenceIdeal.Carry.keep8 WR b h0)

/-- From agreement after the second node layer to agreement after the third. -/
theorem half4 (WK : Dev nD → KVal) (WR : RVal) (c : Dev nD) (h : Agree3 (WK c) WR) : Agree5 (nextK4 WK c) (nextR4 WR) :=
  { p := {
      a7 := (kThrough4 WK c main_arg7 (by decide) (by decide)).trans (h.p.a7.trans (rThrough4 WR Cert.ReferenceIdeal.main_arg7 (by decide) (by decide)).symm),
      a8 := (kThrough4 WK c main_arg8 (by decide) (by decide)).trans (h.p.a8.trans (rThrough4 WR Cert.ReferenceIdeal.main_arg8 (by decide) (by decide)).symm),
      a9 := (kThrough4 WK c main_arg9 (by decide) (by decide)).trans (h.p.a9.trans (rThrough4 WR Cert.ReferenceIdeal.main_arg9 (by decide) (by decide)).symm),
      a10 := (kThrough4 WK c main_arg10 (by decide) (by decide)).trans (h.p.a10.trans (rThrough4 WR Cert.ReferenceIdeal.main_arg10 (by decide) (by decide)).symm),
      a11 := (kThrough4 WK c main_arg11 (by decide) (by decide)).trans (h.p.a11.trans (rThrough4 WR Cert.ReferenceIdeal.main_arg11 (by decide) (by decide)).symm),
      a12 := (kThrough4 WK c main_arg12 (by decide) (by decide)).trans (h.p.a12.trans (rThrough4 WR Cert.ReferenceIdeal.main_arg12 (by decide) (by decide)).symm),
      a13 := (kThrough4 WK c main_arg13 (by decide) (by decide)).trans (h.p.a13.trans (rThrough4 WR Cert.ReferenceIdeal.main_arg13 (by decide) (by decide)).symm),
      a14 := (kThrough4 WK c main_arg14 (by decide) (by decide)).trans (h.p.a14.trans (rThrough4 WR Cert.ReferenceIdeal.main_arg14 (by decide) (by decide)).symm) },
    row := (kThrough4 WK c main_v1 (by decide) (by decide)).trans (h.row.trans (rThrough4 WR Cert.ReferenceIdeal.main_v1 (by decide) (by decide)).symm),
    h := (kThrough4 WK c main_v77 (by decide) (by decide)).trans (h.h.trans (rThrough4 WR Cert.ReferenceIdeal.main_v152 (by decide) (by decide)).symm),
    hcol := (kRegion4 WK c main_v104 (by decide)).trans ((Stretch4.hcol (WK c) WR h.col h.h).trans (rBlock4 WR Cert.ReferenceIdeal.main_v204 (by decide)).symm),
    nodes := by
      have hK : nextK4 WK c (Proc.devRef .tc main_v120)
          = Reg4.G (StableHlo.after (hostOps4 (F := Ideal)) (WK c) (Proc.devRef .tc main_v108))
              (StableHlo.after (hostOps4 (F := Ideal)) (WK c) (Proc.devRef .tc main_v110))
              (StableHlo.after (hostOps4 (F := Ideal)) (WK c) (Proc.devRef .tc main_v117))
              (StableHlo.after (hostOps4 (F := Ideal)) (WK c) (Proc.devRef .tc main_v118))
              (StableHlo.after (hostOps4 (F := Ideal)) (WK c) (Proc.devRef .tc main_v119)) :=
        (Pipeline.withArrays_arr spec4 launch4.win.arr_inj c _ _ 5).trans (Reg4.final _ c)
      have hR := Cert.ReferenceIdeal.BlocksNode.layer2 (StableHlo.after (Cert.ReferenceIdeal.RefOps.piece8 (F := Ideal)) WR)
      refine hK.trans (Eq.trans ?_ hR.symm)
      exact RowSpec.layer_glue _ _ _ _ _ _ _ _ _ _ _ _ _ shapeCasts_S64_S1x64
        (Stretch4.inp (WK c) WR h.row h.col h.h)
        ((Stretch4.weightsK (WK c)).trans ((congrArg Cert.ReferenceIdeal.Params.wmat2 h.p.a7).trans (Stretch4.weightsR WR).symm))
        (Stretch4.param0K (WK c)) (Stretch4.param1K (WK c)) (Stretch4.param2K (WK c))
        (congrArg Cert.ReferenceIdeal.Params.pvec2 (h.p.a8.trans (Cert.ReferenceIdeal.Carry.keep8 WR Cert.ReferenceIdeal.main_arg8 (by decide)).symm))
        (congrArg Cert.ReferenceIdeal.Params.pvec2 (h.p.a9.trans (Cert.ReferenceIdeal.Carry.keep8 WR Cert.ReferenceIdeal.main_arg9 (by decide)).symm))
        (congrArg Cert.ReferenceIdeal.Params.pvec2 (h.p.a10.trans (Cert.ReferenceIdeal.Carry.keep8 WR Cert.ReferenceIdeal.main_arg10 (by decide)).symm)) }

end Cert.Join

end
-- ==== Proof.KReg5.lean ====
/-
  Launch 5 of the layer kernel as one whole-array function.

  The launch runs the body at 125 grid points; point `t` reads rows `10000 t … 10000 t + 9999` of its 1250000 × 128 input,
  all of the weights and of the three parameter rows, and writes back rows `10000 t … 10000 t + 9999` of the 1250000 × 64
  result.  Each written block is the matching block of `RowSpec.layerRows` of the arrays the launch finds, and the blocks
  cover the result, so after the launch the result array is that function.  (the third edge layer)
-/
import proofs.«133353_j47820165873981_1_alg».proof.Proof.Gen.KernelIdeal.Frame
import proofs.«133353_j47820165873981_1_alg».proof.Proof.KBody
import Idealize.ShloMosaic.Lib.Pipeline.Value

set_option maxRecDepth 16384

noncomputable section

namespace Cert.KernelIdeal.Reg5

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.RowSpec

variable (V : (c : Dev nD) → (b : Ref sig .tc) → Buf (Elt Ideal) ((c : Thread nD τ).loc b))

theorem hz : (![0, 0] : Fin 2 → Nat) = fun _ => 0 := funext fun a => by fin_cases a <;> rfl

/-- The layer on the arrays the launch reads, at the program's own array types. -/
abbrev G (a0 : S1250000x128.Idx → Elt Ideal .f32) (a1 : S128x64.Idx → Elt Ideal .f32) (a2 a3 a4 : S1x64.Idx → Elt Ideal .f32) :
    S1250000x64.Idx → Elt Ideal .f32 :=
  layerRows (M := 1250000) a0 a1 a2 a3 a4

/-- The printed index maps, decided over the grid: the input and the result move together down the rows, one block per
    point; the weights and the parameter rows stay at their one block. -/
theorem idx_facts : ∀ t : Fin cfg5.N,
    win5_0.index t (0 : Fin 2) = win5_5.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- A window whose one block is its whole array hands the body the array itself. -/
theorem whole1 (c : Dev nD) (t : Fin cfg5.N) : iblk5 V c 1 t = V c main_v130 := by
  obtain ⟨-, -, e0, e1, -⟩ := idx_facts t
  funext y
  show V c main_v130 (((cfg5.win 1).blk t).view.emb y) = V c main_v130 y
  refine congrArg _ (funext fun a => Fin.ext ?_)
  match a with
  | ⟨0, _⟩ => show win5_1.index t (0 : Fin 2) * 128 + 1 * (y 0).val = (y 0).val; omega
  | ⟨1, _⟩ => show win5_1.index t (1 : Fin 2) * 64 + 1 * (y 1).val = (y 1).val; omega
theorem whole2 (c : Dev nD) (t : Fin cfg5.N) : iblk5 V c 2 t = V c main_v137 := by
  obtain ⟨-, -, -, -, e0, e1, -⟩ := idx_facts t
  funext y
  show V c main_v137 (((cfg5.win 2).blk t).view.emb y) = V c main_v137 y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 64 + 1 * (y 1).val = (y 1).val; omega
theorem whole3 (c : Dev nD) (t : Fin cfg5.N) : iblk5 V c 3 t = V c main_v138 := by
  obtain ⟨-, -, -, -, -, -, e0, e1, -⟩ := idx_facts t
  funext y
  show V c main_v138 (((cfg5.win 3).blk t).view.emb y) = V c main_v138 y
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 64 + 1 * (y 1).val = (y 1).val; omega
theorem whole4 (c : Dev nD) (t : Fin cfg5.N) : iblk5 V c 4 t = V c main_v139 := by
  obtain ⟨-, -, -, -, -, -, -, -, e0, e1, -⟩ := idx_facts t
  funext y
  show V c main_v139 (((cfg5.win 4).blk t).view.emb y) = V c main_v139 y
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 64 + 1 * (y 1).val = (y 1).val; omega

/-- What point `t` writes back is block `t` of the layer on the arrays as the launch finds them. -/
theorem flushed_eq (c : Dev nD) (t : Fin cfg5.N) :
    (dat5 V c).flushed 5 t = ((cfg5.win 5).blk t).view.read (Elt Ideal)
      (G (V c main_v128) (V c main_v130) (V c main_v137) (V c main_v138) (V c main_v139)) := by
  show (cfg5.win 5).cut (grid5.coords t) ((dat5 V c).after 5 t) = _
  rw [after5_5]
  unfold out5_5
  rw [View.canon_unit_zero hz]
  simp only [View.ld_unit_zero (S := S10000x128) hz, View.ld_unit_zero (S := S128x64) hz, View.ld_unit_zero (S := S1x64) hz]
  rw [whole1, whole2, whole3, whole4, pay5_eq]
  obtain ⟨e0, e1, -, -, -, -, -, -, -, -, e5, e6⟩ := idx_facts t
  funext j
  refine point_eq (M := 1250000) (iblk5 V c 0 t) (V c main_v130) (V c main_v137) (V c main_v138) (V c main_v139) (V c main_v128)
    (fun y => ((cfg5.win 5).blk t).view.emb y) (fun y k => ?_) (fun y => ?_) j
  · show V c main_v128 (((cfg5.win 0).blk t).view.emb (ix2 (y 0) k)) = V c main_v128 (ix2 (((cfg5.win 5).blk t).view.emb y 0) k)
    refine congrArg _ (funext fun a => Fin.ext ?_)
    match a with
    | ⟨0, _⟩ => show win5_0.index t (0 : Fin 2) * 10000 + 1 * (y 0).val = win5_5.index t (0 : Fin 2) * 10000 + 1 * (y 0).val; omega
    | ⟨1, _⟩ => show win5_0.index t (1 : Fin 2) * 128 + 1 * k.val = k.val; omega
  · show win5_5.index t (1 : Fin 2) * 64 + 1 * (y 1).val = (y 1).val
    omega

/-- An index of the result is in point `t`'s block iff each coordinate is in the block's range on its axis. -/
theorem mem_blk (t : Fin cfg5.N) (i : S1250000x64.Idx) :
    i ∈ ((cfg5.win 5).blk t).view.set ↔ ∀ a : Fin 2, win5_5.index t a * S10000x64.size a ≤ (i a).val ∧ (i a).val < win5_5.index t a * S10000x64.size a + S10000x64.size a := by
  show i ∈ ((View.whole main_v140).slice (win5_5.rect t)).set ↔ _
  rw [View.set_slice_whole, Rect.mem_set_unit]
  exact Iff.rfl

/-- Every row of the result is in the block of the point `row / 10000`. -/
theorem cover (i : S1250000x64.Idx) : ∃ t : Fin cfg5.N, (cfg5.win 5).flush t = true ∧ i ∈ ((cfg5.win 5).blk t).view.set := by
  have hi0 : (i 0).val < 1250000 := (i 0).isLt
  have hi1 : (i 1).val < 64 := (i 1).isLt
  have hN : (i 0).val / 10000 < cfg5.N := by show (i 0).val / 10000 < 125; omega
  refine ⟨⟨(i 0).val / 10000, hN⟩, flush5_5 _, ?_⟩
  rw [mem_blk]
  obtain ⟨-, -, -, -, -, -, -, -, -, -, e5, e6⟩ := idx_facts ⟨(i 0).val / 10000, hN⟩
  intro a
  match a with
  | ⟨0, _⟩ => show win5_5.index _ (0 : Fin 2) * 10000 ≤ (i 0).val ∧ (i 0).val < win5_5.index _ (0 : Fin 2) * 10000 + 10000; rw [e5]; show (i 0).val / 10000 * 10000 ≤ _ ∧ _ < (i 0).val / 10000 * 10000 + 10000; omega
  | ⟨1, _⟩ => show win5_5.index _ (1 : Fin 2) * 64 ≤ (i 1).val ∧ (i 1).val < win5_5.index _ (1 : Fin 2) * 64 + 64; omega

/-- THE RESULT ARRAY after the launch: the layer on the arrays the launch finds. -/
theorem final (c : Dev nD) :
    (dat5 V c).arrAt 5 cfg5.N = G (V c main_v128) (V c main_v130) (V c main_v137) (V c main_v138) (V c main_v139) :=
  (dat5 V c).arrAt_eq_of_cover 5 _ (fun t _ => flushed_eq V c t) cover

end Cert.KernelIdeal.Reg5

end
-- ==== Proof.Stretch5.lean ====
/-
  Stretch 5 of host operations, in the kernel program and in the reference.

  Between two layers both programs run the same host operations on the same values: the third edge layer's input.
  Read as functions of the buffers they start from, the two stretches give equal results whenever those buffers hold
  equal contents: both sides are the same composition of slices, comparisons, gathers, a scatter-add and a
  concatenation, and nothing is opened.  The layer's weight matrix and its three parameter rows are slab and row 2 of
  the stacked parameter arrays (`Params`); the kernel program lays each parameter row out once more as a 1 × 64 row.
-/
import proofs.«133353_j47820165873981_1_alg».proof.Proof.Gen.KernelIdeal.Launch
import proofs.«133353_j47820165873981_1_alg».proof.Proof.RefOps
import proofs.«133353_j47820165873981_1_alg».proof.Proof.RParams
import Idealize.ShloMosaic.PureOps.Ideal

set_option maxRecDepth 16384
set_option maxHeartbeats 2000000

noncomputable section

namespace Cert.Stretch5

open Idealize.ShloMosaic Idealize.ShloMosaic.TcCoe Idealize.SL.Sem Idealize.ShloMosaic.StableHlo

theorem inp (WK : Valuation Cert.KernelIdeal.τ Cert.KernelIdeal.sig (Elt Ideal)) (WR : Valuation Cert.ReferenceIdeal.τ Cert.ReferenceIdeal.sig (Elt Ideal))
    (h_v1 : WK (Proc.devRef .tc Cert.KernelIdeal.main_v1) = WR (Proc.devRef .tc Cert.ReferenceIdeal.main_v1))
    (h_v77 : WK (Proc.devRef .tc Cert.KernelIdeal.main_v77) = WR (Proc.devRef .tc Cert.ReferenceIdeal.main_v152))
    (h_v104 : WK (Proc.devRef .tc Cert.KernelIdeal.main_v104) = WR (Proc.devRef .tc Cert.ReferenceIdeal.main_v204)) :
    StableHlo.after (Cert.KernelIdeal.Gen.hostOps5 (F := Ideal)) WK (Proc.devRef .tc Cert.KernelIdeal.main_v128)
      = StableHlo.after (Cert.ReferenceIdeal.RefOps.piece10 (F := Ideal)) WR (Proc.devRef .tc Cert.ReferenceIdeal.main_v253) := by
  after_results
  rw [h_v1, h_v77, h_v104]
  rfl

theorem weightsK (WK : Valuation Cert.KernelIdeal.τ Cert.KernelIdeal.sig (Elt Ideal)) :
    StableHlo.after (Cert.KernelIdeal.Gen.hostOps5 (F := Ideal)) WK (Proc.devRef .tc Cert.KernelIdeal.main_v130) = Cert.ReferenceIdeal.Params.wmat2 (WK (Proc.devRef .tc Cert.KernelIdeal.main_arg11)) := by
  after_results <;> rfl

theorem weightsR (WR : Valuation Cert.ReferenceIdeal.τ Cert.ReferenceIdeal.sig (Elt Ideal)) :
    StableHlo.after (Cert.ReferenceIdeal.RefOps.piece10 (F := Ideal)) WR (Proc.devRef .tc Cert.ReferenceIdeal.main_v255) = Cert.ReferenceIdeal.Params.wmat2 (WR (Proc.devRef .tc Cert.ReferenceIdeal.main_arg11)) := by
  after_results <;> rfl

theorem param0K (WK : Valuation Cert.KernelIdeal.τ Cert.KernelIdeal.sig (Elt Ideal)) :
    StableHlo.after (Cert.KernelIdeal.Gen.hostOps5 (F := Ideal)) WK (Proc.devRef .tc Cert.KernelIdeal.main_v137)
      = shapeCast Cert.KernelIdeal.S1x64 (Cert.ReferenceIdeal.Params.pvec2 (WK (Proc.devRef .tc Cert.KernelIdeal.main_arg12))) Cert.KernelIdeal.Gen.shapeCasts_S64_S1x64 := by
  after_results <;> rfl

theorem param1K (WK : Valuation Cert.KernelIdeal.τ Cert.KernelIdeal.sig (Elt Ideal)) :
    StableHlo.after (Cert.KernelIdeal.Gen.hostOps5 (F := Ideal)) WK (Proc.devRef .tc Cert.KernelIdeal.main_v138)
      = shapeCast Cert.KernelIdeal.S1x64 (Cert.ReferenceIdeal.Params.pvec2 (WK (Proc.devRef .tc Cert.KernelIdeal.main_arg13))) Cert.KernelIdeal.Gen.shapeCasts_S64_S1x64 := by
  after_results <;> rfl

theorem param2K (WK : Valuation Cert.KernelIdeal.τ Cert.KernelIdeal.sig (Elt Ideal)) :
    StableHlo.after (Cert.KernelIdeal.Gen.hostOps5 (F := Ideal)) WK (Proc.devRef .tc Cert.KernelIdeal.main_v139)
      = shapeCast Cert.KernelIdeal.S1x64 (Cert.ReferenceIdeal.Params.pvec2 (WK (Proc.devRef .tc Cert.KernelIdeal.main_arg14))) Cert.KernelIdeal.Gen.shapeCasts_S64_S1x64 := by
  after_results <;> rfl

end Cert.Stretch5

end
-- ==== Proof.BlocksEdge.lean ====
/-
  The reference's edge layer blocks, read off its operations.

  Each of the three edge layers is one piece of 42 operations.  Its last result, as a function of the buffers the piece
  starts from, is the block's composed term (`EdgeBlock.block`) of the layer's input, its weight matrix, and row `l` of
  the three parameter arrays, hence `RowSpec.layer` of them.
-/
import proofs.«133353_j47820165873981_1_alg».proof.Proof.RefOps
import proofs.«133353_j47820165873981_1_alg».proof.Proof.RBlock
import proofs.«133353_j47820165873981_1_alg».proof.Proof.RParams

set_option maxRecDepth 16384
set_option maxHeartbeats 2000000

noncomputable section

namespace Cert.ReferenceIdeal.BlocksEdge

open Idealize.ShloMosaic Idealize.ShloMosaic.TcCoe Idealize.SL.Sem Idealize.ShloMosaic.StableHlo
open Cert.ReferenceIdeal Cert.ReferenceIdeal.Gen Cert.ReferenceIdeal.Params Cert.RowSpec

/-- Layer 3: piece 11. -/
theorem layer2 (WR : Valuation τ sig (Elt Ideal)) :
    StableHlo.after (RefOps.piece11 (F := Ideal)) WR (Proc.devRef .tc main_v290)
      = layer (M := 1250000) (WR (Proc.devRef .tc main_v253)) (WR (Proc.devRef .tc main_v255))
          (pvec2 (WR (Proc.devRef .tc main_arg12))) (pvec2 (WR (Proc.devRef .tc main_arg13)))
          (pvec2 (WR (Proc.devRef .tc main_arg14))) :=
  (show StableHlo.after (RefOps.piece11 (F := Ideal)) WR (Proc.devRef .tc main_v290)
      = EdgeBlock.block (WR (Proc.devRef .tc main_v253)) (WR (Proc.devRef .tc main_v255))
          (pvec2 (WR (Proc.devRef .tc main_arg12))) (pvec2 (WR (Proc.devRef .tc main_arg13)))
          (pvec2 (WR (Proc.devRef .tc main_arg14))) from by after_results_simp <;> rfl).trans
    (EdgeBlock.block_eq_layer _ _ _ _ _)

end Cert.ReferenceIdeal.BlocksEdge

end
-- ==== Proof.Half5.lean ====
/-
  Half-layer 5: the third edge layer.

  Its input is the second layer's node features gathered along the edges' sources beside the gather along their
  targets; its output is the second result.  The first result, the node features after three layers, is left alone.
-/
import proofs.«133353_j47820165873981_1_alg».proof.Proof.Gen.KernelIdeal.Frame
import proofs.«133353_j47820165873981_1_alg».proof.Proof.KReg5
import proofs.«133353_j47820165873981_1_alg».proof.Proof.CarryK
import proofs.«133353_j47820165873981_1_alg».proof.Proof.CarryR
import proofs.«133353_j47820165873981_1_alg».proof.Proof.Stretch5
import proofs.«133353_j47820165873981_1_alg».proof.Proof.BlocksEdge
import proofs.«133353_j47820165873981_1_alg».proof.Proof.Agree
import proofs.«133353_j47820165873981_1_alg».proof.Proof.LayerGlue

set_option maxRecDepth 16384
set_option maxHeartbeats 1000000

noncomputable section

namespace Cert.Join

open Idealize.ShloMosaic Idealize.ShloMosaic.TcCoe Idealize.SL.Sem Idealize.ShloMosaic.StableHlo
open Cert.KernelIdeal Cert.KernelIdeal.Gen

/-- The kernel program's buffer contents after stretch 5 of host operations and launch 5, from contents `WK`: the
    launch's arrays at what its write-backs leave, every other buffer as the stretch left it. -/
def nextK5 (WK : Dev nD → KVal) (c : Dev nD) : KVal :=
  Pipeline.withArrays spec5 c (StableHlo.after (hostOps5 (F := Ideal)) (WK c))
    fun w => (dat5 (fun c b => StableHlo.after (hostOps5 (F := Ideal)) (WK c) (Proc.devRef .tc b)) c).arrAt w cfg5.N

/-- The reference's buffer contents after pieces 10 and 11 of its operations, from contents `WR`. -/
def nextR5 (WR : RVal) : RVal :=
  StableHlo.after (Cert.ReferenceIdeal.RefOps.piece11 (F := Ideal)) (StableHlo.after (Cert.ReferenceIdeal.RefOps.piece10 (F := Ideal)) WR)

/-- A buffer that is not one of the launch's arrays is as the stretch left it. -/
theorem kRegion5 (WK : Dev nD → KVal) (c : Dev nD) (b : Ref sig .tc) (hb : ∀ w, Pipeline.arrRef spec5 w ≠ b) :
    nextK5 WK c (Proc.devRef .tc b) = StableHlo.after (hostOps5 (F := Ideal)) (WK c) (Proc.devRef .tc b) :=
  Pipeline.withArrays_of_ne spec5 c _ _ b hb

/-- A buffer neither the stretch nor the launch writes is unchanged. -/
theorem kThrough5 (WK : Dev nD → KVal) (c : Dev nD) (b : Ref sig .tc) (h1 : b ∉ Carry.written5)
    (h2 : ∀ w, Pipeline.arrRef spec5 w ≠ b) : nextK5 WK c (Proc.devRef .tc b) = WK c (Proc.devRef .tc b) :=
  (kRegion5 WK c b h2).trans (Carry.keep5 _ b h1)

/-- A buffer the layer block does not write is as the stretch left it. -/
theorem rBlock5 (WR : RVal) (b : Ref Cert.ReferenceIdeal.sig .tc) (h : b ∉ Cert.ReferenceIdeal.Carry.written11) :
    nextR5 WR (Proc.devRef .tc b) = StableHlo.after (Cert.ReferenceIdeal.RefOps.piece10 (F := Ideal)) WR (Proc.devRef .tc b) :=
  Cert.ReferenceIdeal.Carry.keep11 _ b h

/-- A buffer neither piece writes is unchanged. -/
theorem rThrough5 (WR : RVal) (b : Ref Cert.ReferenceIdeal.sig .tc) (h0 : b ∉ Cert.ReferenceIdeal.Carry.written10)
    (h1 : b ∉ Cert.ReferenceIdeal.Carry.written11) : nextR5 WR (Proc.devRef .tc b) = WR (Proc.devRef .tc b) :=
  (rBlock5 WR b h1).trans (Cert.ReferenceIdeal.Carry.keep10 WR b h0)

/-- From agreement after the third node layer to agreement on the two results. -/
theorem half5 (WK : Dev nD → KVal) (WR : RVal) (c : Dev nD) (h : Agree5 (WK c) WR) : Agree6 (nextK5 WK c) (nextR5 WR) :=
  { nodes := (kThrough5 WK c main_v120 (by decide) (by decide)).trans (h.nodes.trans (rThrough5 WR Cert.ReferenceIdeal.main_v245 (by decide) (by decide)).symm),
    edges := by
      have hK : nextK5 WK c (Proc.devRef .tc main_v140)
          = Reg5.G (StableHlo.after (hostOps5 (F := Ideal)) (WK c) (Proc.devRef .tc main_v128))
              (StableHlo.after (hostOps5 (F := Ideal)) (WK c) (Proc.devRef .tc main_v130))
              (StableHlo.after (hostOps5 (F := Ideal)) (WK c) (Proc.devRef .tc main_v137))
              (StableHlo.after (hostOps5 (F := Ideal)) (WK c) (Proc.devRef .tc main_v138))
              (StableHlo.after (hostOps5 (F := Ideal)) (WK c) (Proc.devRef .tc main_v139)) :=
        (Pipeline.withArrays_arr spec5 launch5.win.arr_inj c _ _ 5).trans (Reg5.final _ c)
      have hR := Cert.ReferenceIdeal.BlocksEdge.layer2 (StableHlo.after (Cert.ReferenceIdeal.RefOps.piece10 (F := Ideal)) WR)
      refine hK.trans (Eq.trans ?_ hR.symm)
      exact RowSpec.layer_glue _ _ _ _ _ _ _ _ _ _ _ _ _ shapeCasts_S64_S1x64
        (Stretch5.inp (WK c) WR h.row h.h h.hcol)
        ((Stretch5.weightsK (WK c)).trans ((congrArg Cert.ReferenceIdeal.Params.wmat2 h.p.a11).trans (Stretch5.weightsR WR).symm))
        (Stretch5.param0K (WK c)) (Stretch5.param1K (WK c)) (Stretch5.param2K (WK c))
        (congrArg Cert.ReferenceIdeal.Params.pvec2 (h.p.a12.trans (Cert.ReferenceIdeal.Carry.keep10 WR Cert.ReferenceIdeal.main_arg12 (by decide)).symm))
        (congrArg Cert.ReferenceIdeal.Params.pvec2 (h.p.a13.trans (Cert.ReferenceIdeal.Carry.keep10 WR Cert.ReferenceIdeal.main_arg13 (by decide)).symm))
        (congrArg Cert.ReferenceIdeal.Params.pvec2 (h.p.a14.trans (Cert.ReferenceIdeal.Carry.keep10 WR Cert.ReferenceIdeal.main_arg14 (by decide)).symm)) }

end Cert.Join

end
-- ==== Proof.Chain.lean ====
/-
  The two programs' results agree.

  The kernel program's buffer contents at its twelve segment boundaries (`Gen.W0 … Gen.W12`) are, two boundaries at a
  time, the half-layer steps `nextK0 … nextK5`; the reference's contents after all its operations are the steps
  `nextR0 … nextR5` in turn.  From memories that agree on the arguments, the six half-layers carry the agreement from
  the launch to the end, where it says that the two results are equal.
-/
import proofs.«133353_j47820165873981_1_alg».proof.Proof.Half0
import proofs.«133353_j47820165873981_1_alg».proof.Proof.Half1
import proofs.«133353_j47820165873981_1_alg».proof.Proof.Half2
import proofs.«133353_j47820165873981_1_alg».proof.Proof.Half3
import proofs.«133353_j47820165873981_1_alg».proof.Proof.Half4
import proofs.«133353_j47820165873981_1_alg».proof.Proof.Half5
import proofs.«133353_j47820165873981_1_alg».proof.Proof.RefFold

set_option maxRecDepth 16384
set_option maxHeartbeats 1000000

noncomputable section

namespace Cert.Join

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- Each pair of boundaries of the kernel program is one half-layer step. -/
theorem W2_eq (c : Dev nD) : W2 m ρ c = nextK0 (W0 m ρ) c := rfl
theorem W4_eq (c : Dev nD) : W4 m ρ c = nextK1 (W2 m ρ) c := rfl
theorem W6_eq (c : Dev nD) : W6 m ρ c = nextK2 (W4 m ρ) c := rfl
theorem W8_eq (c : Dev nD) : W8 m ρ c = nextK3 (W6 m ρ) c := rfl
theorem W10_eq (c : Dev nD) : W10 m ρ c = nextK4 (W8 m ρ) c := rfl
theorem W12_eq (c : Dev nD) : W12 m ρ c = nextK5 (W10 m ρ) c := rfl

/-- From launch memories that agree on the arguments, the kernel program's last boundary and the reference's final
    contents hold the same two results. -/
theorem results_agree (WR : RVal) (c : Dev nD) (h0 : Agree0 (W0 m ρ c) WR) :
    Agree6 (W12 m ρ c) (StableHlo.after (Cert.ReferenceIdeal.RefOps.ops (F := Ideal)) WR) := by
  have h1 := half0 (W0 m ρ) WR c h0
  rw [← W2_eq] at h1
  have h2 := half1 (W2 m ρ) _ c h1
  rw [← W4_eq] at h2
  have h3 := half2 (W4 m ρ) _ c h2
  rw [← W6_eq] at h3
  have h4 := half3 (W6 m ρ) _ c h3
  rw [← W8_eq] at h4
  have h5 := half4 (W8 m ρ) _ c h4
  rw [← W10_eq] at h5
  have h6 := half5 (W10 m ρ) _ c h5
  rw [← W12_eq] at h6
  rw [Cert.ReferenceIdeal.Fold.after_ops]
  exact h6

end Cert.Join

end
-- ==== Proof.lean ====
/-
  The certificate: a three-layer message-passing network, computed with six launches of one layer kernel against a
  plain reference, equal as extended reals.

  Both programs project the node features, and then three times: gather the features along the edges, sum them into
  the edges' sources, and apply to nodes and to edges one layer — a product with a weight matrix, a bias, a cut-off at
  zero and a normalisation of every row.  The kernel program computes each layer with a launch of one kernel over
  blocks of 10000 rows; the reference with host operations on the whole array.  Read on the extended reals every
  launch and every reference block is the same row-wise function (`RowSpec.layer`), and everything between the layers
  is the same composition of host operations in both programs, so the results are equal from memories that agree on
  the arguments.  No law that needs finite values is used: the two sides are the same sums and products.

  The three frames: the kernel programs' are the frames of their twelve-segment runs; the reference's is its
  straight-line run, no operation of which writes an argument.  Nothing was rewritten when the kernel program was
  idealized, so there is nothing to preserve.
-/
import proofs.«133353_j47820165873981_1_alg».proof.Defs
import proofs.«133353_j47820165873981_1_alg».proof.Proof.Gen.Kernel
import proofs.«133353_j47820165873981_1_alg».proof.Proof.Gen.Kernel.Skeleton
import proofs.«133353_j47820165873981_1_alg».proof.Proof.Gen.Kernel.Launch
import proofs.«133353_j47820165873981_1_alg».proof.Proof.Gen.Kernel.Points
import proofs.«133353_j47820165873981_1_alg».proof.Proof.Gen.Kernel.Frame
import proofs.«133353_j47820165873981_1_alg».proof.Proof.Gen.KernelIdeal
import proofs.«133353_j47820165873981_1_alg».proof.Proof.Gen.KernelIdeal.Skeleton
import proofs.«133353_j47820165873981_1_alg».proof.Proof.Gen.KernelIdeal.Launch
import proofs.«133353_j47820165873981_1_alg».proof.Proof.Gen.KernelIdeal.Points
import proofs.«133353_j47820165873981_1_alg».proof.Proof.Gen.KernelIdeal.Frame
import proofs.«133353_j47820165873981_1_alg».proof.Proof.Gen.ReferenceIdeal
import proofs.«133353_j47820165873981_1_alg».proof.Proof.Gen.Pre_finite_inputs
import proofs.«133353_j47820165873981_1_alg».proof.Proof.KRun
import proofs.«133353_j47820165873981_1_alg».proof.Proof.RefFold
import proofs.«133353_j47820165873981_1_alg».proof.Proof.Chain
import Idealize.ShloMosaic.Adequacy
import Idealize.ShloMosaic.Init

set_option maxRecDepth 16384
set_option maxHeartbeats 1000000

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference runs, and no operation writes an argument. -/
theorem frame_ri : Cert.frame_ReferenceIdeal := fun m ρ _ =>
  (θ_run Cert.ReferenceIdeal.defs _ _).mono
    (fun r h c => ⟨(h c Cert.ReferenceIdeal.main_arg0).trans (Cert.ReferenceIdeal.Fold.kept_arg0 m c),
      (h c Cert.ReferenceIdeal.main_arg1).trans (Cert.ReferenceIdeal.Fold.kept_arg1 m c),
      (h c Cert.ReferenceIdeal.main_arg2).trans (Cert.ReferenceIdeal.Fold.kept_arg2 m c),
      (h c Cert.ReferenceIdeal.main_arg3).trans (Cert.ReferenceIdeal.Fold.kept_arg3 m c),
      (h c Cert.ReferenceIdeal.main_arg4).trans (Cert.ReferenceIdeal.Fold.kept_arg4 m c),
      (h c Cert.ReferenceIdeal.main_arg5).trans (Cert.ReferenceIdeal.Fold.kept_arg5 m c),
      (h c Cert.ReferenceIdeal.main_arg6).trans (Cert.ReferenceIdeal.Fold.kept_arg6 m c),
      (h c Cert.ReferenceIdeal.main_arg7).trans (Cert.ReferenceIdeal.Fold.kept_arg7 m c),
      (h c Cert.ReferenceIdeal.main_arg8).trans (Cert.ReferenceIdeal.Fold.kept_arg8 m c),
      (h c Cert.ReferenceIdeal.main_arg9).trans (Cert.ReferenceIdeal.Fold.kept_arg9 m c),
      (h c Cert.ReferenceIdeal.main_arg10).trans (Cert.ReferenceIdeal.Fold.kept_arg10 m c),
      (h c Cert.ReferenceIdeal.main_arg11).trans (Cert.ReferenceIdeal.Fold.kept_arg11 m c),
      (h c Cert.ReferenceIdeal.main_arg12).trans (Cert.ReferenceIdeal.Fold.kept_arg12 m c),
      (h c Cert.ReferenceIdeal.main_arg13).trans (Cert.ReferenceIdeal.Fold.kept_arg13 m c),
      (h c Cert.ReferenceIdeal.main_arg14).trans (Cert.ReferenceIdeal.Fold.kept_arg14 m c)⟩)
    (Cert.ReferenceIdeal.Fold.run m ρ)

theorem preserves : Cert.preserves_Kernel_KernelIdeal := trivial

/-- From memories that agree on the arguments both idealized programs run, and end with equal results: the kernel
    program's two results are its last boundary's contents, the reference's its operations' fold, and the six
    half-layers make them agree. -/
theorem algebraic : Cert.algebraic_KernelIdeal_ReferenceIdeal := by
  intro m ρ m' ρ' _ hagree
  refine ⟨fun c => Cert.KernelIdeal.Gen.W12 m ρ c (Proc.devRef .tc Cert.KernelIdeal.main_v120), fun c => Cert.KernelIdeal.Gen.W12 m ρ c (Proc.devRef .tc Cert.KernelIdeal.main_v140),
    Cert.KernelIdeal.Run.run_values (F := Ideal) m ρ, ?_⟩
  refine (θ_run Cert.ReferenceIdeal.defs _ _).mono (fun r h c => ?_) (Cert.ReferenceIdeal.Fold.run m' ρ')
  obtain ⟨e0, e1, e2, e3, e4, e5, e6, e7, e8, e9, e10, e11, e12, e13, e14⟩ := hagree c
  have hA : Cert.Join.Agree6 (Cert.KernelIdeal.Gen.W12 m ρ c) (StableHlo.after (Cert.ReferenceIdeal.RefOps.ops (F := Ideal)) (launchContents m' c)) :=
    Cert.Join.results_agree m ρ (launchContents m' c) c
      { p := { a7 := e7.symm, a8 := e8.symm, a9 := e9.symm, a10 := e10.symm, a11 := e11.symm, a12 := e12.symm, a13 := e13.symm, a14 := e14.symm },
        a0 := e0.symm, a1 := e1.symm, a3 := e3.symm, a4 := e4.symm }
  exact ⟨(h c Cert.ReferenceIdeal.main_v245).trans hA.nodes.symm, (h c Cert.ReferenceIdeal.main_v290).trans hA.edges.symm,
    (h c Cert.ReferenceIdeal.main_arg0).trans (Cert.ReferenceIdeal.Fold.kept_arg0 m' c),
    (h c Cert.ReferenceIdeal.main_arg1).trans (Cert.ReferenceIdeal.Fold.kept_arg1 m' c),
    (h c Cert.ReferenceIdeal.main_arg2).trans (Cert.ReferenceIdeal.Fold.kept_arg2 m' c),
    (h c Cert.ReferenceIdeal.main_arg3).trans (Cert.ReferenceIdeal.Fold.kept_arg3 m' c),
    (h c Cert.ReferenceIdeal.main_arg4).trans (Cert.ReferenceIdeal.Fold.kept_arg4 m' c),
    (h c Cert.ReferenceIdeal.main_arg5).trans (Cert.ReferenceIdeal.Fold.kept_arg5 m' c),
    (h c Cert.ReferenceIdeal.main_arg6).trans (Cert.ReferenceIdeal.Fold.kept_arg6 m' c),
    (h c Cert.ReferenceIdeal.main_arg7).trans (Cert.ReferenceIdeal.Fold.kept_arg7 m' c),
    (h c Cert.ReferenceIdeal.main_arg8).trans (Cert.ReferenceIdeal.Fold.kept_arg8 m' c),
    (h c Cert.ReferenceIdeal.main_arg9).trans (Cert.ReferenceIdeal.Fold.kept_arg9 m' c),
    (h c Cert.ReferenceIdeal.main_arg10).trans (Cert.ReferenceIdeal.Fold.kept_arg10 m' c),
    (h c Cert.ReferenceIdeal.main_arg11).trans (Cert.ReferenceIdeal.Fold.kept_arg11 m' c),
    (h c Cert.ReferenceIdeal.main_arg12).trans (Cert.ReferenceIdeal.Fold.kept_arg12 m' c),
    (h c Cert.ReferenceIdeal.main_arg13).trans (Cert.ReferenceIdeal.Fold.kept_arg13 m' c),
    (h c Cert.ReferenceIdeal.main_arg14).trans (Cert.ReferenceIdeal.Fold.kept_arg14 m' c)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
